-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v67)) (v3 : (c : Dev Cert.KernelIdeal.nD) → Buf (Elt Ideal) ((c.tc : Thread Cert.KernelIdeal.nD Cert.KernelIdeal.τ).loc Cert.KernelIdeal.main_v66)) (v4 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v67) = v2 c
          ∧ r.2.mem ((c.tc : Thread Cert.KernelIdeal.nD Cert.KernelIdeal.τ).loc Cert.KernelIdeal.main_v66) = v3 c
          ∧ r.2.mem ((c.tc : Thread Cert.KernelIdeal.nD Cert.KernelIdeal.τ).loc Cert.KernelIdeal.main_v68) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v144) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12800000 : Shape := ⟨1, ![12800000]⟩
abbrev S200000 : Shape := ⟨1, ![200000]⟩
abbrev S2x12800000 : Shape := ⟨2, ![2, 12800000]⟩
abbrev S_ : Shape := ⟨0, ![]⟩

class Facts : Prop where
  bcast_S_S12800000 : S_.BroadcastsInDim S12800000 (![] : Fin 0 → Fin S12800000.rank)
  reducesTo_S12800000_S_d0 : S12800000.ReducesTo [0] S_
  h_S_ : 0 < S_.numel
  bcast_S_S200000 : S_.BroadcastsInDim S200000 (![] : Fin 0 → Fin S200000.rank)
  reducesTo_S200000_S_d0 : S200000.ReducesTo [0] S_

variable [Facts]

def fn {F : FTy → Type} [FloatOps F] (main_arg0 : FVec F S12800000 .f32) (main_arg1 : FVec F S200000 .f32) (main_arg2 : IVec S200000 32) (main_arg3 : IVec S200000 32) (main_arg4 : IVec S2x12800000 32) : IVec S_ 1 :=
  let main_v0 : FVec F S12800000 .f32 := Host.absf main_arg0
  let main_cst : FVec F S_ .f32 := constant S_ .f32 0x7F800000#32
  let main_v1 : FVec F S12800000 .f32 := broadcastInDim S12800000 ![] bcast_S_S12800000 main_cst
  let main_v2 : IVec S12800000 1 := cmpf .olt main_v0 main_v1
  let main_c : IVec S_ 1 := constantI S_ 1 1#1
  let main_v3 : IVec S_ 1 := (fun x v => Host.reduce IntOp.andi x v reducesTo_S12800000_S_d0 h_S_) main_v2 main_c
  let main_v4 : FVec F S200000 .f32 := Host.absf main_arg1
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  main_v8
-- ==== Kernel.lean ====
abbrev S12800000 : Shape := ⟨1, ![12800000]⟩
abbrev S200000 : Shape := ⟨1, ![200000]⟩
abbrev S2x12800000 : Shape := ⟨2, ![2, 12800000]⟩
abbrev S1x12800000 : Shape := ⟨2, ![1, 12800000]⟩
abbrev S_ : Shape := ⟨0, ![]⟩
abbrev S12800000x1 : Shape := ⟨2, ![12800000, 1]⟩
abbrev S100000x128 : Shape := ⟨2, ![100000, 128]⟩
abbrev S2x2x128 : Shape := ⟨3, ![2, 2, 128]⟩
abbrev S10000x128 : Shape := ⟨2, ![10000, 128]⟩
abbrev S1x2x128 : Shape := ⟨3, ![1, 2, 128]⟩
abbrev S2x128 : Shape := ⟨2, ![2, 128]⟩
abbrev S1x128 : Shape := ⟨2, ![1, 128]⟩
abbrev S128 : Shape := ⟨1, ![128]⟩
abbrev S2x1x128 : Shape := ⟨3, ![2, 1, 128]⟩
abbrev S200704 : Shape := ⟨1, ![200704]⟩
abbrev S1568x128 : Shape := ⟨2, ![1568, 128]⟩

abbrev nBuf : Space → Nat
  | .hbm => 102
  | .vmem => 10
  | .smem => 0
  | _ => 0

abbrev bufTy : (tb : Table) → Fin (tcTables nBuf tb) → BufTy
  | .hbm, ⟨0, _⟩ => ⟨S12800000, .f32⟩
  | .hbm, ⟨1, _⟩ => ⟨S200000, .f32⟩
  | .hbm, ⟨2, _⟩ => ⟨S200000, .i32⟩
  | .hbm, ⟨3, _⟩ => ⟨S200000, .i32⟩
  | .hbm, ⟨4, _⟩ => ⟨S2x12800000, .i32⟩
  | .hbm, ⟨5, _⟩ => ⟨S1x12800000, .i32⟩
  | .hbm, ⟨6, _⟩ => ⟨S12800000, .i32⟩
  | .hbm, ⟨7, _⟩ => ⟨S1x12800000, .i32⟩
  | .hbm, ⟨8, _⟩ => ⟨S12800000, .i32⟩
  | .hbm, ⟨9, _⟩ => ⟨S_, .i32⟩
  | .hbm, ⟨10, _⟩ => ⟨S12800000, .i32⟩
  | .hbm, ⟨11, _⟩ => ⟨S12800000, .i1⟩
  | .hbm, ⟨12, _⟩ => ⟨S_, .i32⟩
  | .hbm, ⟨13, _⟩ => ⟨S12800000, .i32⟩
  | .hbm, ⟨14, _⟩ => ⟨S12800000, .i32⟩
  | .hbm, ⟨15, _⟩ => ⟨S12800000, .i32⟩
  | .hbm, ⟨16, _⟩ => ⟨S12800000x1, .i32⟩
  | .hbm, ⟨17, _⟩ => ⟨S12800000, .i32⟩
  | .hbm, ⟨18, _⟩ => ⟨S_, .i32⟩
  | .hbm, ⟨19, _⟩ => ⟨S12800000, .i32⟩
  | .hbm, ⟨20, _⟩ => ⟨S12800000, .i1⟩
  | .hbm, ⟨21, _⟩ => ⟨S_, .i32⟩
  | .hbm, ⟨22, _⟩ => ⟨S12800000, .i32⟩
  | .hbm, ⟨23, _⟩ => ⟨S12800000, .i32⟩
  | .hbm, ⟨24, _⟩ => ⟨S12800000, .i32⟩
  | .hbm, ⟨25, _⟩ => ⟨S12800000x1, .i32⟩
  | .hbm, ⟨26, _⟩ => ⟨S12800000, .i32⟩
  | .hbm, ⟨27, _⟩ => ⟨S_, .i32⟩
  | .hbm, ⟨28, _⟩ => ⟨S12800000, .i32⟩
  | .hbm, ⟨29, _⟩ => ⟨S12800000, .i1⟩
  | .hbm, ⟨30, _⟩ => ⟨S_, .i32⟩
  | .hbm, ⟨31, _⟩ => ⟨S12800000, .i32⟩
  | .hbm, ⟨32, _⟩ => ⟨S12800000, .i32⟩
  | .hbm, ⟨33, _⟩ => ⟨S12800000, .i32⟩
  | .hbm, ⟨34, _⟩ => ⟨S12800000x1, .i32⟩
  | .hbm, ⟨35, _⟩ => ⟨S12800000, .i32⟩
  | .hbm, ⟨36, _⟩ => ⟨S_, .i32⟩
  | .hbm, ⟨37, _⟩ => ⟨S12800000, .i32⟩
  | .hbm, ⟨38, _⟩ => ⟨S12800000, .i1⟩
  | .hbm, ⟨39, _⟩ => ⟨S_, .i32⟩
  | .hbm, ⟨40, _⟩ => ⟨S12800000, .i32⟩
  | .hbm, ⟨41, _⟩ => ⟨S12800000, .i32⟩
  | .hbm, ⟨42, _⟩ => ⟨S12800000, .i32⟩
  | .hbm, ⟨43, _⟩ => ⟨S12800000x1, .i32⟩
  | .hbm, ⟨44, _⟩ => ⟨S12800000, .i32⟩
  | .hbm, ⟨45, _⟩ => ⟨S12800000, .i1⟩
  | .hbm, ⟨46, _⟩ => ⟨S12800000, .i1⟩
  | .hbm, ⟨47, _⟩ => ⟨S12800000, .i1⟩
  | .hbm, ⟨48, _⟩ => ⟨S_, .i32⟩
  | .hbm, ⟨49, _⟩ => ⟨S12800000, .i32⟩
  | .hbm, ⟨50, _⟩ => ⟨S12800000, .i1⟩
  | .hbm, ⟨51, _⟩ => ⟨S12800000, .i1⟩
  | .hbm, ⟨52, _⟩ => ⟨S_, .i32⟩
  | .hbm, ⟨53, _⟩ => ⟨S12800000, .i32⟩
  | .hbm, ⟨54, _⟩ => ⟨S12800000, .i1⟩
  | .hbm, ⟨55, _⟩ => ⟨S12800000, .i1⟩
  | .hbm, ⟨56, _⟩ => ⟨S12800000, .bf16⟩
  | .hbm, ⟨57, _⟩ => ⟨S_, .i32⟩
  | .hbm, ⟨58, _⟩ => ⟨S200000, .i32⟩
  | .hbm, ⟨59, _⟩ => ⟨S200000, .i1⟩
  | .hbm, ⟨60, _⟩ => ⟨S200000, .f32⟩
  | .hbm, ⟨61, _⟩ => ⟨S100000x128, .f32⟩
  | .hbm, ⟨62, _⟩ => ⟨S100000x128, .bf16⟩
  | .hbm, ⟨63, _⟩ => ⟨S2x2x128, .f32⟩
  | .hbm, ⟨64, _⟩ => ⟨S2x1x128, .f32⟩
  | .hbm, ⟨65, _⟩ => ⟨S2x128, .f32⟩
  | .hbm, ⟨66, _⟩ => ⟨S_, .f32⟩
  | .hbm, ⟨67, _⟩ => ⟨S_, .f32⟩
  | .hbm, ⟨68, _⟩ => ⟨S2x1x128, .f32⟩
  | .hbm, ⟨69, _⟩ => ⟨S2x128, .f32⟩
  | .hbm, ⟨70, _⟩ => ⟨S_, .f32⟩
  | .hbm, ⟨71, _⟩ => ⟨S_, .f32⟩
  | .hbm, ⟨72, _⟩ => ⟨S_, .i32⟩
  | .hbm, ⟨73, _⟩ => ⟨S_, .f32⟩
  | .hbm, ⟨74, _⟩ => ⟨S200704, .f32⟩
  | .hbm, ⟨75, _⟩ => ⟨S1568x128, .f32⟩
  | .hbm, ⟨76, _⟩ => ⟨S_, .i32⟩
  | .hbm, ⟨77, _⟩ => ⟨S_, .f32⟩
  | .hbm, ⟨78, _⟩ => ⟨S200704, .f32⟩
  | .hbm, ⟨79, _⟩ => ⟨S1568x128, .f32⟩
  | .hbm, ⟨80, _⟩ => ⟨S2x128, .f32⟩
  | .hbm, ⟨81, _⟩ => ⟨S1x128, .f32⟩
  | .hbm, ⟨82, _⟩ => ⟨S128, .f32⟩
  | .hbm, ⟨83, _⟩ => ⟨S_, .f32⟩
  | .hbm, ⟨84, _⟩ => ⟨S_, .f32⟩
  | .hbm, ⟨85, _⟩ => ⟨S1x128, .f32⟩
  | .hbm, ⟨86, _⟩ => ⟨S128, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .local _ .vmem, ⟨0, _⟩ => ⟨S10000x128, .f32⟩
  | .local _ .vmem, ⟨1, _⟩ => ⟨S10000x128, .f32⟩
  | .local _ .vmem, ⟨2, _⟩ => ⟨S10000x128, .bf16⟩
  | .local _ .vmem, ⟨3, _⟩ => ⟨S10000x128, .bf16⟩
  | .local _ .vmem, ⟨4, _⟩ => ⟨S1x2x128, .f32⟩
  | .local _ .vmem, ⟨5, _⟩ => ⟨S1x2x128, .f32⟩
  | .local _ .vmem, ⟨6, _⟩ => ⟨S2x128, .f32⟩
  | .local _ .vmem, ⟨7, _⟩ => ⟨S1568x128, .f32⟩
  | .local _ .vmem, ⟨8, _⟩ => ⟨S1568x128, .f32⟩
  | .local _ .vmem, ⟨9, _⟩ => ⟨S2x128, .f32⟩
  | _, _ => ⟨S12800000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_c_11 : Ref sig .tc := ⟨.hbm, 72, rfl⟩
abbrev main_call0_v0 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_call1_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_cst_19 : Ref sig .tc := ⟨.hbm, 97, rfl⟩
abbrev main_v69 : Ref sig .tc := ⟨.hbm, 98, rfl⟩
abbrev main_cst_20 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v59 : BitVec 1 := Scalar.cmpi .eq arg1 c4_i32
  let v60 : BitVec 32 := Scalar.extui v59
  let c0_i32_21 : BitVec 32 := 0#32
  let v61 : BitVec 1 := Scalar.cmpi .ne v60 c0_i32_21
  v61

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1568x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1568x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S_S200000 : S_.BroadcastsInDim S200000 (![] : Fin 0 → Fin S200000.rank)
  shapeCasts_S12800000_S100000x128 : S12800000.ShapeCasts S100000x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  natLt_1_32 : 1 < 32
  inb_S2x128_S1x128_0_0 : ∀ a, (![0, 0] : Fin 2 → Nat) a + S1x128.size a ≤ S2x128.size a
  h_S1x128 : 0 < S1x128.numel
  shapeCasts_S1x128_S128 : S1x128.ShapeCasts S128
  reduces_S10000x128_S128 : S10000x128.Reduces [0] S128
  shapeCasts_S128_S1x128 : S128.ShapeCasts S1x128
  inb_S2x128_S1x128_1_0 : ∀ a, (![1, 0] : Fin 2 → Nat) a + S1x128.size a ≤ S2x128.size a
  inb_S1x2x128_S1x2x128_0_0_0 : ∀ a, (![0, 0, 0] : Fin 3 → Nat) a + S1x2x128.size a ≤ S1x2x128.size a
  h_S1x2x128 : 0 < S1x2x128.numel
  shapeCasts_S1x2x128_S2x128 : S1x2x128.ShapeCasts S2x128
  shapeCasts_S2x128_S1x2x128 : S2x128.ShapeCasts S1x2x128
  slices_S2x2x128_S2x1x128_0_0_0 : S2x2x128.Slices ![0, 0, 0] S2x1x128
  shapeCasts_S2x1x128_S2x128 : S2x1x128.ShapeCasts S2x128
  reducesTo_S2x128_S_d0_1 : S2x128.ReducesTo [0, 1] S_
  h_S_ : 0 < S_.numel
  slices_S2x2x128_S2x1x128_0_1_0 : S2x2x128.Slices ![0, 1, 0] S2x1x128
  pads_S200000_S200704_07040 : S200000.Pads (![0] : Fin 1 → Nat) ![704] ![0] S200704
  shapeCasts_S200704_S1568x128 : S200704.ShapeCasts S1568x128
  inb_S1568x128_S1568x128_0_0 : ∀ a, (![0, 0] : Fin 2 → Nat) a + S1568x128.size a ≤ S1568x128.size a
  h_S1568x128 : 0 < S1568x128.numel
  shapeCasts_S1568x128_S1568x128 : S1568x128.ShapeCasts S1568x128
  iota_S1568x128_d0_w32 : S1568x128.Iotas .tc 32 [0]
  iota_S1568x128_d1_w32 : S1568x128.Iotas .tc 32 [1]
  reduces_S1568x128_S128 : S1568x128.Reduces [0] S128
  slices_S2x128_S1x128_0_0 : S2x128.Slices ![0, 0] S1x128
  reducesTo_S128_S_d0 : S128.ReducesTo [0] S_
  slices_S2x128_S1x128_1_0 : S2x128.Slices ![1, 0] S1x128
  gather_S200000_S12800000x1_S12800000_n_0_n_n_0_1_1_wf : GatherDims.WF S200000 S12800000x1 S12800000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .bf16 = 32 ∨ (Rect.block (s := S100000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x128.size a ≤ S2x2x128.size a
  hwx0_2 : ∀ i : grid0.Coords, EltTy.bits .f32 = 32 ∨ (Rect.block (s := S2x2x128) S1x2x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1568x128.size a ≤ S1568x128.size a
  hwx1_0 : ∀ i : grid1.Coords, EltTy.bits .f32 = 32 ∨ (Rect.block (s := S1568x128) S1568x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1568x128.size a ≤ S1568x128.size a
  hwx1_1 : ∀ i : grid1.Coords, EltTy.bits .f32 = 32 ∨ (Rect.block (s := S1568x128) S1568x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128.size a ≤ S2x128.size a
  hwx1_2 : ∀ i : grid1.Coords, EltTy.bits .f32 = 32 ∨ (Rect.block (s := S2x128) S2x128.size (cc1_transform_2 i) (hinb1_2 i)).WholeWords (EltTy.packing .f32)

variable [Facts₀]

def gather_S200000_S12800000x1_S12800000_n_0_n_n_0_1_1 : GatherDims S200000 S12800000x1 S12800000 where
  offsetDims := []
  collapsedSliceDims := [0]
  operandBatchingDims := []
  startIndicesBatchingDims := []
  startIndexMap := [0]
  indexVectorDim := 1
  sliceSizes := ![1]
  wf := gather_S200000_S12800000x1_S12800000_n_0_n_n_0_1_1_wf

abbrev win0_0 : Pipeline.Window sig grid0 :=
  Pipeline.Window.ofSpec (Memref.whole main_v45) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x2x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v55) S1568x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1568x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S2x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S12800000 : Shape := ⟨1, ![12800000]⟩
abbrev S200000 : Shape := ⟨1, ![200000]⟩
abbrev S2x12800000 : Shape := ⟨2, ![2, 12800000]⟩
abbrev S1x12800000 : Shape := ⟨2, ![1, 12800000]⟩
abbrev S_ : Shape := ⟨0, ![]⟩
abbrev S12800000x1 : Shape := ⟨2, ![12800000, 1]⟩

abbrev nBuf : Space → Nat
  | .hbm => 200
  | .vmem => 0
  | .smem => 0
  | _ => 0

abbrev hbmTy0_0 (i : Nat) : BufTy := match i % 128 with
  | 0 => ⟨S12800000, .f32⟩
  | 1 => ⟨S200000, .f32⟩
  | 2 => ⟨S200000, .i32⟩
  | 3 => ⟨S200000, .i32⟩
  | 4 => ⟨S2x12800000, .i32⟩
  | 5 => ⟨S1x12800000, .i32⟩
  | 6 => ⟨S12800000, .i32⟩
  | 7 => ⟨S1x12800000, .i32⟩
  | 8 => ⟨S12800000, .i32⟩
  | 9 => ⟨S_, .i32⟩
  | 10 => ⟨S12800000, .i32⟩
  | 11 => ⟨S12800000, .i1⟩
  | 12 => ⟨S_, .i32⟩
  | 13 => ⟨S12800000, .i32⟩
  | 14 => ⟨S12800000, .i32⟩
  | 15 => ⟨S12800000, .i32⟩
  | 16 => ⟨S12800000x1, .i32⟩
  | 17 => ⟨S12800000, .i32⟩
  | 18 => ⟨S_, .i32⟩
  | 19 => ⟨S12800000, .i32⟩
  | 20 => ⟨S12800000, .i1⟩
  | 21 => ⟨S_, .i32⟩
  | 22 => ⟨S12800000, .i32⟩
  | 23 => ⟨S12800000, .i32⟩
  | 24 => ⟨S12800000, .i32⟩
  | 25 => ⟨S12800000x1, .i32⟩
  | 26 => ⟨S12800000, .i32⟩
  | 27 => ⟨S12800000, .i1⟩
  | 28 => ⟨S_, .i32⟩
  | 29 => ⟨S12800000, .i32⟩
  | 30 => ⟨S12800000, .i1⟩
  | 31 => ⟨S_, .i32⟩
  | 32 => ⟨S12800000, .i32⟩
  | 33 => ⟨S12800000, .i32⟩
  | 34 => ⟨S12800000, .i32⟩
  | 35 => ⟨S12800000x1, .i32⟩
  | 36 => ⟨S12800000, .i32⟩
  | 37 => ⟨S_, .i32⟩
  | 38 => ⟨S12800000, .i32⟩
  | 39 => ⟨S12800000, .i1⟩
  | 40 => ⟨S_, .i32⟩
  | 41 => ⟨S12800000, .i32⟩
  | 42 => ⟨S12800000, .i32⟩
  | 43 => ⟨S12800000, .i32⟩
  | 44 => ⟨S12800000x1, .i32⟩
  | 45 => ⟨S12800000, .i32⟩
  | 46 => ⟨S12800000, .i1⟩
  | 47 => ⟨S12800000, .i1⟩
  | 48 => ⟨S_, .i32⟩
  | 49 => ⟨S12800000, .i32⟩
  | 50 => ⟨S12800000, .i1⟩
  | 51 => ⟨S12800000, .i1⟩
  | 52 => ⟨S_, .i32⟩
  | 53 => ⟨S12800000, .i32⟩
  | 54 => ⟨S12800000, .i1⟩
  | 55 => ⟨S12800000, .i1⟩
  | 56 => ⟨S12800000, .f32⟩
  | 57 => ⟨S12800000, .f32⟩
  | 58 => ⟨S12800000, .f32⟩
  | 59 => ⟨S_, .f32⟩
  | 60 => ⟨S12800000, .f32⟩
  | 61 => ⟨S12800000, .f32⟩
  | 62 => ⟨S_, .f32⟩
  | 63 => ⟨S12800000, .f32⟩
  | 64 => ⟨S12800000, .f32⟩
  | 65 => ⟨S_, .f32⟩
  | 66 => ⟨S12800000, .f32⟩
  | 67 => ⟨S12800000, .f32⟩
  | 68 => ⟨S12800000, .f32⟩
  | 69 => ⟨S12800000, .f32⟩
  | 70 => ⟨S12800000, .f32⟩
  | 71 => ⟨S12800000, .f32⟩
  | 72 => ⟨S12800000, .f32⟩
  | 73 => ⟨S12800000, .f32⟩
  | 74 => ⟨S12800000, .f32⟩
  | 75 => ⟨S12800000, .f32⟩
  | 76 => ⟨S_, .f32⟩
  | 77 => ⟨S12800000, .f32⟩
  | 78 => ⟨S12800000, .f32⟩
  | 79 => ⟨S_, .f32⟩
  | 80 => ⟨S12800000, .f32⟩
  | 81 => ⟨S12800000, .f32⟩
  | 82 => ⟨S12800000, .f32⟩
  | 83 => ⟨S12800000, .f32⟩
  | 84 => ⟨S_, .f32⟩
  | 85 => ⟨S12800000, .f32⟩
  | 86 => ⟨S12800000, .f32⟩
  | 87 => ⟨S_, .f32⟩
  | 88 => ⟨S12800000, .f32⟩
  | 89 => ⟨S12800000, .f32⟩
  | 90 => ⟨S12800000, .f32⟩
  | 91 => ⟨S_, .f32⟩
  | 92 => ⟨S12800000, .f32⟩
  | 93 => ⟨S12800000, .f32⟩
  | 94 => ⟨S_, .f32⟩
  | 95 => ⟨S12800000, .f32⟩
  | 96 => ⟨S12800000, .f32⟩
  | 97 => ⟨S_, .f32⟩
  | 98 => ⟨S12800000, .f32⟩
  | 99 => ⟨S12800000, .f32⟩
  | 100 => ⟨S12800000, .f32⟩
  | 101 => ⟨S12800000, .f32⟩
  | 102 => ⟨S_, .f32⟩
  | 103 => ⟨S_, .f32⟩
  | 104 => ⟨S_, .f32⟩
  | 105 => ⟨S_, .f32⟩
  | 106 => ⟨S12800000, .f32⟩
  | 107 => ⟨S12800000, .f32⟩
  | 108 => ⟨S_, .f32⟩
  | 109 => ⟨S12800000, .f32⟩
  | 110 => ⟨S12800000, .f32⟩
  | 111 => ⟨S_, .f32⟩
  | 112 => ⟨S12800000, .f32⟩
  | 113 => ⟨S12800000, .f32⟩
  | 114 => ⟨S_, .f32⟩
  | 115 => ⟨S12800000, .f32⟩
  | 116 => ⟨S12800000, .i1⟩
  | 117 => ⟨S12800000, .f32⟩
  | 118 => ⟨S12800000, .i1⟩
  | 119 => ⟨S12800000, .f32⟩
  | 120 => ⟨S_, .f32⟩
  | 121 => ⟨S_, .f32⟩
  | 122 => ⟨S_, .f32⟩
  | 123 => ⟨S_, .f32⟩
  | 124 => ⟨S_, .i32⟩
  | 125 => ⟨S200000, .i32⟩
  | 126 => ⟨S200000, .i1⟩
  | 127 => ⟨S200000, .f32⟩
  | _ => ⟨S12800000, .f32⟩

abbrev hbmTy0_1 (i : Nat) : BufTy := match i % 128 with
  | 0 => ⟨S200000, .f32⟩
  | 1 => ⟨S200000, .f32⟩
  | 2 => ⟨S_, .f32⟩
  | 3 => ⟨S200000, .f32⟩
  | 4 => ⟨S200000, .f32⟩
  | 5 => ⟨S_, .f32⟩
  | 6 => ⟨S200000, .f32⟩
  | 7 => ⟨S200000, .f32⟩
  | 8 => ⟨S_, .f32⟩
  | 9 => ⟨S200000, .f32⟩
  | 10 => ⟨S200000, .f32⟩
  | 11 => ⟨S200000, .f32⟩
  | 12 => ⟨S200000, .f32⟩
  | 13 => ⟨S200000, .f32⟩
  | 14 => ⟨S200000, .f32⟩
  | 15 => ⟨S200000, .f32⟩
  | 16 => ⟨S200000, .f32⟩
  | 17 => ⟨S200000, .f32⟩
  | 18 => ⟨S200000, .f32⟩
  | 19 => ⟨S_, .f32⟩
  | 20 => ⟨S200000, .f32⟩
  | 21 => ⟨S200000, .f32⟩
  | 22 => ⟨S_, .f32⟩
  | 23 => ⟨S200000, .f32⟩
  | 24 => ⟨S200000, .f32⟩
  | 25 => ⟨S200000, .f32⟩
  | 26 => ⟨S200000, .f32⟩
  | 27 => ⟨S_, .f32⟩
  | 28 => ⟨S200000, .f32⟩
  | 29 => ⟨S200000, .f32⟩
  | 30 => ⟨S_, .f32⟩
  | 31 => ⟨S200000, .f32⟩
  | 32 => ⟨S200000, .f32⟩
  | 33 => ⟨S200000, .f32⟩
  | 34 => ⟨S_, .f32⟩
  | 35 => ⟨S200000, .f32⟩
  | 36 => ⟨S200000, .f32⟩
  | 37 => ⟨S_, .f32⟩
  | 38 => ⟨S200000, .f32⟩
  | 39 => ⟨S200000, .f32⟩
  | 40 => ⟨S_, .f32⟩
  | 41 => ⟨S200000, .f32⟩
  | 42 => ⟨S200000, .f32⟩
  | 43 => ⟨S200000, .f32⟩
  | 44 => ⟨S200000, .f32⟩
  | 45 => ⟨S_, .f32⟩
  | 46 => ⟨S_, .f32⟩
  | 47 => ⟨S_, .f32⟩
  | 48 => ⟨S_, .f32⟩
  | 49 => ⟨S200000, .f32⟩
  | 50 => ⟨S200000, .f32⟩
  | 51 => ⟨S_, .f32⟩
  | 52 => ⟨S200000, .f32⟩
  | 53 => ⟨S200000, .f32⟩
  | 54 => ⟨S_, .f32⟩
  | 55 => ⟨S200000, .f32⟩
  | 56 => ⟨S200000, .f32⟩
  | 57 => ⟨S_, .f32⟩
  | 58 => ⟨S200000, .f32⟩
  | 59 => ⟨S200000, .i1⟩
  | 60 => ⟨S200000, .f32⟩
  | 61 => ⟨S200000, .i1⟩
  | 62 => ⟨S200000, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | _ => ⟨S12800000, .f32⟩

abbrev hbmTy (i : Nat) : BufTy := match i / 128 with
  | 0 => hbmTy0_0 i
  | 1 => hbmTy0_1 i
  | _ => ⟨S12800000, .f32⟩

abbrev bufTy : (tb : Table) → Fin (tcTables nBuf tb) → BufTy
  | .hbm, ⟨i, _⟩ => hbmTy i
  | _, _ => ⟨S12800000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_cst_17 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_cst_19 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_20 : Ref sig .tc := ⟨.hbm, 108, rfl⟩
abbrev main_v81 : Ref sig .tc := ⟨.hbm, 109, rfl⟩
abbrev main_v82 : Ref sig .tc := ⟨.hbm, 110, rfl⟩
abbrev main_cst_21 : Ref sig .tc := ⟨.hbm, 111, rfl⟩
abbrev main_v83 : Ref sig .tc := ⟨.hbm, 112, rfl⟩
abbrev main_v84 : Ref sig .tc := ⟨.hbm, 113, rfl⟩
abbrev main_cst_22 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_23 : Ref sig .tc := ⟨.hbm, 120, rfl⟩
abbrev main_v90 : Ref sig .tc := ⟨.hbm, 121, rfl⟩
abbrev main_cst_24 : Ref sig .tc := ⟨.hbm, 122, rfl⟩
abbrev main_v91 : Ref sig .tc := ⟨.hbm, 123, rfl⟩
abbrev main_c_25 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_26 : Ref sig .tc := ⟨.hbm, 130, rfl⟩
abbrev main_v97 : Ref sig .tc := ⟨.hbm, 131, rfl⟩
abbrev main_v98 : Ref sig .tc := ⟨.hbm, 132, rfl⟩
abbrev main_cst_27 : Ref sig .tc := ⟨.hbm, 133, rfl⟩
abbrev main_v99 : Ref sig .tc := ⟨.hbm, 134, rfl⟩
abbrev main_v100 : Ref sig .tc := ⟨.hbm, 135, rfl⟩
abbrev main_cst_28 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_29 : Ref sig .tc := ⟨.hbm, 147, rfl⟩
abbrev main_v111 : Ref sig .tc := ⟨.hbm, 148, rfl⟩
abbrev main_v112 : Ref sig .tc := ⟨.hbm, 149, rfl⟩
abbrev main_cst_30 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_31 : Ref sig .tc := ⟨.hbm, 155, rfl⟩
abbrev main_v117 : Ref sig .tc := ⟨.hbm, 156, rfl⟩
abbrev main_v118 : Ref sig .tc := ⟨.hbm, 157, rfl⟩
abbrev main_cst_32 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_33 : Ref sig .tc := ⟨.hbm, 162, rfl⟩
abbrev main_v122 : Ref sig .tc := ⟨.hbm, 163, rfl⟩
abbrev main_v123 : Ref sig .tc := ⟨.hbm, 164, rfl⟩
abbrev main_cst_34 : Ref sig .tc := ⟨.hbm, 165, rfl⟩
abbrev main_v124 : Ref sig .tc := ⟨.hbm, 166, rfl⟩
abbrev main_v125 : Ref sig .tc := ⟨.hbm, 167, rfl⟩
abbrev main_cst_35 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_36 : Ref sig .tc := ⟨.hbm, 173, rfl⟩
abbrev main_v130 : Ref sig .tc := ⟨.hbm, 174, rfl⟩
abbrev main_cst_37 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_38 : Ref sig .tc := ⟨.hbm, 179, rfl⟩
abbrev main_v134 : Ref sig .tc := ⟨.hbm, 180, rfl⟩
abbrev main_v135 : Ref sig .tc := ⟨.hbm, 181, rfl⟩
abbrev main_cst_39 : Ref sig .tc := ⟨.hbm, 182, rfl⟩
abbrev main_v136 : Ref sig .tc := ⟨.hbm, 183, rfl⟩
abbrev main_v137 : Ref sig .tc := ⟨.hbm, 184, rfl⟩
abbrev main_cst_40 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_41 : Ref sig .tc := ⟨.hbm, 191, rfl⟩
abbrev main_v143 : Ref sig .tc := ⟨.hbm, 192, rfl⟩
abbrev main_cst_42 : Ref sig .tc := ⟨.hbm, 193, rfl⟩
abbrev main_v144 : Ref sig .tc := ⟨.hbm, 194, rfl⟩
abbrev main_cst_43 : Ref sig .tc := ⟨.hbm, 195, rfl⟩
abbrev main_v145 : Ref sig .tc := ⟨.hbm, 196, rfl⟩
abbrev main_cst_44 : Ref sig .tc := ⟨.hbm, 197, rfl⟩
abbrev main_v146 : Ref sig .tc := ⟨.hbm, 198, rfl⟩
abbrev main_v147 : Ref sig .tc := ⟨.hbm, 199, rfl⟩

abbrev nD : Nat := 1
abbrev τ : Topo := Topo.v7x

variable {F : FTy → Type} [FloatOps F]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S_S12800000 : S_.BroadcastsInDim S12800000 (![] : Fin 0 → Fin S12800000.rank)
  bcast_S12800000_S12800000x1_0 : S12800000.BroadcastsInDim S12800000x1 (![0] : Fin 1 → Fin S12800000x1.rank)
  reducesTo_S12800000_S_d0 : S12800000.ReducesTo [0] S_
  h_S_ : 0 < S_.numel
  bcast_S_S200000 : S_.BroadcastsInDim S200000 (![] : Fin 0 → Fin S200000.rank)
  reducesTo_S200000_S_d0 : S200000.ReducesTo [0] S_
  gather_S200000_S12800000x1_S12800000_n_0_n_n_0_1_1_wf : GatherDims.WF S200000 S12800000x1 S12800000 [] [0] [] [0] [] 1 ![1]

variable [Facts₀]

def gather_S200000_S12800000x1_S12800000_n_0_n_n_0_1_1 : GatherDims S200000 S12800000x1 S12800000 where
  offsetDims := []
  collapsedSliceDims := [0]
  operandBatchingDims := []
  startIndicesBatchingDims := []
  startIndexMap := [0]
  indexVectorDim := 1
  sliceSizes := ![1]
  wf := gather_S200000_S12800000x1_S12800000_n_0_n_n_0_1_1_wf

class Facts : Prop extends Facts₀ where

variable [Facts]
-- ==== Proof.K.EdgeRuns.lean ====
/-
  The edge kernel's region (the first pallas_call): what its three control cases share. The grid is 2 x 5; point t
  has second coordinate t mod 5. At second coordinate 0 the body first zeroes its 2 x 128 scratch accumulator; at
  every point it adds the tile's two lane sums into the scratch rows; at second coordinate 4 it copies the scratch
  into the output window's block, which the pipeline then writes back. Elsewhere the output window is idle.
-/
import proofs.«169834_j36790689858125_2_alg».proof.Proof.Gen.Kernel.Launch
import proofs.«169834_j36790689858125_2_alg».proof.Proof.Gen.Kernel.Skeleton
import proofs.«169834_j36790689858125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over V that leaves it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first conditional (zero the accumulator): taken where the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- The second conditional (copy the accumulator out): taken where the second grid coordinate is 4. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-- The input windows are never idle; the output window is idle, and not written back, except where the copy is taken. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- One staging buffer of the output window, through which its contents are stated. -/
abbrev VO0_2 : View sig .tc .vmem S1x2x128 .f32 := (Memref.whole cc0_stg2_0 : Memref sig .tc .vmem S1x2x128 .f32).view
/-- Each window's current staging memref at point t, as the pipeline passes it, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x128 .f32 := win0_2.stage (cfg0.slots t 2)
abbrev hs0_2 (t : Fin cfg0.N) : (ms0_2 t).IsWhole := hstage0_2 ((cfg0.slots t 2).cast nbuf0_2)
/-- The scratch accumulator, and the other kernel's staging buffers (scoped buffers this region never touches). -/
abbrev scM0 : Memref sig .tc .vmem S2x128 .f32 := Memref.whole cc0_scratch0
abbrev oM1_0 : Memref sig .tc .vmem S1568x128 .f32 := Memref.whole cc1_stg0_0
abbrev oM1_1 : Memref sig .tc .vmem S1568x128 .f32 := Memref.whole cc1_stg1_0
abbrev oM1_2 : Memref sig .tc .vmem S2x128 .f32 := Memref.whole cc1_stg2_0
abbrev VS0 : View sig .tc .vmem S2x128 .f32 := scM0.view

/-- The class invariant spelt out: every scoped buffer that is no staging buffer of this region owned at some contents,
    and the generator register at some state. -/
theorem PhiA0_eq (c : Dev nD) :
    (Pipeline.ΦA spec0 c : sProp 𝕄)
      = iprop(iprop((∃ d, owns (c : Thread nD τ) scM0 fullShare d) ∗ (∃ d, owns (c : Thread nD τ) oM1_0 fullShare d) ∗ (∃ d, owns (c : Thread nD τ) oM1_1 fullShare d) ∗ (∃ d, owns (c : Thread nD τ) oM1_2 fullShare d)) ∗ (∃ r, prngReg c r)) := by
  unfold Pipeline.ΦA; rw [scopedRest0_eq]; simp only [scM0, oM1_0, oM1_1, oM1_2, owns_whole]; try rfl

end Cert.Kernel.Hand

end
-- ==== Proof.K.EdgeRunA.lean ====
/-
  The edge kernel's body run in control case A (the accumulator is zeroed first; nothing is copied out): the pieces its stores leave in the scratch accumulator (and, in
  the last case, in the output block) are what the symbolic run finds.
-/
import proofs.«169834_j36790689858125_2_alg».proof.Proof.K.EdgeRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : cond0_0 i) (hc1 : ¬cond0_1 i)
    (x0 : Vec F S10000x128 .f32) (x1 : Vec F S10000x128 .bf16) :
    { LS0 : List (View.Piece (Elt F) S2x128 .f32) //
      ∀ (xi2 : Vec F S1x2x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__edge_kernel i arg2 harg2 arg3 harg3 arg4 harg4 arg5 harg5) K } := by
  refine ⟨?_, fun xi2 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.EdgeRunB.lean ====
/-
  The edge kernel's body run in control case B (the accumulator is carried on; nothing is copied out): the pieces its stores leave in the scratch accumulator (and, in
  the last case, in the output block) are what the symbolic run finds.
-/
import proofs.«169834_j36790689858125_2_alg».proof.Proof.K.EdgeRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : ¬cond0_1 i)
    (x0 : Vec F S10000x128 .f32) (x1 : Vec F S10000x128 .bf16) (xs0 : Vec F S2x128 .f32) :
    { LS0 : List (View.Piece (Elt F) S2x128 .f32) //
      ∀ (xi2 : Vec F S1x2x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__edge_kernel i arg2 harg2 arg3 harg3 arg4 harg4 arg5 harg5) K } := by
  refine ⟨?_, fun xi2 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.EdgeRunC.lean ====
/-
  The edge kernel's body run in control case C (the accumulator is carried on and then copied into the output block): the pieces its stores leave in the scratch accumulator (and, in
  the last case, in the output block) are what the symbolic run finds.
-/
import proofs.«169834_j36790689858125_2_alg».proof.Proof.K.EdgeRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) :
    Σ' (L2 : List (View.Piece (Elt F) S1x2x128 .f32)), { LS0 : List (View.Piece (Elt F) S2x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__edge_kernel i arg2 harg2 arg3 harg3 arg4 harg4 arg5 harg5) K } := by
  refine ⟨?_, ?_, fun E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.EdgeFrame.lean ====
/-
  The edge kernel's region: what its scratch accumulator and its output block hold after each grid point, the
  region's proof data, and the body obligation.
  After point n the scratch holds the pieces the point's control case wrote, over what point n - 1 left there (at a
  point whose second coordinate is 0 the body zeroes it first, so nothing earlier is read). The output block is
  written only at the points whose second coordinate is 4: there it receives a copy of the scratch.
-/
import proofs.«169834_j36790689858125_2_alg».proof.Proof.K.EdgeRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each control case leaves -/

theorem scover0_A (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : cond0_0 i) (hc1 : ¬cond0_1 i)
    (x0 : Vec F S10000x128 .f32) (x1 : Vec F S10000x128 .bf16) (y : S2x128.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x128.size (by sl_kernel_rfl) y

/-- The scratch after a point of case A: the case's pieces read back. -/
def sout0_A (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : cond0_0 i) (hc1 : ¬cond0_1 i)
    (x0 : Vec F S10000x128 .f32) (x1 : Vec F S10000x128 .bf16) : Vec F S2x128 .f32 :=
  VS0.read (Elt F) (VS0.writes (Elt F) VS0.junk (kernelRun0_A c i arg2 harg2 arg3 harg3 arg4 harg4 arg5 harg5 hc0 hc1 x0 x1).1)

theorem scover0_B (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : ¬cond0_1 i)
    (x0 : Vec F S10000x128 .f32) (x1 : Vec F S10000x128 .bf16) (xs0 : Vec F S2x128 .f32) (y : S2x128.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1x128.size (by sl_kernel_rfl) y

/-- The scratch after a point of case B, over what the point before left (xs0). -/
def sout0_B (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : ¬cond0_1 i)
    (x0 : Vec F S10000x128 .f32) (x1 : Vec F S10000x128 .bf16) (xs0 : Vec F S2x128 .f32) : Vec F S2x128 .f32 :=
  VS0.read (Elt F) (VS0.writes (Elt F) VS0.junk (kernelRun0_B c i arg2 harg2 arg3 harg3 arg4 harg4 arg5 harg5 hc0 hc1 x0 x1 xs0).1)

theorem cover0_C_2 (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) (y : S1x2x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x2x128.size (by sl_kernel_rfl) y

/-- The output block after a point of case C. -/
def out0_C_2 (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) : Vec F S1x2x128 .f32 :=
  VO0_2.read (Elt F) (VO0_2.writes (Elt F) VO0_2.junk (kernelRun0_C c i arg2 harg2 arg3 harg3 arg4 harg4 arg5 harg5 hc0 hc1 x0 x1 xs0).1)

theorem scover0_C (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) (y : S2x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x128.size (by sl_kernel_rfl) y

/-- The scratch after a point of case C. -/
def sout0_C (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) : Vec F S2x128 .f32 :=
  VS0.read (Elt F) (VS0.writes (Elt F) VS0.junk (kernelRun0_C c i arg2 harg2 arg3 harg3 arg4 harg4 arg5 harg5 hc0 hc1 x0 x1 xs0).2.1)

/-- A placeholder for the output block at the points that store nothing into it: nothing consults it there. -/
def outIdle0 : Vec F S1x2x128 .f32 := VO0_2.read (Elt F) (VO0_2.writes (Elt F) VO0_2.junk [])

/-! ## Point by point -/

/-- The accumulation: the output block and the scratch after the body at position n. -/
def outsAt0 (c : Dev nD) : (n : ℕ) → n < cfg0.N → Vec F S1x2x128 .f32 × Vec F S2x128 .f32
  | 0, hn => (outIdle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 5 = 0 then
      if h1 : (n + 1) % 5 = 4 then
        False.elim (by omega)
      else
        (outIdle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 5 = 4 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (outIdle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 5 = 0) (h1 : ¬t.val % 5 = 4) :
    outsAt0 V c t.val t.isLt = (outIdle0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = (outIdle0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point every scoped buffer at anything; afterwards the
    scratch at what the point before left in it, the other scoped buffers at anything; the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ (∃ d, owns (c : Thread nD τ) oM1_0 fullShare d) ∗ (∃ d, owns (c : Thread nD τ) oM1_1 fullShare d) ∗ (∃ d, owns (c : Thread nD τ) oM1_2 fullShare d)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ (∃ d, owns (c : Thread nD τ) oM1_0 fullShare d) ∗ (∃ d, owns (c : Thread nD τ) oM1_1 fullShare d) ∗ (∃ d, owns (c : Thread nD τ) oM1_2 fullShare d)) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ (∃ d, owns (c : Thread nD τ) oM1_0 fullShare d) ∗ (∃ d, owns (c : Thread nD τ) oM1_1 fullShare d) ∗ (∃ d, owns (c : Thread nD τ) oM1_2 fullShare d)) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 5 = 4
  · have h0 : ¬t.val % 5 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C_2 sout0_C; (try dsimp only)
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 5 = 0
    · rw [outsAt0_A V c t h0 h1]
      unfold sout0_A; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt0_B V c t h0 h1]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_eq]
  iintro ⟨⟨HS0, HR⟩, Hg⟩
  isplitl [HS0 HR]
  · isplitl [HS0]
    · iexists _; iexact HS0
    iexact HR
  iexact Hg

end Cert.Kernel.Hand

end
-- ==== Proof.K.Node.lean ====
/-
  The node kernel's region (the second pallas_call) as the pipeline runs it: ONE grid point, two input windows
  holding the whole padded 1568 x 128 logits and targets, one output window of 2 x 128 lane sums. The body loads
  both inputs whole, computes, and stores the two rows of the output one after the other; what it leaves in the
  output's staging buffer is the pieces its run finds, read back. Stated at a parameter V, the buffer contents
  when the region is entered, and at any float instance.
-/
import proofs.«169834_j36790689858125_2_alg».proof.Proof.Gen.Kernel.Launch
import proofs.«169834_j36790689858125_2_alg».proof.Proof.Gen.Kernel.Skeleton
import proofs.«169834_j36790689858125_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at the point, for any proof data over V that leaves it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1_2 : View sig .tc .vmem S2x128 .f32 := (Memref.whole cc1_stg2_0 : Memref sig .tc .vmem S2x128 .f32).view

set_option maxHeartbeats 4000000 in
/-- The body on whole staging memrefs, the inputs at contents x0 and x1, the output at anything: it runs to the
    continuation with the inputs as they were and the output's buffer with the run's pieces written (last first). -/
noncomputable def kernelRun1 (c : Dev nD) (i : grid1.Coords) (arg1 : Memref sig .tc .vmem S1568x128 .f32) (harg1 : arg1.IsWhole) (arg2 : Memref sig .tc .vmem S1568x128 .f32) (harg2 : arg2.IsWhole) (arg3 : Memref sig .tc .vmem S2x128 .f32) (harg3 : arg3.IsWhole)
    (x0 : Vec F S1568x128 .f32) (x1 : Vec F S1568x128 .f32) :
    { L2 : List (View.Piece (Elt F) S2x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__node_kernel i arg1 harg1 arg2 harg2 arg3 harg3) K } := by
  refine ⟨?_, fun E K => ?run⟩
  case run =>
    simp only [cc1__node_kernel_eq_skeleton]; unfold cc1__node_kernel_skel
    simp only [k1_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The two row stores tile the 2 x 128 output buffer. -/
theorem cover1_2 (c : Dev nD) (i : grid1.Coords) (arg1 : Memref sig .tc .vmem S1568x128 .f32) (harg1 : arg1.IsWhole) (arg2 : Memref sig .tc .vmem S1568x128 .f32) (harg2 : arg2.IsWhole) (arg3 : Memref sig .tc .vmem S2x128 .f32) (harg3 : arg3.IsWhole)
    (x0 : Vec F S1568x128 .f32) (x1 : Vec F S1568x128 .f32) (y : S2x128.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S1x128.size (by sl_kernel_rfl) y

/-- What the body leaves in the output's staging buffer: its pieces read back. -/
def out1_2 (c : Dev nD) (i : grid1.Coords) (arg1 : Memref sig .tc .vmem S1568x128 .f32) (harg1 : arg1.IsWhole) (arg2 : Memref sig .tc .vmem S1568x128 .f32) (harg2 : arg2.IsWhole) (arg3 : Memref sig .tc .vmem S2x128 .f32) (harg3 : arg3.IsWhole)
    (x0 : Vec F S1568x128 .f32) (x1 : Vec F S1568x128 .f32) : Vec F S2x128 .f32 :=
  VO1_2.read (Elt F) (VO1_2.writes (Elt F) VO1_2.junk (kernelRun1 c i arg1 harg1 arg2 harg2 arg3 harg3 x0 x1).1)

/-- The output block of the region's one point, from the two input blocks. -/
def outAt1 (c : Dev nD) (t : Fin cfg1.N) : Vec F S2x128 .f32 :=
  out1_2 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2))
    (iblk1 V c 0 t) (iblk1 V c 1 t)

/-- The region's proof data on core c: the arrays as the region finds them; after the body each input's buffer at its
    block and the output's at the body's pieces; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1 out1_2
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _)

/-- The library's body obligation, at the region's point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole run of the program: @main is nine items in order — the host operations before the edge kernel, the edge
  kernel's region, five short stretches of host operations (slicing and summing the edge result; padding and reshaping
  the node inputs), the node kernel's region, and the host operations after it. The buffer contents at every boundary
  are a fold from the launch memory: a host stretch applies its operations; a region leaves its windows' arrays at what
  its write-backs add up to and every other buffer as it was. The run ends with every unscoped buffer at the last
  boundary's contents; in particular no item writes an argument array.
-/
import proofs.«169834_j36790689858125_2_alg».proof.Proof.K.EdgeFrame
import proofs.«169834_j36790689858125_2_alg».proof.Proof.K.Node
import proofs.«169834_j36790689858125_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

abbrev W0 (c : Dev nD) : Valuation τ sig (Elt F) := fun b => m (c, b)
abbrev W1 (c : Dev nD) : Valuation τ sig (Elt F) := StableHlo.after hostOps0 (W0 m c)
/-- What the edge region's proof data take: the contents at its entry, read at the TensorCore's references. -/
abbrev V1 : (c : Dev nD) → (b : Ref sig .tc) → Buf (Elt F) ((c : Thread nD τ).loc b) := fun c b => W1 m c b
/-- At the edge region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev V7 : (c : Dev nD) → (b : Ref sig .tc) → Buf (Elt F) ((c : Thread nD τ).loc b) := fun c b => W7 m c b
/-- At the node region's exit. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)
abbrev W9 (c : Dev nD) : Valuation τ sig (Elt F) := StableHlo.after hostOps2 (W8 m c)

/-- A buffer that no host operation writes and no region stages reaches the end as launched. -/
theorem W9_kept (c : Dev nD) (r : Ref sig .tc) (h0 : r ∉ hostOps0_W) (h1 : r ∉ hostOps1_W) (h11 : r ∉ hostOps1_1_W) (h12 : r ∉ hostOps1_2_W)
    (h13 : r ∉ hostOps1_3_W) (h14 : r ∉ hostOps1_4_W) (h2 : r ∉ hostOps2_W)
    (hw0 : ∀ w, Pipeline.arrRef spec0 w ≠ r) (hw1 : ∀ w, Pipeline.arrRef spec1 w ≠ r) :
    W9 m c (Proc.devRef .tc r) = m ((c : Thread nD τ).loc r) :=
  calc W9 m c (Proc.devRef .tc r)
    _ = W8 m c (Proc.devRef .tc r) := StableHlo.after_of_writes_sub hostOps2 _ hostOps2_writes h2
    _ = W7 m c (Proc.devRef .tc r) := W8_of_ne m c r hw1
    _ = W6 m c (Proc.devRef .tc r) := StableHlo.after_of_writes_sub hostOps1_4 _ hostOps1_4_writes h14
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := W2_of_ne m c r hw0
    _ = W0 m c (Proc.devRef .tc r) := StableHlo.after_of_writes_sub hostOps0 _ hostOps0_writes h0
    _ = m ((c : Thread nD τ).loc r) := rfl

theorem W9_main_arg0 (c : Dev nD) : W9 m c (Proc.devRef .tc main_arg0) = m ((c : Thread nD τ).loc main_arg0) :=
  W9_kept m c main_arg0 (by decide) (by decide) (by decide) (by decide) (by decide) (by decide) (by decide) (by decide) (by decide)
theorem W9_main_arg1 (c : Dev nD) : W9 m c (Proc.devRef .tc main_arg1) = m ((c : Thread nD τ).loc main_arg1) :=
  W9_kept m c main_arg1 (by decide) (by decide) (by decide) (by decide) (by decide) (by decide) (by decide) (by decide) (by decide)
theorem W9_main_arg2 (c : Dev nD) : W9 m c (Proc.devRef .tc main_arg2) = m ((c : Thread nD τ).loc main_arg2) :=
  W9_kept m c main_arg2 (by decide) (by decide) (by decide) (by decide) (by decide) (by decide) (by decide) (by decide) (by decide)
theorem W9_main_arg3 (c : Dev nD) : W9 m c (Proc.devRef .tc main_arg3) = m ((c : Thread nD τ).loc main_arg3) :=
  W9_kept m c main_arg3 (by decide) (by decide) (by decide) (by decide) (by decide) (by decide) (by decide) (by decide) (by decide)
theorem W9_main_arg4 (c : Dev nD) : W9 m c (Proc.devRef .tc main_arg4) = m ((c : Thread nD τ).loc main_arg4) :=
  W9_kept m c main_arg4 (by decide) (by decide) (by decide) (by decide) (by decide) (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

/-! ## The regions as items -/

set_option backward.isDefEq.respectTransparency.types false in
/-- The edge kernel's region: entered from every unscoped buffer at W1, left at W2. Its arrays are split out of the
    unscoped buffers and put back at the exit contents; the scoped rest and the generator register go into the region's
    invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node kernel's region: entered from every unscoped buffer at W7, left at W8. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)) ]

set_option backward.isDefEq.respectTransparency.types false in
/-- THE RUN: from any memory with zero counters every weakly fair execution of @main terminates, nothing faulting, and
    every final memory has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (W9 m c) ∗ R c) : sProp 𝕄)
          ⊢ iprop(Tₙ m c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c)⟩) (run_all m ρ)

end Cert.Kernel.Hand

end
-- ==== Proof.KI.EdgeRuns.lean ====
/-
  The edge kernel's region (the first pallas_call): what its three control cases share. The grid is 2 x 5; point t
  has second coordinate t mod 5. At second coordinate 0 the body first zeroes its 2 x 128 scratch accumulator; at
  every point it adds the tile's two lane sums into the scratch rows; at second coordinate 4 it copies the scratch
  into the output window's block, which the pipeline then writes back. Elsewhere the output window is idle.
-/
import proofs.«169834_j36790689858125_2_alg».proof.Proof.Gen.KernelIdeal.Launch
import proofs.«169834_j36790689858125_2_alg».proof.Proof.Gen.KernelIdeal.Skeleton
import proofs.«169834_j36790689858125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over V that leaves it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first conditional (zero the accumulator): taken where the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- The second conditional (copy the accumulator out): taken where the second grid coordinate is 4. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-- The input windows are never idle; the output window is idle, and not written back, except where the copy is taken. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- One staging buffer of the output window, through which its contents are stated. -/
abbrev VO0_2 : View sig .tc .vmem S1x2x128 .f32 := (Memref.whole cc0_stg2_0 : Memref sig .tc .vmem S1x2x128 .f32).view
/-- Each window's current staging memref at point t, as the pipeline passes it, and its wholeness. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x128 .f32 := win0_2.stage (cfg0.slots t 2)
abbrev hs0_2 (t : Fin cfg0.N) : (ms0_2 t).IsWhole := hstage0_2 ((cfg0.slots t 2).cast nbuf0_2)
/-- The scratch accumulator, and the other kernel's staging buffers (scoped buffers this region never touches). -/
abbrev scM0 : Memref sig .tc .vmem S2x128 .f32 := Memref.whole cc0_scratch0
abbrev oM1_0 : Memref sig .tc .vmem S1568x128 .f32 := Memref.whole cc1_stg0_0
abbrev oM1_1 : Memref sig .tc .vmem S1568x128 .f32 := Memref.whole cc1_stg1_0
abbrev oM1_2 : Memref sig .tc .vmem S2x128 .f32 := Memref.whole cc1_stg2_0
abbrev VS0 : View sig .tc .vmem S2x128 .f32 := scM0.view

/-- The class invariant spelt out: every scoped buffer that is no staging buffer of this region owned at some contents,
    and the generator register at some state. -/
theorem PhiA0_eq (c : Dev nD) :
    (Pipeline.ΦA spec0 c : sProp 𝕄)
      = iprop(iprop((∃ d, owns (c : Thread nD τ) scM0 fullShare d) ∗ (∃ d, owns (c : Thread nD τ) oM1_0 fullShare d) ∗ (∃ d, owns (c : Thread nD τ) oM1_1 fullShare d) ∗ (∃ d, owns (c : Thread nD τ) oM1_2 fullShare d)) ∗ (∃ r, prngReg c r)) := by
  unfold Pipeline.ΦA; rw [scopedRest0_eq]; simp only [scM0, oM1_0, oM1_1, oM1_2, owns_whole]; try rfl

end Cert.KernelIdeal.Hand

end
-- ==== Proof.KI.EdgeRunA.lean ====
/-
  The edge kernel's body run in control case A (the accumulator is zeroed first; nothing is copied out): the pieces its stores leave in the scratch accumulator (and, in
  the last case, in the output block) are what the symbolic run finds.
-/
import proofs.«169834_j36790689858125_2_alg».proof.Proof.KI.EdgeRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : cond0_0 i) (hc1 : ¬cond0_1 i)
    (x0 : Vec F S10000x128 .f32) (x1 : Vec F S10000x128 .bf16) :
    { LS0 : List (View.Piece (Elt F) S2x128 .f32) //
      ∀ (xi2 : Vec F S1x2x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__edge_kernel i arg2 harg2 arg3 harg3 arg4 harg4 arg5 harg5) K } := by
  refine ⟨?_, fun xi2 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.EdgeRunB.lean ====
/-
  The edge kernel's body run in control case B (the accumulator is carried on; nothing is copied out): the pieces its stores leave in the scratch accumulator (and, in
  the last case, in the output block) are what the symbolic run finds.
-/
import proofs.«169834_j36790689858125_2_alg».proof.Proof.KI.EdgeRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : ¬cond0_1 i)
    (x0 : Vec F S10000x128 .f32) (x1 : Vec F S10000x128 .bf16) (xs0 : Vec F S2x128 .f32) :
    { LS0 : List (View.Piece (Elt F) S2x128 .f32) //
      ∀ (xi2 : Vec F S1x2x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__edge_kernel i arg2 harg2 arg3 harg3 arg4 harg4 arg5 harg5) K } := by
  refine ⟨?_, fun xi2 E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.EdgeRunC.lean ====
/-
  The edge kernel's body run in control case C (the accumulator is carried on and then copied into the output block): the pieces its stores leave in the scratch accumulator (and, in
  the last case, in the output block) are what the symbolic run finds.
-/
import proofs.«169834_j36790689858125_2_alg».proof.Proof.KI.EdgeRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) :
    Σ' (L2 : List (View.Piece (Elt F) S1x2x128 .f32)), { LS0 : List (View.Piece (Elt F) S2x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__edge_kernel i arg2 harg2 arg3 harg3 arg4 harg4 arg5 harg5) K } := by
  refine ⟨?_, ?_, fun E K => ?run⟩
  case run =>
    simp only [cc0__edge_kernel_eq_skeleton]; unfold cc0__edge_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.EdgeFrame.lean ====
/-
  The edge kernel's region: what its scratch accumulator and its output block hold after each grid point, the
  region's proof data, and the body obligation.
  After point n the scratch holds the pieces the point's control case wrote, over what point n - 1 left there (at a
  point whose second coordinate is 0 the body zeroes it first, so nothing earlier is read). The output block is
  written only at the points whose second coordinate is 4: there it receives a copy of the scratch.
-/
import proofs.«169834_j36790689858125_2_alg».proof.Proof.KI.EdgeRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each control case leaves -/

theorem scover0_A (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : cond0_0 i) (hc1 : ¬cond0_1 i)
    (x0 : Vec F S10000x128 .f32) (x1 : Vec F S10000x128 .bf16) (y : S2x128.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1x128.size (by sl_kernel_rfl) y

/-- The scratch after a point of case A: the case's pieces read back. -/
def sout0_A (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : cond0_0 i) (hc1 : ¬cond0_1 i)
    (x0 : Vec F S10000x128 .f32) (x1 : Vec F S10000x128 .bf16) : Vec F S2x128 .f32 :=
  VS0.read (Elt F) (VS0.writes (Elt F) VS0.junk (kernelRun0_A c i arg2 harg2 arg3 harg3 arg4 harg4 arg5 harg5 hc0 hc1 x0 x1).1)

theorem scover0_B (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : ¬cond0_1 i)
    (x0 : Vec F S10000x128 .f32) (x1 : Vec F S10000x128 .bf16) (xs0 : Vec F S2x128 .f32) (y : S2x128.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1x128.size (by sl_kernel_rfl) y

/-- The scratch after a point of case B, over what the point before left (xs0). -/
def sout0_B (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : ¬cond0_1 i)
    (x0 : Vec F S10000x128 .f32) (x1 : Vec F S10000x128 .bf16) (xs0 : Vec F S2x128 .f32) : Vec F S2x128 .f32 :=
  VS0.read (Elt F) (VS0.writes (Elt F) VS0.junk (kernelRun0_B c i arg2 harg2 arg3 harg3 arg4 harg4 arg5 harg5 hc0 hc1 x0 x1 xs0).1)

theorem cover0_C_2 (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) (y : S1x2x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x2x128.size (by sl_kernel_rfl) y

/-- The output block after a point of case C. -/
def out0_C_2 (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) : Vec F S1x2x128 .f32 :=
  VO0_2.read (Elt F) (VO0_2.writes (Elt F) VO0_2.junk (kernelRun0_C c i arg2 harg2 arg3 harg3 arg4 harg4 arg5 harg5 hc0 hc1 x0 x1 xs0).1)

theorem scover0_C (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) (y : S2x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x128.size (by sl_kernel_rfl) y

/-- The scratch after a point of case C. -/
def sout0_C (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) : Vec F S2x128 .f32 :=
  VS0.read (Elt F) (VS0.writes (Elt F) VS0.junk (kernelRun0_C c i arg2 harg2 arg3 harg3 arg4 harg4 arg5 harg5 hc0 hc1 x0 x1 xs0).2.1)

/-- A placeholder for the output block at the points that store nothing into it: nothing consults it there. -/
def outIdle0 : Vec F S1x2x128 .f32 := VO0_2.read (Elt F) (VO0_2.writes (Elt F) VO0_2.junk [])

/-! ## Point by point -/

/-- The accumulation: the output block and the scratch after the body at position n. -/
def outsAt0 (c : Dev nD) : (n : ℕ) → n < cfg0.N → Vec F S1x2x128 .f32 × Vec F S2x128 .f32
  | 0, hn => (outIdle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 5 = 0 then
      if h1 : (n + 1) % 5 = 4 then
        False.elim (by omega)
      else
        (outIdle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 5 = 4 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (outIdle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 5 = 0) (h1 : ¬t.val % 5 = 4) :
    outsAt0 V c t.val t.isLt = (outIdle0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 V c t.val t.isLt = (outIdle0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 V c t.val t.isLt = (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point every scoped buffer at anything; afterwards the
    scratch at what the point before left in it, the other scoped buffers at anything; the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ (∃ d, owns (c : Thread nD τ) oM1_0 fullShare d) ∗ (∃ d, owns (c : Thread nD τ) oM1_1 fullShare d) ∗ (∃ d, owns (c : Thread nD τ) oM1_2 fullShare d)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ (∃ d, owns (c : Thread nD τ) oM1_0 fullShare d) ∗ (∃ d, owns (c : Thread nD τ) oM1_1 fullShare d) ∗ (∃ d, owns (c : Thread nD τ) oM1_2 fullShare d)) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ (∃ d, owns (c : Thread nD τ) oM1_0 fullShare d) ∗ (∃ d, owns (c : Thread nD τ) oM1_1 fullShare d) ∗ (∃ d, owns (c : Thread nD τ) oM1_2 fullShare d)) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 5 = 4
  · have h0 : ¬t.val % 5 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C_2 sout0_C; (try dsimp only)
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 5 = 0
    · rw [outsAt0_A V c t h0 h1]
      unfold sout0_A; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A c _ _ _ _ _ _ _ _ _ _ _ _ _)
            iexact HR
          iexact Hg
        isplitl [Ho]; · iexact Ho
        isplitl [H0]; · iexact H0
        isplitl [H1]; · iexact H1
        iexists _; iexact H2
    · have hz : t.val ≠ 0 := by omega
      rw [outsAt0_B V c t h0 h1]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_eq]
  iintro ⟨⟨HS0, HR⟩, Hg⟩
  isplitl [HS0 HR]
  · isplitl [HS0]
    · iexists _; iexact HS0
    iexact HR
  iexact Hg

end Cert.KernelIdeal.Hand

end
-- ==== Proof.KI.Node.lean ====
/-
  The node kernel's region (the second pallas_call) as the pipeline runs it: ONE grid point, two input windows
  holding the whole padded 1568 x 128 logits and targets, one output window of 2 x 128 lane sums. The body loads
  both inputs whole, computes, and stores the two rows of the output one after the other; what it leaves in the
  output's staging buffer is the pieces its run finds, read back. Stated at a parameter V, the buffer contents
  when the region is entered, and at any float instance.
-/
import proofs.«169834_j36790689858125_2_alg».proof.Proof.Gen.KernelIdeal.Launch
import proofs.«169834_j36790689858125_2_alg».proof.Proof.Gen.KernelIdeal.Skeleton
import proofs.«169834_j36790689858125_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at the point, for any proof data over V that leaves it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the output window, through which its contents are stated. -/
abbrev VO1_2 : View sig .tc .vmem S2x128 .f32 := (Memref.whole cc1_stg2_0 : Memref sig .tc .vmem S2x128 .f32).view

set_option maxHeartbeats 4000000 in
/-- The body on whole staging memrefs, the inputs at contents x0 and x1, the output at anything: it runs to the
    continuation with the inputs as they were and the output's buffer with the run's pieces written (last first). -/
noncomputable def kernelRun1 (c : Dev nD) (i : grid1.Coords) (arg1 : Memref sig .tc .vmem S1568x128 .f32) (harg1 : arg1.IsWhole) (arg2 : Memref sig .tc .vmem S1568x128 .f32) (harg2 : arg2.IsWhole) (arg3 : Memref sig .tc .vmem S2x128 .f32) (harg3 : arg3.IsWhole)
    (x0 : Vec F S1568x128 .f32) (x1 : Vec F S1568x128 .f32) :
    { L2 : List (View.Piece (Elt F) S2x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__node_kernel i arg1 harg1 arg2 harg2 arg3 harg3) K } := by
  refine ⟨?_, fun E K => ?run⟩
  case run =>
    simp only [cc1__node_kernel_eq_skeleton]; unfold cc1__node_kernel_skel
    simp only [k1_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The two row stores tile the 2 x 128 output buffer. -/
theorem cover1_2 (c : Dev nD) (i : grid1.Coords) (arg1 : Memref sig .tc .vmem S1568x128 .f32) (harg1 : arg1.IsWhole) (arg2 : Memref sig .tc .vmem S1568x128 .f32) (harg2 : arg2.IsWhole) (arg3 : Memref sig .tc .vmem S2x128 .f32) (harg3 : arg3.IsWhole)
    (x0 : Vec F S1568x128 .f32) (x1 : Vec F S1568x128 .f32) (y : S2x128.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S1x128.size (by sl_kernel_rfl) y

/-- What the body leaves in the output's staging buffer: its pieces read back. -/
def out1_2 (c : Dev nD) (i : grid1.Coords) (arg1 : Memref sig .tc .vmem S1568x128 .f32) (harg1 : arg1.IsWhole) (arg2 : Memref sig .tc .vmem S1568x128 .f32) (harg2 : arg2.IsWhole) (arg3 : Memref sig .tc .vmem S2x128 .f32) (harg3 : arg3.IsWhole)
    (x0 : Vec F S1568x128 .f32) (x1 : Vec F S1568x128 .f32) : Vec F S2x128 .f32 :=
  VO1_2.read (Elt F) (VO1_2.writes (Elt F) VO1_2.junk (kernelRun1 c i arg1 harg1 arg2 harg2 arg3 harg3 x0 x1).1)

/-- The output block of the region's one point, from the two input blocks. -/
def outAt1 (c : Dev nD) (t : Fin cfg1.N) : Vec F S2x128 .f32 :=
  out1_2 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2))
    (iblk1 V c 0 t) (iblk1 V c 1 t)

/-- The region's proof data on core c: the arrays as the region finds them; after the body each input's buffer at its
    block and the output's at the body's pieces; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1 out1_2
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _)

/-- The library's body obligation, at the region's point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of the program: @main is nine items in order — the host operations before the edge kernel, the edge
  kernel's region, five short stretches of host operations (slicing and summing the edge result; padding and reshaping
  the node inputs), the node kernel's region, and the host operations after it. The buffer contents at every boundary
  are a fold from the launch memory: a host stretch applies its operations; a region leaves its windows' arrays at what
  its write-backs add up to and every other buffer as it was. The run ends with every unscoped buffer at the last
  boundary's contents; in particular no item writes an argument array.
-/
import proofs.«169834_j36790689858125_2_alg».proof.Proof.KI.EdgeFrame
import proofs.«169834_j36790689858125_2_alg».proof.Proof.KI.Node
import proofs.«169834_j36790689858125_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

abbrev W0 (c : Dev nD) : Valuation τ sig (Elt F) := fun b => m (c, b)
abbrev W1 (c : Dev nD) : Valuation τ sig (Elt F) := StableHlo.after hostOps0 (W0 m c)
/-- What the edge region's proof data take: the contents at its entry, read at the TensorCore's references. -/
abbrev V1 : (c : Dev nD) → (b : Ref sig .tc) → Buf (Elt F) ((c : Thread nD τ).loc b) := fun c b => W1 m c b
/-- At the edge region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev V7 : (c : Dev nD) → (b : Ref sig .tc) → Buf (Elt F) ((c : Thread nD τ).loc b) := fun c b => W7 m c b
/-- At the node region's exit. -/
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev V8 : (c : Dev nD) → (b : Ref sig .tc) → Buf (Elt F) ((c : Thread nD τ).loc b) := fun c b => W8 m c b
theorem hF1 (c : Dev nD) (w : Fin cfg1.W) : (dat1 (V7 m) c).arrAt w cfg1.N = V8 m c (Pipeline.arrRef spec1 w) :=
  (W8_arr m c w).symm
theorem hrest1 (c : Dev nD) : ∀ b, b ∉ Finset.univ.image (Pipeline.arrRef spec1) → V8 m c b = V7 m c b :=
  fun b hb => W8_of_ne m c b fun w e => hb (Finset.mem_image.mpr ⟨w, Finset.mem_univ _, e⟩)
abbrev W9 (c : Dev nD) : Valuation τ sig (Elt F) := StableHlo.after hostOps2 (W8 m c)

/-- A buffer that no host operation writes and no region stages reaches the end as launched. -/
theorem W9_kept (c : Dev nD) (r : Ref sig .tc) (h0 : r ∉ hostOps0_W) (h1 : r ∉ hostOps1_W) (h11 : r ∉ hostOps1_1_W) (h12 : r ∉ hostOps1_2_W)
    (h13 : r ∉ hostOps1_3_W) (h14 : r ∉ hostOps1_4_W) (h2 : r ∉ hostOps2_W)
    (hw0 : ∀ w, Pipeline.arrRef spec0 w ≠ r) (hw1 : ∀ w, Pipeline.arrRef spec1 w ≠ r) :
    W9 m c (Proc.devRef .tc r) = m ((c : Thread nD τ).loc r) :=
  calc W9 m c (Proc.devRef .tc r)
    _ = W8 m c (Proc.devRef .tc r) := StableHlo.after_of_writes_sub hostOps2 _ hostOps2_writes h2
    _ = W7 m c (Proc.devRef .tc r) := W8_of_ne m c r hw1
    _ = W6 m c (Proc.devRef .tc r) := StableHlo.after_of_writes_sub hostOps1_4 _ hostOps1_4_writes h14
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := W2_of_ne m c r hw0
    _ = W0 m c (Proc.devRef .tc r) := StableHlo.after_of_writes_sub hostOps0 _ hostOps0_writes h0
    _ = m ((c : Thread nD τ).loc r) := rfl

theorem W9_main_arg0 (c : Dev nD) : W9 m c (Proc.devRef .tc main_arg0) = m ((c : Thread nD τ).loc main_arg0) :=
  W9_kept m c main_arg0 (by decide) (by decide) (by decide) (by decide) (by decide) (by decide) (by decide) (by decide) (by decide)
theorem W9_main_arg1 (c : Dev nD) : W9 m c (Proc.devRef .tc main_arg1) = m ((c : Thread nD τ).loc main_arg1) :=
  W9_kept m c main_arg1 (by decide) (by decide) (by decide) (by decide) (by decide) (by decide) (by decide) (by decide) (by decide)
theorem W9_main_arg2 (c : Dev nD) : W9 m c (Proc.devRef .tc main_arg2) = m ((c : Thread nD τ).loc main_arg2) :=
  W9_kept m c main_arg2 (by decide) (by decide) (by decide) (by decide) (by decide) (by decide) (by decide) (by decide) (by decide)
theorem W9_main_arg3 (c : Dev nD) : W9 m c (Proc.devRef .tc main_arg3) = m ((c : Thread nD τ).loc main_arg3) :=
  W9_kept m c main_arg3 (by decide) (by decide) (by decide) (by decide) (by decide) (by decide) (by decide) (by decide) (by decide)
theorem W9_main_arg4 (c : Dev nD) : W9 m c (Proc.devRef .tc main_arg4) = m ((c : Thread nD τ).loc main_arg4) :=
  W9_kept m c main_arg4 (by decide) (by decide) (by decide) (by decide) (by decide) (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V7 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m c) ∗ ∃ r, prngReg c r)

/-! ## The regions as items -/

set_option backward.isDefEq.respectTransparency.types false in
/-- The edge kernel's region: entered from every unscoped buffer at W1, left at W2. Its arrays are split out of the
    unscoped buffers and put back at the exit contents; the scoped rest and the generator register go into the region's
    invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node kernel's region: entered from every unscoped buffer at W7, left at W8. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m) c).loose
  hwaits := Pipeline.hwaits_of_owed_zero _ _ _ _ L lv 1 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec1 c (V7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V7 m c) (V8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .region (reg1 m),
    .host (hseg hostOps2 hostOps2_sub hostOps2_fresh (W8 m)) ]

set_option backward.isDefEq.respectTransparency.types false in
/-- THE RUN: from any memory with zero counters every weakly fair execution of @main terminates, nothing faulting, and
    every final memory has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Seg.run_eq_chain,
        show (segs m).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (W9 m c) ∗ R c) : sProp 𝕄)
          ⊢ iprop(Tₙ m c ∗ ∃ W, owes (c : Thread nD τ) (0 : CellTallies nD τ sig Unit) W) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c)⟩) (run_all m ρ)

end Cert.KernelIdeal.Hand

end
-- ==== Proof.Spec.lean ====
/-
  The mathematics both programs compute, one element at a time, over the extended reals.

  For a logit x and a target t (0 or 1):  p = 1 / (1 + e^(-x)),
    ce  = max(x, 0) - x t + log(1 + e^(-|x|)),
    p_t = p t + (1 - p)(1 - t),
    loss weight  wt x t  = (1/4 t + 3/4 (1 - t)) * (ce * (1 - p_t)^2),
    hit x t = 1 if ([p > 1/2] as 0/1) = t, else 0.
  The kernel spells -|x| as 0 - |x|, the square as a product and reads p off one operation; the reference spells
  the negation, raises to the power 2.0 and writes p as the quotient. The edge targets are computed by the same
  chain of host operations in both programs (four gathers through the edge list, compared): sameBits.
-/
import Idealize.ShloMosaic.PureOps
import Idealize.ShloMosaic.PureOps.Ideal
import Idealize.ShloMosaic.Lib.StableHlo

noncomputable section

namespace Cert.Spec

open Idealize.ShloMosaic

abbrev S12800000 : Shape := ⟨1, ![12800000]⟩
abbrev S200000 : Shape := ⟨1, ![200000]⟩
abbrev S2x12800000 : Shape := ⟨2, ![2, 12800000]⟩
abbrev S1x12800000 : Shape := ⟨2, ![1, 12800000]⟩
abbrev S_ : Shape := ⟨0, ![]⟩
abbrev S12800000x1 : Shape := ⟨2, ![12800000, 1]⟩

theorem slices0 : S2x12800000.Slices ![0, 0] S1x12800000 := by decide
theorem slices1 : S2x12800000.Slices ![1, 0] S1x12800000 := by decide
theorem casts : S1x12800000.ShapeCasts S12800000 := by decide
theorem bcastE : S_.BroadcastsInDim S12800000 (![] : Fin 0 → Fin S12800000.rank) := by decide
theorem bcastCol : S12800000.BroadcastsInDim S12800000x1 (![0] : Fin 1 → Fin S12800000x1.rank) := by decide
theorem bcastN : S_.BroadcastsInDim S200000 (![] : Fin 0 → Fin S200000.rank) := by decide
theorem gwf : GatherDims.WF S200000 S12800000x1 S12800000 [] [0] [] [0] [] 1 ![1] := by decide

/-- The gathers' dimension record: one entry of the table per row of the index column. -/
def gdims : GatherDims S200000 S12800000x1 S12800000 where
  offsetDims := []
  collapsedSliceDims := [0]
  operandBatchingDims := []
  startIndicesBatchingDims := []
  startIndexMap := [0]
  indexVectorDim := 1
  sliceSizes := ![1]
  wf := gwf

section

/-- Row k of the edge list as a vector of node numbers. -/
def srcRow (e : IVec S2x12800000 32) : IVec S12800000 32 :=
  shapeCast S12800000 (extractStridedSlice S1x12800000 ![0, 0] e slices0) casts
def dstRow (e : IVec S2x12800000 32) : IVec S12800000 32 :=
  shapeCast S12800000 (extractStridedSlice S1x12800000 ![1, 0] e slices1) casts

/-- A node number wrapped the way numpy indexing wraps a negative one, as an index column. -/
def wrapCol (v : IVec S12800000 32) : IVec S12800000x1 32 :=
  broadcastInDim S12800000x1 ![0] bcastCol
    (select (cmpi .slt v (broadcastInDim S12800000 ![] bcastE (constantI S_ 32 0#32)))
      (addi v (broadcastInDim S12800000 ![] bcastE (constantI S_ 32 200000#32))) v)

/-- A node table read at one end of every edge. -/
def look (tbl : IVec S200000 32) (v : IVec S12800000 32) : IVec S12800000 32 :=
  Host.gather gdims tbl (wrapCol v)

/-- Per edge: same instance, same graph, both instances nonzero. -/
def sameBits (b p : IVec S200000 32) (e : IVec S2x12800000 32) : IVec S12800000 1 :=
  andi (andi (andi (cmpi .eq (look p (srcRow e)) (look p (dstRow e)))
      (cmpi .eq (look b (srcRow e)) (look b (dstRow e))))
    (cmpi .ne (look p (srcRow e)) (broadcastInDim S12800000 ![] bcastE (constantI S_ 32 0#32))))
    (cmpi .ne (look p (dstRow e)) (broadcastInDim S12800000 ![] bcastE (constantI S_ 32 0#32)))

/-- Per node: its instance is nonzero. -/
def nodeBits (p : IVec S200000 32) : IVec S200000 1 :=
  cmpi .ne p (broadcastInDim S200000 ![] bcastN (constantI S_ 32 0#32))
end

/-! ## One element, in the kernel's spelling -/

abbrev zero : Ideal .f32 := Scalar.ofBits .f32 0x00000000#32
abbrev one : Ideal .f32 := Scalar.ofBits .f32 0x3F800000#32
abbrev half : Ideal .f32 := Scalar.ofBits .f32 0x3F000000#32
abbrev quarter : Ideal .f32 := Scalar.ofBits .f32 0x3E800000#32
abbrev threeQ : Ideal .f32 := Scalar.ofBits .f32 0x3F400000#32

/-- The cross-entropy term. -/
def ce (x t : Ideal .f32) : Ideal .f32 :=
  FloatOps.addf (FloatOps.subf (FloatOps.maximumf x zero) (FloatOps.mulf x t))
    (FloatOps.log1p (FloatOps.exp (FloatOps.subf zero (FloatOps.absf x))))

/-- 1 - p_t. -/
def miss (x t : Ideal .f32) : Ideal .f32 :=
  FloatOps.subf one (FloatOps.addf (FloatOps.mulf (FloatOps.logistic x) t)
    (FloatOps.mulf (FloatOps.subf one (FloatOps.logistic x)) (FloatOps.subf one t)))

/-- The weighted focal loss of one element. -/
def wt (x t : Ideal .f32) : Ideal .f32 :=
  FloatOps.mulf (FloatOps.addf (FloatOps.mulf quarter t) (FloatOps.mulf threeQ (FloatOps.subf one t)))
    (FloatOps.mulf (ce x t) (FloatOps.mulf (miss x t) (miss x t)))

/-- Whether the prediction is the target, as 0 or 1 (through 32-bit integers, as the kernel converts a bit). -/
def hit (x t : Ideal .f32) : Ideal .f32 :=
  FloatOps.sitofp .f32 ((FloatOps.cmpf .oeq
    (FloatOps.sitofp (F := Ideal) .f32 ((FloatOps.cmpf .ogt (FloatOps.logistic x) half).setWidth 32)) t).setWidth 32)

/-! ## One element, in the reference's spelling -/

abbrev two : Ideal .f32 := Scalar.ofBits .f32 0x40000000#32

def sigR (x : Ideal .f32) : Ideal .f32 :=
  FloatOps.hostDivf one (FloatOps.addf one (FloatOps.hostUnary .exp (FloatOps.hostNegf x)))

def ceR (x t : Ideal .f32) : Ideal .f32 :=
  FloatOps.addf (FloatOps.subf (FloatOps.maximumf x zero) (FloatOps.mulf x t))
    (FloatOps.hostUnary .log1p (FloatOps.hostUnary .exp (FloatOps.hostNegf (FloatOps.hostAbsf x))))

def missR (x t : Ideal .f32) : Ideal .f32 :=
  FloatOps.subf one (FloatOps.addf (FloatOps.mulf (sigR x) t) (FloatOps.mulf (FloatOps.subf one (sigR x)) (FloatOps.subf one t)))

def wtR (x t : Ideal .f32) : Ideal .f32 :=
  FloatOps.mulf (FloatOps.addf (FloatOps.mulf quarter t) (FloatOps.mulf threeQ (FloatOps.subf one t)))
    (FloatOps.mulf (ceR x t) (FloatOps.hostPowf (missR x t) two))

def hitR (x t : Ideal .f32) : Ideal .f32 :=
  FloatOps.uitofp .f32 (FloatOps.cmpf .oeq (FloatOps.uitofp (F := Ideal) .f32 (FloatOps.cmpf .ogt (sigR x) half)) t)

/-! ## The five results -/

/-- Mean focal loss over the edges: the sum of the weights from zero, divided by the number of edges. -/
def edgeLoss (x : FVec Ideal S12800000 .f32) (b p : IVec S200000 32) (e : IVec S2x12800000 32) : FVec Ideal S_ .f32 :=
  fun _ => FloatOps.hostDivf (zero + ∑ i : S12800000.Idx, wt (x i) (FloatOps.uitofp .f32 (sameBits b p e i))) (Scalar.ofBits .f32 0x4B435000#32)
/-- Edge accuracy. -/
def edgeAcc (x : FVec Ideal S12800000 .f32) (b p : IVec S200000 32) (e : IVec S2x12800000 32) : FVec Ideal S_ .f32 :=
  fun _ => FloatOps.hostDivf (zero + ∑ i : S12800000.Idx, hit (x i) (FloatOps.uitofp .f32 (sameBits b p e i))) (Scalar.ofBits .f32 0x4B435000#32)
/-- Mean focal loss over the nodes. -/
def nodeLoss (x : FVec Ideal S200000 .f32) (p : IVec S200000 32) : FVec Ideal S_ .f32 :=
  fun _ => FloatOps.hostDivf (zero + ∑ i : S200000.Idx, wt (x i) (FloatOps.uitofp .f32 (nodeBits p i))) (Scalar.ofBits .f32 0x48435000#32)
/-- Node accuracy. -/
def nodeAcc (x : FVec Ideal S200000 .f32) (p : IVec S200000 32) : FVec Ideal S_ .f32 :=
  fun _ => FloatOps.hostDivf (zero + ∑ i : S200000.Idx, hit (x i) (FloatOps.uitofp .f32 (nodeBits p i))) (Scalar.ofBits .f32 0x48435000#32)
/-- The total loss: both means with weight one. -/
def total (a b : FVec Ideal S_ .f32) : FVec Ideal S_ .f32 :=
  addf (mulf (constant S_ .f32 0x3F800000#32) a) (mulf (constant S_ .f32 0x3F800000#32) b)

end Cert.Spec

end
-- ==== Proof.KI.HostValue.lean ====
/-
  The host operations of the program, read back: what the arrays the two kernels are launched on hold (the edge logits
  and the edge targets recast to 100000 x 128; the node logits and node targets padded with 704 zeros and recast to
  1568 x 128), and what the five results are of the two kernels' output arrays (each a sum over a slice, divided by
  the element count; the total the sum of the two means with weight one).
-/
import proofs.«169834_j36790689858125_2_alg».proof.Proof.KI.Run
import proofs.«169834_j36790689858125_2_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ) (c : Dev nD)

set_option maxHeartbeats 4000000 in
/-- The edge kernel's first operand: the edge logits, recast. -/
theorem W1_v45 : (W1 m c (Proc.devRef .tc main_v45) : S100000x128.Idx → EReal)
    = shapeCast S100000x128 (m ((c : Thread nD τ).loc main_arg0)) shapeCasts_S12800000_S100000x128 := by
  show StableHlo.after hostOps0 (W0 m c) (Proc.devRef .tc main_v45) = _
  dsimp only [hostOps0]
  after_results_simp
  rfl

set_option maxHeartbeats 4000000 in
/-- The edge kernel's second operand: the edge targets, recast. -/
theorem W1_v46 : (W1 m c (Proc.devRef .tc main_v46) : S100000x128.Idx → EReal)
    = shapeCast S100000x128 (uitofp (F := Ideal) .bf16 (Cert.Spec.sameBits (m ((c : Thread nD τ).loc main_arg2)) (m ((c : Thread nD τ).loc main_arg3)) (m ((c : Thread nD τ).loc main_arg4)))) shapeCasts_S12800000_S100000x128 := by
  show StableHlo.after hostOps0 (W0 m c) (Proc.devRef .tc main_v46) = _
  dsimp only [hostOps0]
  after_results_simp
  rfl

/-- A buffer no item writes between the end of the first stretch after the edge kernel and the node kernel's exit keeps
    its contents. -/
theorem W8_of_W3 (r : Ref sig .tc) (h11 : r ∉ hostOps1_1_W) (h12 : r ∉ hostOps1_2_W)
    (h13 : r ∉ hostOps1_3_W) (h14 : r ∉ hostOps1_4_W) (hw1 : ∀ w, Pipeline.arrRef spec1 w ≠ r) :
    W8 m c (Proc.devRef .tc r) = W3 m c (Proc.devRef .tc r) :=
  calc W8 m c (Proc.devRef .tc r)
    _ = W7 m c (Proc.devRef .tc r) := W8_of_ne m c r hw1
    _ = W6 m c (Proc.devRef .tc r) := StableHlo.after_of_writes_sub hostOps1_4 _ hostOps1_4_writes h14
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11

/-- The edge kernel's output array after its region. -/
theorem W2_v47 : W2 m c (Proc.devRef .tc main_v47) = (dat0 (V1 m) c).arrAt 2 cfg0.N := W2_arr m c 2
/-- The node kernel's output array after its region. -/
theorem W8_v58 : W8 m c (Proc.devRef .tc main_v58) = (dat1 (V7 m) c).arrAt 2 cfg1.N := W8_arr m c 2

set_option maxHeartbeats 4000000 in
theorem W3_v50 : (W3 m c (Proc.devRef .tc main_v50) : S_.Idx → EReal)
    = Host.reduceAdd (F := Ideal) (shapeCast S2x128 (extractStridedSlice S2x1x128 ![0, 0, 0] (W2 m c (Proc.devRef .tc main_v47) : S2x2x128.Idx → EReal) slices_S2x2x128_S2x1x128_0_0_0) shapeCasts_S2x1x128_S2x128)
        (constant (F := Ideal) S_ .f32 0x00000000#32) reducesTo_S2x128_S_d0_1 h_S_ := by
  show StableHlo.after hostOps1 (W2 m c) (Proc.devRef .tc main_v50) = _
  dsimp only [hostOps1]
  after_results
  rfl

set_option maxHeartbeats 4000000 in
theorem W3_v53 : (W3 m c (Proc.devRef .tc main_v53) : S_.Idx → EReal)
    = Host.reduceAdd (F := Ideal) (shapeCast S2x128 (extractStridedSlice S2x1x128 ![0, 1, 0] (W2 m c (Proc.devRef .tc main_v47) : S2x2x128.Idx → EReal) slices_S2x2x128_S2x1x128_0_1_0) shapeCasts_S2x1x128_S2x128)
        (constant (F := Ideal) S_ .f32 0x00000000#32) reducesTo_S2x128_S_d0_1 h_S_ := by
  show StableHlo.after hostOps1 (W2 m c) (Proc.devRef .tc main_v53) = _
  dsimp only [hostOps1]
  after_results
  rfl

set_option maxHeartbeats 4000000 in
/-- The edge loss: the sum of row 0, divided by the number of edges. -/
theorem W9_v65 : (W9 m c (Proc.devRef .tc main_v65) : S_.Idx → EReal)
    = Host.divf (F := Ideal) (W3 m c (Proc.devRef .tc main_v50)) (constant (F := Ideal) S_ .f32 0x4B435000#32) := by
  rw [← W8_of_W3 m c main_v50 (by decide) (by decide) (by decide) (by decide) (by decide)]
  show StableHlo.after hostOps2 (W8 m c) (Proc.devRef .tc main_v65) = _
  dsimp only [hostOps2]
  after_results

set_option maxHeartbeats 4000000 in
/-- The edge accuracy: the sum of row 1, divided by the number of edges. -/
theorem W9_v66 : (W9 m c (Proc.devRef .tc main_v66) : S_.Idx → EReal)
    = Host.divf (F := Ideal) (W3 m c (Proc.devRef .tc main_v53)) (constant (F := Ideal) S_ .f32 0x4B435000#32) := by
  rw [← W8_of_W3 m c main_v53 (by decide) (by decide) (by decide) (by decide) (by decide)]
  show StableHlo.after hostOps2 (W8 m c) (Proc.devRef .tc main_v66) = _
  dsimp only [hostOps2]
  after_results

set_option maxHeartbeats 4000000 in
/-- The total: the two mean losses, each with weight one, added. -/
theorem W9_v71 : (W9 m c (Proc.devRef .tc main_v71) : S_.Idx → EReal)
    = Cert.Spec.total (W9 m c (Proc.devRef .tc main_v65)) (W9 m c (Proc.devRef .tc main_v67)) := by
  unfold Cert.Spec.total
  show StableHlo.after hostOps2 (W8 m c) (Proc.devRef .tc main_v71)
    = addf (mulf (constant (F := Ideal) Cert.Spec.S_ .f32 0x3F800000#32) (StableHlo.after hostOps2 (W8 m c) (Proc.devRef .tc main_v65)))
        (mulf (constant (F := Ideal) Cert.Spec.S_ .f32 0x3F800000#32) (StableHlo.after hostOps2 (W8 m c) (Proc.devRef .tc main_v67)))
  dsimp only [hostOps2]
  after_results
  try rfl

end Cert.KernelIdeal.Hand

end
-- ==== Proof.LibAxisReads.lean ====
/-
  Reductions of a matrix along one axis, and a column laid across the lanes, read at an index — general in the
  extents.
  At the exact values a maximum reduction of an [a, b] array along its second axis, started from the pattern of -∞, is at
  row p the fold of `max` from the bottom element over the row's entries (`rowMax_apply`); along its first axis it is
  at column q the fold over the column's entries (`colMax_apply`); an add reduction along the first axis is at column q
  the sum of the column's entries (`colSum_apply`). An [a, 1] column broadcast to [a, b] reads, at (p, c), the
  column's entry p (`broadcastTo_a1_ab_apply`).
-/
import Idealize.ShloMosaic.Lib.ValueIdx
import Idealize.ShloMosaic.Lib.Pipeline.Value
import Idealize.ShloMosaic.PureOps.Ideal.Laws

namespace Cert.LibAxisReads

open Idealize.ShloMosaic Idealize.ShloMosaic.ValueIdx
open scoped BigOperators

/-- The f32 pattern of -∞ is the bottom element of the extended reals. -/
theorem ofBits_negInf_f32 : Ideal.ofBits .f32 0xFF800000#32 = (⊥ : EReal) := by simp [Ideal.ofBits, Ideal.ieee]

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index a reduction along the second axis inserts over row p at coordinate n is (p, n). -/
theorem lift_row {a b : ℕ} (h : (⟨2, ![a, b]⟩ : Shape).Reduces [1] ⟨1, ![a]⟩) (p : Fin a) (n : Fin b) :
    h.lift (ix1 p) n = ix2 p n :=
  funext fun c => Fin.ext (by match c with | ⟨0, _⟩ => rfl | ⟨1, _⟩ => rfl)

/-- The source index a reduction along the first axis inserts over column q at coordinate n is (n, q). -/
theorem lift_col {a b : ℕ} (h : (⟨2, ![a, b]⟩ : Shape).Reduces [0] ⟨1, ![b]⟩) (q : Fin b) (n : Fin a) :
    h.lift (ix1 q) n = ix2 n q :=
  funext fun c => Fin.ext (by match c with | ⟨0, _⟩ => rfl | ⟨1, _⟩ => rfl)

/-- A maximum reduction along the second axis from -∞, at row p: the fold of `max` over the row's entries. -/
theorem rowMax_apply {a b : ℕ} (X : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ X 0xFF800000#32 h hφ hacc (ix1 p)
      = (Finset.univ : Finset (Fin b)).fold max (⊥ : EReal) (fun n => X (ix2 p n)) := by
  refine (Ideal.multiReduction_maximumf_single X _ h hφ hacc (ix1 p)).trans ?_
  show (Finset.univ : Finset (Fin b)).fold max (Ideal.ofBits .f32 0xFF800000#32) (fun n => X (h.lift (ix1 p) n)) = _
  rw [ofBits_negInf_f32]
  exact congrArg (fun f => Finset.fold max (⊥ : EReal) f (Finset.univ : Finset (Fin b)))
    (funext fun n => congrArg X (lift_row h p n))

/-- A maximum reduction along the first axis from -∞, at column q: the fold of `max` over the column's entries. -/
theorem colMax_apply {a b : ℕ} (X : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (q : Fin b) :
    multiReduction .maximumf [0] ⟨1, ![b]⟩ X 0xFF800000#32 h hφ hacc (ix1 q)
      = (Finset.univ : Finset (Fin a)).fold max (⊥ : EReal) (fun n => X (ix2 n q)) := by
  refine (Ideal.multiReduction_maximumf_single X _ h hφ hacc (ix1 q)).trans ?_
  show (Finset.univ : Finset (Fin a)).fold max (Ideal.ofBits .f32 0xFF800000#32) (fun n => X (h.lift (ix1 q) n)) = _
  rw [ofBits_negInf_f32]
  exact congrArg (fun f => Finset.fold max (⊥ : EReal) f (Finset.univ : Finset (Fin a)))
    (funext fun n => congrArg X (lift_col h q n))

/-- An add reduction along the first axis, at column q: the sum of the column's entries. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ X 0x00000000#32 h hφ hacc (ix1 q) = ∑ n : Fin a, X (ix2 n q) := by
  refine (Ideal.multiReduction_add_single X _ h hφ hacc (ix1 q)).trans ?_
  show ∑ n : Fin a, X (h.lift (ix1 q) n) = _
  exact Finset.sum_congr rfl fun n _ => congrArg X (lift_col h q n)

end Cert.LibAxisReads
-- ==== Proof.LibSumBlocks.lean ====
/-
  Finite sums over index sets, rearranged; every statement holds in any commutative additive monoid.

  * `sum_blocks`: a sum over `m * n` consecutive positions is the sum over `m` blocks of the sums over the `n`
    positions inside each block (position `t * n + r` is position `r` of block `t`).
  * `sum_idx1`: a sum over the index set of a rank-1 shape `[n]` is the sum over its one coordinate.
  * `sum_idxMid`: a sum over the index set of a shape `[1, n, 1]` is the sum over its middle coordinate.
-/
import Idealize.ShloMosaic.Lib.ValueIdx

open scoped BigOperators

namespace Cert.Lib.SumBlocks

open Idealize.ShloMosaic Idealize.ShloMosaic.ValueIdx

/-- A sum over `N = m * n` positions is the sum over `m` blocks of `n` consecutive positions each: `g t r` names
    position `r` of block `t`, which is position `t * n + r` of the whole. Only commutativity and associativity of
    the addition are used. -/
theorem sum_blocks {M : Type*} [AddCommMonoid M] (m n N : ℕ) (hN : N = m * n) (f : Fin N → M)
    (g : Fin m → Fin n → Fin N) (hg : ∀ t r, (g t r).val = t.val * n + r.val) :
    ∑ i : Fin N, f i = ∑ t : Fin m, ∑ r : Fin n, f (g t r) := by
  subst hN
  rw [← Equiv.sum_comp finProdFinEquiv f, Fintype.sum_prod_type]
  refine Finset.sum_congr rfl fun t _ => Finset.sum_congr rfl fun r _ => congrArg f (Fin.ext ?_)
  rw [hg, finProdFinEquiv_apply_val]
  show r.val + n * t.val = t.val * n + r.val
  rw [Nat.mul_comm, Nat.add_comm]

/-- The index set of a rank-1 shape is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a shape `[1, n, 1]` is the range of its middle coordinate: the two outer coordinates can only
    be `0` … -/
def idxEquivMid {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idxMid {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquivMid (n := n)).symm f]
  rfl

end Cert.Lib.SumBlocks
-- ==== Proof.KI.NodeParts.lean ====
/-
  The node kernel's region at the exact values, in parts.

  The body computes, for every entry (r, l) of the padded 1568 x 128 logits X and targets T, the per-element weight
  and the per-element hit, keeps them where position r * 128 + l is one of the 200000 real ones and puts zero
  elsewhere, and stores the column sums over the 1568 rows as the two rows of its 2 x 128 output. The region has one
  grid point whose blocks are the whole arrays, so the output array after the region is what the body leaves. Summed
  over the 128 lanes, the masked column sums regroup into the sum over the 200704 padded positions, of which the last
  704 contribute exact zeros: the sum over the 200000 real positions. The host operations around the region (pads,
  recasts, the slice and sum of a row, the division by the count) are read one stretch at a time.
-/
import proofs.«169834_j36790689858125_2_alg».proof.Proof.KI.Run
import proofs.«169834_j36790689858125_2_alg».proof.Proof.Spec
import proofs.«169834_j36790689858125_2_alg».proof.Proof.LibAxisReads
import proofs.«169834_j36790689858125_2_alg».proof.Proof.LibSumBlocks
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

/-! ## The node body's payloads, element by element -/

theorem nodePay3_eq (v : Vec Ideal S1568x128 .f32) : k1_pay3 v = v := shapeCast_self _ _
theorem nodePay4_eq (v : Vec Ideal S1568x128 .f32) : k1_pay4 v = v := shapeCast_self _ _

/-- The weight payload is the per-element weight of the logit and the target. -/
theorem nodePay7_apply (X T : Vec Ideal S1568x128 .f32) (j : S1568x128.Idx) :
    k1_pay7 (F := Ideal) X T j = Cert.Spec.wt (X j) (T j) := by
  unfold k1_pay7 k1_pay6
  simp only [nodePay3_eq, nodePay4_eq]
  rfl

/-- The prediction payload: the bit "p above one half", widened to 32 bits. -/
theorem nodePay8_apply (X : Vec Ideal S1568x128 .f32) (j : S1568x128.Idx) :
    k1_pay8 (F := Ideal) X j = (FloatOps.cmpf .ogt (FloatOps.logistic (X j)) Cert.Spec.half).setWidth 32 := by
  unfold k1_pay8 k1_pay6
  simp only [nodePay3_eq]
  rfl

/-- Row 0's payload at lane l: the sum down the lane's column of the weights under the mask. -/
theorem nodePay1_apply (M : IVec S1568x128 1) (V : FVec Ideal S1568x128 .f32) (l : Fin 128) :
    k1_pay1 (F := Ideal) M V (ix2 (0 : Fin 1) l)
      = ∑ r : Fin 1568, Scalar.select (M (ix2 r l)) (V (ix2 r l)) (Cert.Spec.zero : Ideal .f32) := by
  unfold k1_pay1
  refine (shapeCast_a_1a_apply _ _ (0 : Fin 1) l).trans ?_
  refine (Cert.LibAxisReads.colSum_apply _ reduces_S1568x128_S128 (.inl rfl) rfl l).trans ?_
  exact Finset.sum_congr rfl fun r _ => rfl

/-- Row 1's payload at lane l: the sum down the lane's column of the hits under the mask. -/
theorem nodePay2_apply (T : FVec Ideal S1568x128 .f32) (M : IVec S1568x128 1) (P : IVec S1568x128 32) (l : Fin 128) :
    k1_pay2 (F := Ideal) T M P (ix2 (0 : Fin 1) l)
      = ∑ r : Fin 1568, Scalar.select (M (ix2 r l))
          (FloatOps.sitofp (F := Ideal) .f32 ((FloatOps.cmpf .oeq (FloatOps.sitofp (F := Ideal) .f32 (P (ix2 r l))) (T (ix2 r l))).setWidth 32))
          (Cert.Spec.zero : Ideal .f32) := by
  unfold k1_pay2
  refine (shapeCast_a_1a_apply _ _ (0 : Fin 1) l).trans ?_
  refine (Cert.LibAxisReads.colSum_apply _ reduces_S1568x128_S128 (.inl rfl) rfl l).trans ?_
  exact Finset.sum_congr rfl fun r _ => rfl

/-! ## The validity mask -/

/-- A position below 200704, as a 32-bit word, is below 200000 as a signed word exactly when the number is. -/
theorem nodeWord_slt (n : Nat) (hn : n < 200704) : (BitVec.ofNat 32 n).slt 200000#32 = decide (n < 200000) := by
  have h1 : (BitVec.ofNat 32 n).toNat = n := by rw [BitVec.toNat_ofNat]; exact Nat.mod_eq_of_lt (by omega)
  have h2 : (BitVec.ofNat 32 n).toInt = (n : Int) := by
    rw [BitVec.toInt_eq_toNat_of_lt (by rw [h1]; omega), h1]
  have h3 : (200000#32 : BitVec 32).toInt = 200000 := by decide
  unfold BitVec.slt
  rw [h2, h3]
  by_cases h : n < 200000
  · simp [h]
  · simp [h]

/-- The mask at row r, lane l: position r * 128 + l is one of the 200000 real ones. -/
theorem nodeMask_apply (r : Fin 1568) (l : Fin 128) :
    k1_pay5 (ix2 r l) = if r.val * 128 + l.val < 200000 then 1#1 else 0#1 := by
  have hw : IntOp.addi (IntOp.muli (BitVec.ofNat 32 r.val) 128#32) (BitVec.ofNat 32 l.val) = BitVec.ofNat 32 (r.val * 128 + l.val) := by
    show BitVec.ofNat 32 r.val * 128#32 + BitVec.ofNat 32 l.val = _
    rw [BitVec.ofNat_add, BitVec.ofNat_mul]
  have hr := r.isLt; have hl := l.isLt
  show BitVec.ofBool ((IntOp.addi (IntOp.muli (iota .tc S1568x128 32 [0] iota_S1568x128_d0_w32 (ix2 r l)) 128#32) (iota .tc S1568x128 32 [1] iota_S1568x128_d1_w32 (ix2 r l))).slt 200000#32) = _
  rw [iota_single_apply, iota_single_apply]
  show BitVec.ofBool ((IntOp.addi (IntOp.muli (BitVec.ofNat 32 r.val) 128#32) (BitVec.ofNat 32 l.val)).slt 200000#32) = _
  rw [hw, nodeWord_slt _ (by omega)]
  by_cases h : r.val * 128 + l.val < 200000
  · rw [if_pos h]; simp [h]
  · rw [if_neg h]; simp [h]

/-! ## Regrouping the lane sums -/

/-- The sum over 128 lanes of the sums down 1568 rows, of a function of the flat position r * 128 + l that vanishes
    from position 200000 on, is the sum over the first 200000 positions. -/
theorem nodeSum_regroup {M : Type*} [AddCommMonoid M] (f : Fin 200704 → M) (hf : ∀ e : Fin 200704, 200000 ≤ e.val → f e = 0)
    (g : Fin 1568 → Fin 128 → Fin 200704) (hg : ∀ r l, (g r l).val = r.val * 128 + l.val) :
    ∑ l : Fin 128, ∑ r : Fin 1568, f (g r l) = ∑ i : Fin 200000, f (Fin.castLE (by omega) i) := by
  rw [Finset.sum_comm, ← Cert.Lib.SumBlocks.sum_blocks 1568 128 200704 (by norm_num) f g hg]
  refine Eq.trans ?_ (Finset.sum_map Finset.univ (Fin.castLEEmb (by omega : 200000 ≤ 200704)) f)
  symm
  refine Finset.sum_subset (Finset.subset_univ _) fun e _ he => hf e ?_
  by_contra hlt
  exact he (Finset.mem_map.mpr ⟨⟨e.val, by omega⟩, Finset.mem_univ _, Fin.ext rfl⟩)

/-! ## The padded arrays at a position -/

/-- A 200000-vector padded at the end to 200704 reads the vector below 200000. -/
theorem nodePad_apply_lt {α : Type} (x : S200000.Idx → α) {u : Shape} (v : u.Idx → α)
    (h : S200000.Pads (![0] : Fin 1 → Nat) ![704] ![0] S200704) (hu : 0 < u.numel) (e : Fin 200704) (he : e.val < 200000) :
    pad S200704 ![0] ![704] ![0] x v h hu (ix1 e) = x (ix1 ⟨e.val, he⟩) := by
  unfold pad
  split
  · refine congrArg x (funext fun a => ?_)
    match a with
    | ⟨0, _⟩ => exact Fin.ext (by show (e.val - 0) / (0 + 1) = e.val; omega)
  · rename_i hn
    refine absurd (fun a => ?_) hn
    match a with
    | ⟨0, _⟩ =>
      refine ⟨Nat.zero_le _, ?_, ?_⟩
      · show (e.val - 0) % (0 + 1) = 0; omega
      · show (e.val - 0) / (0 + 1) < 200000; omega

/-- A [200704] array recast to [1568, 128] reads, at (r, l), the array at position r * 128 + l. -/
theorem nodeCast_apply {α : Type} (y : S200704.Idx → α) (h : S200704.ShapeCasts S1568x128) (r : Fin 1568) (l : Fin 128)
    (e : Fin 200704) (he : e.val = r.val * 128 + l.val) :
    shapeCast S1568x128 y h (ix2 r l) = y (ix1 e) :=
  shapeCast_apply y h _ _ (by
    rw [Shape.rowMajor_val_two, Shape.rowMajor_val_one]
    show e.val = r.val * 128 + l.val
    exact he)

/-! ## The lane sums of a masked per-element function over the padded arrays -/

theorem nodeZero_eq : (Cert.Spec.zero : Ideal .f32) = 0 := Ideal.ofBits_zero_f32

/-- Over all 128 lanes, the masked column sums of a per-element function of the padded, recast logits and targets
    add up to the sum of the function over the 200000 real positions. -/
theorem nodeLanes_sum (Fn : Ideal .f32 → Ideal .f32 → Ideal .f32) (x t : S200000.Idx → EReal) {u : Shape} (vx vt : u.Idx → EReal)
    (hp : S200000.Pads (![0] : Fin 1 → Nat) ![704] ![0] S200704) (hu : 0 < u.numel) (hc : S200704.ShapeCasts S1568x128) :
    ∑ l : Fin 128, ∑ r : Fin 1568, Scalar.select (k1_pay5 (ix2 r l))
        (Fn (shapeCast S1568x128 (pad S200704 ![0] ![704] ![0] x vx hp hu) hc (ix2 r l))
            (shapeCast S1568x128 (pad S200704 ![0] ![704] ![0] t vt hp hu) hc (ix2 r l)))
        (Cert.Spec.zero : Ideal .f32)
      = ∑ i : S200000.Idx, Fn (x i) (t i) := by
  let f : Fin 200704 → EReal := fun e =>
    Scalar.select (if e.val < 200000 then 1#1 else 0#1)
      (Fn (pad S200704 ![0] ![704] ![0] x vx hp hu (ix1 e)) (pad S200704 ![0] ![704] ![0] t vt hp hu (ix1 e))) (Cert.Spec.zero : Ideal .f32)
  let g : Fin 1568 → Fin 128 → Fin 200704 := fun r l => ⟨r.val * 128 + l.val, by have := r.isLt; have := l.isLt; omega⟩
  have hf : ∀ e : Fin 200704, 200000 ≤ e.val → f e = 0 := fun e he => by
    show Scalar.select (if e.val < 200000 then 1#1 else 0#1) _ _ = 0
    rw [if_neg (by omega), select_zero, nodeZero_eq]
  have h1 : ∀ l : Fin 128, ∀ r : Fin 1568, Scalar.select (k1_pay5 (ix2 r l))
        (Fn (shapeCast S1568x128 (pad S200704 ![0] ![704] ![0] x vx hp hu) hc (ix2 r l))
            (shapeCast S1568x128 (pad S200704 ![0] ![704] ![0] t vt hp hu) hc (ix2 r l)))
        (Cert.Spec.zero : Ideal .f32) = f (g r l) := fun l r => by
    rw [nodeMask_apply, nodeCast_apply _ hc r l (g r l) rfl, nodeCast_apply _ hc r l (g r l) rfl]
  have h2 : ∀ i : Fin 200000, f (Fin.castLE (by omega) i) = Fn (x (ix1 i)) (t (ix1 i)) := fun i => by
    show Scalar.select (if i.val < 200000 then 1#1 else 0#1) _ _ = _
    rw [if_pos i.isLt, select_one]
    exact congrArg₂ Fn (nodePad_apply_lt x vx hp hu _ i.isLt) (nodePad_apply_lt t vt hp hu _ i.isLt)
  calc _ = ∑ l : Fin 128, ∑ r : Fin 1568, f (g r l) := Finset.sum_congr rfl fun l _ => Finset.sum_congr rfl fun r _ => h1 l r
    _ = ∑ i : Fin 200000, f (Fin.castLE (by omega) i) := nodeSum_regroup f hf g fun _ _ => rfl
    _ = ∑ i : Fin 200000, Fn (x (ix1 i)) (t (ix1 i)) := Finset.sum_congr rfl fun i _ => h2 i
    _ = ∑ i : S200000.Idx, Fn (x i) (t i) := (Cert.Lib.SumBlocks.sum_idx1 fun i => Fn (x i) (t i)).symm

/-! ## The output buffer's two rows -/

abbrev nodeRr0 : Rect S2x128 := Rect.unit (s := S2x128) ![0, 0] S1x128.size inb_S2x128_S1x128_0_0
abbrev nodeRr1 : Rect S2x128 := Rect.unit (s := S2x128) ![1, 0] S1x128.size inb_S2x128_S1x128_1_0

theorem nodeRr0_emb (l : Fin 128) : nodeRr0.emb (ix2 (0 : Fin 1) l) = ix2 (0 : Fin 2) l := by
  funext a; apply Fin.ext
  match a with
  | ⟨0, _⟩ => rfl
  | ⟨1, _⟩ => show 0 + 1 * l.val = l.val; omega
theorem nodeRr1_emb (l : Fin 128) : nodeRr1.emb (ix2 (0 : Fin 1) l) = ix2 (1 : Fin 2) l := by
  funext a; apply Fin.ext
  match a with
  | ⟨0, _⟩ => rfl
  | ⟨1, _⟩ => show 0 + 1 * l.val = l.val; omega
theorem nodeRow0_not_mem_rr1 (l : Fin 128) : ix2 (0 : Fin 2) l ∉ nodeRr1.set := by
  rw [Rect.mem_set_unit]
  intro h
  have h0 : (1 : ℕ) ≤ 0 := (h 0).1
  omega
theorem nodeRow1_not_mem_rr0 (l : Fin 128) : ix2 (1 : Fin 2) l ∉ nodeRr0.set := by
  rw [Rect.mem_set_unit]
  intro h
  have h0 : (1 : ℕ) < 0 + 1 := (h 0).2
  omega

theorem nodeHz2 : (![0, 0] : Fin 2 → Nat) = fun _ => 0 := funext fun a => by fin_cases a <;> rfl

variable {F : FTy → Type} [FloatOps F]

set_option maxHeartbeats 2000000 in
/-- The pieces the body leaves in the output buffer: the two row stores, row 1's last. -/
theorem nodeRun_pieces (c : Dev nD) (i : grid1.Coords) (arg1 : Memref sig .tc .vmem S1568x128 .f32) (harg1 : arg1.IsWhole) (arg2 : Memref sig .tc .vmem S1568x128 .f32) (harg2 : arg2.IsWhole) (arg3 : Memref sig .tc .vmem S2x128 .f32) (harg3 : arg3.IsWhole)
    (x0 : Vec F S1568x128 .f32) (x1 : Vec F S1568x128 .f32) :
    (kernelRun1 c i arg1 harg1 arg2 harg2 arg3 harg3 x0 x1).1
      = [⟨nodeRr1, k1_pay2 (k1_pay4 x1) k1_pay5 (k1_pay8 x0)⟩, ⟨nodeRr0, k1_pay1 k1_pay5 (k1_pay7 x0 x1)⟩] := by
  unfold kernelRun1
  dsimp only
  sl_unfold_run_names
  simp only [View.readAt_eq_ld, harg1.read_unread, harg2.read_unread, View.ld_unit_zero (S := S1568x128) nodeHz2]

/-- Row 0 of what the body leaves is row 0's payload. -/
theorem nodeOut_row0 (c : Dev nD) (i : grid1.Coords) (arg1 : Memref sig .tc .vmem S1568x128 .f32) (harg1 : arg1.IsWhole) (arg2 : Memref sig .tc .vmem S1568x128 .f32) (harg2 : arg2.IsWhole) (arg3 : Memref sig .tc .vmem S2x128 .f32) (harg3 : arg3.IsWhole)
    (x0 : Vec F S1568x128 .f32) (x1 : Vec F S1568x128 .f32) (l : Fin 128) :
    out1_2 c i arg1 harg1 arg2 harg2 arg3 harg3 x0 x1 (ix2 (0 : Fin 2) l) = k1_pay1 k1_pay5 (k1_pay7 x0 x1) (ix2 (0 : Fin 1) l) := by
  unfold out1_2
  rw [nodeRun_pieces, ← nodeRr0_emb l]
  refine View.read_writes_of_unique VO1_2 _ (⟨nodeRr0, k1_pay1 k1_pay5 (k1_pay7 x0 x1)⟩ : View.Piece (Elt F) S2x128 .f32) (ix2 (0 : Fin 1) l) _ (List.mem_cons_of_mem _ List.mem_cons_self) fun q hq hm => ?_
  rcases List.mem_cons.mp hq with rfl | hq
  · exact absurd (by rw [nodeRr0_emb] at hm; exact hm) (nodeRow0_not_mem_rr1 l)
  · rcases List.mem_cons.mp hq with rfl | hq
    · rfl
    · exact absurd hq List.not_mem_nil

/-- Row 1 of what the body leaves is row 1's payload. -/
theorem nodeOut_row1 (c : Dev nD) (i : grid1.Coords) (arg1 : Memref sig .tc .vmem S1568x128 .f32) (harg1 : arg1.IsWhole) (arg2 : Memref sig .tc .vmem S1568x128 .f32) (harg2 : arg2.IsWhole) (arg3 : Memref sig .tc .vmem S2x128 .f32) (harg3 : arg3.IsWhole)
    (x0 : Vec F S1568x128 .f32) (x1 : Vec F S1568x128 .f32) (l : Fin 128) :
    out1_2 c i arg1 harg1 arg2 harg2 arg3 harg3 x0 x1 (ix2 (1 : Fin 2) l) = k1_pay2 (k1_pay4 x1) k1_pay5 (k1_pay8 x0) (ix2 (0 : Fin 1) l) := by
  unfold out1_2
  rw [nodeRun_pieces, ← nodeRr1_emb l]
  refine View.read_writes_of_unique VO1_2 _ (⟨nodeRr1, k1_pay2 (k1_pay4 x1) k1_pay5 (k1_pay8 x0)⟩ : View.Piece (Elt F) S2x128 .f32) (ix2 (0 : Fin 1) l) _ List.mem_cons_self fun q hq hm => ?_
  rcases List.mem_cons.mp hq with rfl | hq
  · rfl
  · rcases List.mem_cons.mp hq with rfl | hq
    · exact absurd (by rw [nodeRr1_emb] at hm; exact hm) (nodeRow1_not_mem_rr0 l)
    · exact absurd hq List.not_mem_nil

/-! ## The region's one block is the whole array -/

variable (V : (c : Dev nD) → (b : Ref sig .tc) → Buf (Elt F) ((c : Thread nD τ).loc b))

theorem nodeEmb0 (t : Fin cfg1.N) (j : S1568x128.Idx) : ((cfg1.win 0).blk t).view.emb j = j := by
  funext a; apply Fin.ext
  match a with
  | ⟨0, _⟩ => show 0 * 1568 + 1 * (j 0).val = (j 0).val; omega
  | ⟨1, _⟩ => show 0 * 128 + 1 * (j 1).val = (j 1).val; omega
theorem nodeEmb1 (t : Fin cfg1.N) (j : S1568x128.Idx) : ((cfg1.win 1).blk t).view.emb j = j := by
  funext a; apply Fin.ext
  match a with
  | ⟨0, _⟩ => show 0 * 1568 + 1 * (j 0).val = (j 0).val; omega
  | ⟨1, _⟩ => show 0 * 128 + 1 * (j 1).val = (j 1).val; omega
theorem nodeEmb2 (t : Fin cfg1.N) (j : S2x128.Idx) : ((cfg1.win 2).blk t).view.emb j = j := by
  funext a; apply Fin.ext
  match a with
  | ⟨0, _⟩ => show 0 * 2 + 1 * (j 0).val = (j 0).val; omega
  | ⟨1, _⟩ => show 0 * 128 + 1 * (j 1).val = (j 1).val; omega

/-- The first input block is the whole logits array as the region finds it. -/
theorem nodeIblk_0 (c : Dev nD) (t : Fin cfg1.N) : iblk1 V c 0 t = V c main_v55 := by
  funext j
  exact congrArg (V c main_v55) (nodeEmb0 t j)
/-- The second input block is the whole targets array as the region finds it. -/
theorem nodeIblk_1 (c : Dev nD) (t : Fin cfg1.N) : iblk1 V c 1 t = V c main_v57 := by
  funext j
  exact congrArg (V c main_v57) (nodeEmb1 t j)

/-- Every index of the output array is in the one point's block. -/
theorem nodeMem_blk2 (i : S2x128.Idx) : i ∈ ((cfg1.win 2).blk t1_0).view.set := by
  show i ∈ ((View.whole main_v58).slice (win1_2.rect t1_0)).set
  rw [View.set_slice_whole, Rect.mem_set_unit]
  have h0 : (i 0).val < 2 := (i 0).isLt
  have h1 : (i 1).val < 128 := (i 1).isLt
  intro a
  match a with
  | ⟨0, _⟩ => exact ⟨Nat.zero_le _, by show (i 0).val < 0 * 2 + 2; omega⟩
  | ⟨1, _⟩ => exact ⟨Nat.zero_le _, by show (i 1).val < 0 * 128 + 128; omega⟩

/-- The output array after the region is what the body leaves at its one point. -/
theorem nodeArr_eq (c : Dev nD) : (dat1 V c).arrAt 2 cfg1.N = outAt1 V c t1_0 := by
  refine (dat1 V c).arrAt_eq_of_cover 2 (outAt1 V c t1_0) (fun t _ => ?_) (fun i => ⟨t1_0, flush1_2 t1_0, ?_⟩)
  · obtain rfl := fin_N1 t
    show (cfg1.win 2).cut (grid1.coords t1_0) ((dat1 V c).after 2 t1_0) = _
    rw [after1_2]
    funext j
    exact (congrArg (outAt1 V c t1_0) (nodeEmb2 t1_0 j)).symm
  · exact nodeMem_blk2 i

/-! ## The host stretches, each read over any entry contents -/

open Idealize.ShloMosaic.StableHlo

section HostReads
variable (W : Valuation τ sig (Elt Ideal))

set_option maxHeartbeats 4000000 in
theorem nodeAfter1_c11 : StableHlo.after hostOps1 W (Proc.devRef .tc main_c_11) = constantI S_ 32 0#32 := by
  dsimp only [hostOps1]
  after_results_simp
  all_goals rfl

set_option maxHeartbeats 4000000 in
theorem nodeAfter11_v54 : (StableHlo.after hostOps1_1 W (Proc.devRef .tc main_v54) : S200704.Idx → EReal)
    = pad S200704 ![0] ![704] ![0] (W (Proc.devRef .tc main_arg1)) (sitofp (F := Ideal) .f32 (W (Proc.devRef .tc main_c_11))) pads_S200000_S200704_07040 h_S_ := by
  dsimp only [hostOps1_1]
  after_results_simp
  all_goals rfl

set_option maxHeartbeats 4000000 in
theorem nodeAfter12_v55 : (StableHlo.after hostOps1_2 W (Proc.devRef .tc main_v55) : S1568x128.Idx → EReal)
    = shapeCast S1568x128 (W (Proc.devRef .tc main_v54)) shapeCasts_S200704_S1568x128 := by
  dsimp only [hostOps1_2]
  after_results_simp
  all_goals rfl

set_option maxHeartbeats 4000000 in
theorem nodeAfter12_c12 : StableHlo.after hostOps1_2 W (Proc.devRef .tc main_c_12) = constantI S_ 32 0#32 := by
  dsimp only [hostOps1_2]
  after_results_simp
  all_goals rfl

set_option maxHeartbeats 4000000 in
theorem nodeAfter13_v56 : (StableHlo.after hostOps1_3 W (Proc.devRef .tc main_v56) : S200704.Idx → EReal)
    = pad S200704 ![0] ![704] ![0] (W (Proc.devRef .tc main_v44)) (sitofp (F := Ideal) .f32 (W (Proc.devRef .tc main_c_12))) pads_S200000_S200704_07040 h_S_ := by
  dsimp only [hostOps1_3]
  after_results_simp
  all_goals rfl

set_option maxHeartbeats 4000000 in
theorem nodeAfter14_v57 : (StableHlo.after hostOps1_4 W (Proc.devRef .tc main_v57) : S1568x128.Idx → EReal)
    = shapeCast S1568x128 (W (Proc.devRef .tc main_v56)) shapeCasts_S200704_S1568x128 := by
  dsimp only [hostOps1_4]
  after_results_simp
  all_goals rfl

set_option maxHeartbeats 4000000 in
theorem nodeAfter2_v67 : (StableHlo.after hostOps2 W (Proc.devRef .tc main_v67) : S_.Idx → EReal)
    = Host.divf (F := Ideal) (Host.reduceAdd (F := Ideal) (shapeCast S128 (extractStridedSlice S1x128 ![0, 0] (W (Proc.devRef .tc main_v58)) slices_S2x128_S1x128_0_0) shapeCasts_S1x128_S128) (constant (F := Ideal) S_ .f32 0x00000000#32) reducesTo_S128_S_d0 h_S_) (constant (F := Ideal) S_ .f32 0x48435000#32) := by
  dsimp only [hostOps2]
  after_results_simp
  all_goals rfl

set_option maxHeartbeats 4000000 in
theorem nodeAfter2_v68 : (StableHlo.after hostOps2 W (Proc.devRef .tc main_v68) : S_.Idx → EReal)
    = Host.divf (F := Ideal) (Host.reduceAdd (F := Ideal) (shapeCast S128 (extractStridedSlice S1x128 ![1, 0] (W (Proc.devRef .tc main_v58)) slices_S2x128_S1x128_1_0) shapeCasts_S1x128_S128) (constant (F := Ideal) S_ .f32 0x00000000#32) reducesTo_S128_S_d0 h_S_) (constant (F := Ideal) S_ .f32 0x48435000#32) := by
  dsimp only [hostOps2]
  after_results_simp
  all_goals rfl

set_option maxHeartbeats 4000000 in
theorem nodeAfter0_v44 : (StableHlo.after hostOps0 W (Proc.devRef .tc main_v44) : S200000.Idx → EReal)
    = uitofp (F := Ideal) .f32 (cmpi .ne (W (Proc.devRef .tc main_arg3)) (broadcastInDim S200000 ![] bcast_S_S200000 (constantI S_ 32 0#32))) := by
  dsimp only [hostOps0]
  after_results_simp
  all_goals rfl

end HostReads

end Cert.KernelIdeal.Hand

end
-- ==== Proof.KI.NodeValue.lean ====
/-
  The node kernel's two results at the exact values.

  The node loss the program leaves is the sum over the 128 lanes of row 0 of the kernel's output array, from zero,
  divided by 200000; row 0 at lane l is the masked column sum of the per-element weights of the padded logits and
  targets, so the numerator is the sum of the weights over the 200000 nodes. The node accuracy is the same with
  row 1 and the per-element hits. The two operands are the node logits, and the node targets (the instance is not
  zero, as a float), each padded with 704 zeros and recast to 1568 rows of 128.
-/
import proofs.«169834_j36790689858125_2_alg».proof.Proof.KI.NodeParts

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

open Idealize.ShloMosaic.StableHlo

/-! ## The node kernel's two operands, from the arguments -/

section Operands
variable (m : (ℓ : Loc nD τ sig) → Buf (Elt Ideal) ℓ) (c : Dev nD)

/-- An argument array is as launched at the node region's entry and in every host stretch before it. -/
theorem nodeW3_arg1 : W3 m c (Proc.devRef .tc main_arg1) = m ((c : Thread nD τ).loc main_arg1) :=
  calc W3 m c (Proc.devRef .tc main_arg1)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- The logits operand: the node logits padded with 704 zeros and recast to 1568 rows of 128. -/
theorem nodeX_eq : (V7 m c main_v55 : S1568x128.Idx → EReal)
    = shapeCast S1568x128 (pad S200704 ![0] ![704] ![0] (m ((c : Thread nD τ).loc main_arg1))
        (sitofp (F := Ideal) .f32 (constantI S_ 32 0#32)) pads_S200000_S200704_07040 h_S_) shapeCasts_S200704_S1568x128 :=
  calc W7 m c (Proc.devRef .tc main_v55)
    _ = W6 m c (Proc.devRef .tc main_v55) := StableHlo.after_of_writes_sub hostOps1_4 _ hostOps1_4_writes (by decide)
    _ = W5 m c (Proc.devRef .tc main_v55) := StableHlo.after_of_writes_sub hostOps1_3 _ hostOps1_3_writes (by decide)
    _ = shapeCast S1568x128 (W4 m c (Proc.devRef .tc main_v54)) shapeCasts_S200704_S1568x128 := nodeAfter12_v55 (W4 m c)
    _ = _ := by
      rw [show W4 m c (Proc.devRef .tc main_v54) = _ from nodeAfter11_v54 (W3 m c), nodeW3_arg1,
        show W3 m c (Proc.devRef .tc main_c_11) = _ from nodeAfter1_c11 (W2 m c)]

/-- The node targets at the region's entry contents before the pads. -/
theorem nodeW5_v44 : (W5 m c (Proc.devRef .tc main_v44) : S200000.Idx → EReal)
    = uitofp (F := Ideal) .f32 (Cert.Spec.nodeBits (m ((c : Thread nD τ).loc main_arg3))) :=
  calc W5 m c (Proc.devRef .tc main_v44)
    _ = W4 m c (Proc.devRef .tc main_v44) := StableHlo.after_of_writes_sub hostOps1_2 _ hostOps1_2_writes (by decide)
    _ = W3 m c (Proc.devRef .tc main_v44) := StableHlo.after_of_writes_sub hostOps1_1 _ hostOps1_1_writes (by decide)
    _ = W2 m c (Proc.devRef .tc main_v44) := StableHlo.after_of_writes_sub hostOps1 _ hostOps1_writes (by decide)
    _ = W1 m c (Proc.devRef .tc main_v44) := W2_of_ne m c main_v44 (by decide)
    _ = _ := nodeAfter0_v44 (W0 m c)

/-- The targets operand: the node targets padded and recast likewise. -/
theorem nodeT_eq : (V7 m c main_v57 : S1568x128.Idx → EReal)
    = shapeCast S1568x128 (pad S200704 ![0] ![704] ![0] (uitofp (F := Ideal) .f32 (Cert.Spec.nodeBits (m ((c : Thread nD τ).loc main_arg3))))
        (sitofp (F := Ideal) .f32 (constantI S_ 32 0#32)) pads_S200000_S200704_07040 h_S_) shapeCasts_S200704_S1568x128 :=
  calc W7 m c (Proc.devRef .tc main_v57)
    _ = shapeCast S1568x128 (W6 m c (Proc.devRef .tc main_v56)) shapeCasts_S200704_S1568x128 := nodeAfter14_v57 (W6 m c)
    _ = _ := by
      rw [show W6 m c (Proc.devRef .tc main_v56) = _ from nodeAfter13_v56 (W5 m c), nodeW5_v44,
        show W5 m c (Proc.devRef .tc main_c_12) = _ from nodeAfter12_c12 (W4 m c)]

/-! ## The output array's rows, and the two results -/

/-- Row 0 of the node kernel's output at lane l: the masked column sum of the weights. -/
theorem nodeW8_row0 (l : Fin 128) : @Eq EReal ((W8 m c (Proc.devRef .tc main_v58) : S2x128.Idx → EReal) (ix2 (0 : Fin 2) l))
    (∑ r : Fin 1568, Scalar.select (k1_pay5 (ix2 r l))
        (Cert.Spec.wt ((V7 m c main_v55 : S1568x128.Idx → EReal) (ix2 r l)) ((V7 m c main_v57 : S1568x128.Idx → EReal) (ix2 r l)))
        (Cert.Spec.zero : Ideal .f32)) := by
  rw [show (W8 m c (Proc.devRef .tc main_v58) : S2x128.Idx → EReal) = (dat1 (V7 m) c).arrAt 2 cfg1.N from W8_arr m c 2, nodeArr_eq]
  unfold outAt1
  rw [nodeIblk_0, nodeIblk_1, nodeOut_row0, nodePay1_apply]
  exact Finset.sum_congr rfl fun r _ => by rw [nodePay7_apply]

/-- Row 1 of the node kernel's output at lane l: the masked column sum of the hits. -/
theorem nodeW8_row1 (l : Fin 128) : @Eq EReal ((W8 m c (Proc.devRef .tc main_v58) : S2x128.Idx → EReal) (ix2 (1 : Fin 2) l))
    (∑ r : Fin 1568, Scalar.select (k1_pay5 (ix2 r l))
        (Cert.Spec.hit ((V7 m c main_v55 : S1568x128.Idx → EReal) (ix2 r l)) ((V7 m c main_v57 : S1568x128.Idx → EReal) (ix2 r l)))
        (Cert.Spec.zero : Ideal .f32)) := by
  rw [show (W8 m c (Proc.devRef .tc main_v58) : S2x128.Idx → EReal) = (dat1 (V7 m) c).arrAt 2 cfg1.N from W8_arr m c 2, nodeArr_eq]
  unfold outAt1
  rw [nodeIblk_0, nodeIblk_1, nodeOut_row1, nodePay2_apply]
  refine Finset.sum_congr rfl fun r _ => ?_
  rw [nodePay8_apply, nodePay4_eq]
  rfl

/-- The node loss the kernel's program leaves is the mean of the per-element weights over the nodes. -/
theorem nodeLoss_value : (W9 m c (Proc.devRef .tc main_v67) : S_.Idx → EReal)
    = Cert.Spec.nodeLoss (m ((c : Thread nD τ).loc main_arg1)) (m ((c : Thread nD τ).loc main_arg3)) := by
  rw [show (W9 m c (Proc.devRef .tc main_v67) : S_.Idx → EReal) = _ from nodeAfter2_v67 (W8 m c)]
  funext j
  rw [hostDivf_apply, hostReduceAdd_apply, Ideal.hostReduceAdd_total reducesTo_S128_S_d0 (fun b => b.elim0)]
  unfold Cert.Spec.nodeLoss
  refine congrArg₂ Ideal.div (congrArg₂ (· + ·) rfl ?_) rfl
  rw [Cert.Lib.SumBlocks.sum_idx1]
  refine Eq.trans (Finset.sum_congr rfl fun l _ => ?_)
    (nodeLanes_sum Cert.Spec.wt (m ((c : Thread nD τ).loc main_arg1)) (uitofp (F := Ideal) .f32 (Cert.Spec.nodeBits (m ((c : Thread nD τ).loc main_arg3))))
      (sitofp (F := Ideal) .f32 (constantI S_ 32 0#32)) (sitofp (F := Ideal) .f32 (constantI S_ 32 0#32)) pads_S200000_S200704_07040 h_S_ shapeCasts_S200704_S1568x128)
  refine (shapeCast_1a_a_apply _ _ l).trans ((slice2_axis0_apply 0 _ _ (0 : Fin 1) l (0 : Fin 2) rfl).trans ?_)
  rw [nodeW8_row0, nodeX_eq, nodeT_eq]

/-- The node accuracy likewise: the mean of the per-element hits. -/
theorem nodeAcc_value : (W9 m c (Proc.devRef .tc main_v68) : S_.Idx → EReal)
    = Cert.Spec.nodeAcc (m ((c : Thread nD τ).loc main_arg1)) (m ((c : Thread nD τ).loc main_arg3)) := by
  rw [show (W9 m c (Proc.devRef .tc main_v68) : S_.Idx → EReal) = _ from nodeAfter2_v68 (W8 m c)]
  funext j
  rw [hostDivf_apply, hostReduceAdd_apply, Ideal.hostReduceAdd_total reducesTo_S128_S_d0 (fun b => b.elim0)]
  unfold Cert.Spec.nodeAcc
  refine congrArg₂ Ideal.div (congrArg₂ (· + ·) rfl ?_) rfl
  rw [Cert.Lib.SumBlocks.sum_idx1]
  refine Eq.trans (Finset.sum_congr rfl fun l _ => ?_)
    (nodeLanes_sum Cert.Spec.hit (m ((c : Thread nD τ).loc main_arg1)) (uitofp (F := Ideal) .f32 (Cert.Spec.nodeBits (m ((c : Thread nD τ).loc main_arg3))))
      (sitofp (F := Ideal) .f32 (constantI S_ 32 0#32)) (sitofp (F := Ideal) .f32 (constantI S_ 32 0#32)) pads_S200000_S200704_07040 h_S_ shapeCasts_S200704_S1568x128)
  refine (shapeCast_1a_a_apply _ _ l).trans ((slice2_axis0_apply 1 _ _ (0 : Fin 1) l (1 : Fin 2) rfl).trans ?_)
  rw [nodeW8_row1, nodeX_eq, nodeT_eq]

end Operands

end Cert.KernelIdeal.Hand

end
-- ==== Proof.KI.EdgeValue.lean ====
/-
  What the edge kernel's region leaves in its output array, at the exact values.
  One tile's contribution to lane l is the column sum over the tile's 10000 rows of the per-element weight (row 0 of
  the accumulator) or of the per-element hit (row 1). The accumulator after a point is what it held before, or zero
  at a point whose second coordinate is 0, plus the tile's column sums; the output block written at the last point of
  a core's five is the accumulator, so output entry (core, row, lane) is the sum over the core's five tiles of the
  tiles' column sums.
-/
import proofs.«169834_j36790689858125_2_alg».proof.Proof.KI.EdgeFrame
import proofs.«169834_j36790689858125_2_alg».proof.Proof.Spec
import proofs.«169834_j36790689858125_2_alg».proof.Proof.LibAxisReads
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

/-! ## One tile -/

/-- Lane l's column sum of the weights over a tile. -/
def tileW (x0 : Vec Ideal S10000x128 .f32) (x1 : Vec Ideal S10000x128 .bf16) (l : Fin 128) : EReal :=
  ∑ r : Fin 10000, Cert.Spec.wt (x0 (ix2 r l)) (x1 (ix2 r l))
/-- Lane l's column sum of the hits over a tile. -/
def tileH (x0 : Vec Ideal S10000x128 .f32) (x1 : Vec Ideal S10000x128 .bf16) (l : Fin 128) : EReal :=
  ∑ r : Fin 10000, Cert.Spec.hit (x0 (ix2 r l)) (x1 (ix2 r l))

theorem pay5_eq (v3 : Vec Ideal S10000x128 .f32) : k0_pay5 v3 = v3 := shapeCast_self _ _
theorem pay6_apply (v5 : Vec Ideal S10000x128 .bf16) (j : S10000x128.Idx) : k0_pay6 (F := Ideal) v5 j = v5 j := by
  unfold k0_pay6
  show (shapeCast S10000x128 v5 shapeCasts_S10000x128_S10000x128) j = v5 j
  rw [shapeCast_self]

/-- The weight payload, element by element. -/
theorem pay8_apply (x0 : Vec Ideal S10000x128 .f32) (x1 : Vec Ideal S10000x128 .bf16) (j : S10000x128.Idx) :
    k0_pay8 (F := Ideal) x0 x1 j = Cert.Spec.wt (x0 j) (x1 j) := by
  unfold k0_pay8 k0_pay7
  simp only [pay5_eq]
  rw [← pay6_apply x1 j]
  rfl

/-- The prediction payload (0 or 1), element by element. -/
theorem pay9_apply (x0 : Vec Ideal S10000x128 .f32) (j : S10000x128.Idx) :
    k0_pay9 (F := Ideal) x0 j
      = FloatOps.sitofp (F := Ideal) .f32 ((FloatOps.cmpf .ogt (FloatOps.logistic (x0 j)) Cert.Spec.half).setWidth 32) := by
  unfold k0_pay9 k0_pay7
  simp only [pay5_eq]
  rfl

/-- Row 0's payload: the accumulator's row 0 plus the tile's weight column sums. -/
theorem pay1_apply (x0 : Vec Ideal S10000x128 .f32) (x1 : Vec Ideal S10000x128 .bf16) (v45 : Vec Ideal S1x128 .f32) (l : Fin 128) :
    k0_pay1 (F := Ideal) (k0_pay8 x0 x1) v45 (ix2 (0 : Fin 1) l) = v45 (ix2 (0 : Fin 1) l) + tileW x0 x1 l := by
  unfold k0_pay1
  refine (shapeCast_a_1a_apply _ _ (0 : Fin 1) l).trans ?_
  show FloatOps.addf (shapeCast S128 v45 shapeCasts_S1x128_S128 (ix1 l)) (multiReduction .add [0] S128 (k0_pay8 x0 x1) 0x00000000#32 reduces_S10000x128_S128 (.inl rfl) rfl (ix1 l)) = _
  refine congrArg₂ (fun a b : EReal => a + b) (shapeCast_1a_a_apply v45 _ l) ?_
  refine (Cert.LibAxisReads.colSum_apply (k0_pay8 x0 x1) reduces_S10000x128_S128 (.inl rfl) rfl l).trans ?_
  exact Finset.sum_congr rfl fun r _ => pay8_apply x0 x1 (ix2 r l)

/-- Row 1's payload: the accumulator's row 1 plus the tile's hit column sums. -/
theorem pay2_apply (x0 : Vec Ideal S10000x128 .f32) (x1 : Vec Ideal S10000x128 .bf16) (v52 : Vec Ideal S1x128 .f32) (l : Fin 128) :
    k0_pay2 (F := Ideal) (k0_pay6 x1) (k0_pay9 x0) v52 (ix2 (0 : Fin 1) l) = v52 (ix2 (0 : Fin 1) l) + tileH x0 x1 l := by
  unfold k0_pay2
  refine (shapeCast_a_1a_apply _ _ (0 : Fin 1) l).trans ?_
  show FloatOps.addf (F := Ideal) (φ := .f32) (shapeCast S128 v52 shapeCasts_S1x128_S128 (ix1 l)) (multiReduction (F := Ideal) .add [0] S128 (sitofp (F := Ideal) .f32 (extui 32 (cmpf .oeq (k0_pay9 (F := Ideal) x0) (k0_pay6 (F := Ideal) x1)) natLt_1_32)) 0x00000000#32 reduces_S10000x128_S128 (.inl rfl) rfl (ix1 l)) = _
  refine congrArg₂ (fun a b : EReal => a + b) (shapeCast_1a_a_apply v52 _ l) ?_
  refine (Cert.LibAxisReads.colSum_apply _ reduces_S10000x128_S128 (.inl rfl) rfl l).trans ?_
  refine Finset.sum_congr rfl fun r _ => ?_
  show FloatOps.sitofp (F := Ideal) .f32 ((FloatOps.cmpf .oeq (k0_pay9 (F := Ideal) x0 (ix2 r l)) (k0_pay6 (F := Ideal) x1 (ix2 r l))).setWidth 32) = _
  rw [pay9_apply, pay6_apply]
  rfl

/-! ## The accumulator's rows -/

abbrev rr0 : Rect S2x128 := Rect.unit (s := S2x128) ![0, 0] S1x128.size inb_S2x128_S1x128_0_0
abbrev rr1 : Rect S2x128 := Rect.unit (s := S2x128) ![1, 0] S1x128.size inb_S2x128_S1x128_1_0

theorem rr0_emb (l : Fin 128) : rr0.emb (ix2 (0 : Fin 1) l) = ix2 (0 : Fin 2) l := by
  funext a; apply Fin.ext
  match a with
  | ⟨0, _⟩ => rfl
  | ⟨1, _⟩ => show 0 + 1 * l.val = l.val; omega
theorem rr1_emb (l : Fin 128) : rr1.emb (ix2 (0 : Fin 1) l) = ix2 (1 : Fin 2) l := by
  funext a; apply Fin.ext
  match a with
  | ⟨0, _⟩ => rfl
  | ⟨1, _⟩ => show 0 + 1 * l.val = l.val; omega
theorem row0_not_mem_rr1 (l : Fin 128) : ix2 (0 : Fin 2) l ∉ rr1.set := by
  rw [Rect.mem_set_unit]
  intro h
  have h0 : (1 : ℕ) ≤ 0 := (h 0).1
  omega

theorem hz2 : (![0, 0] : Fin 2 → Nat) = fun _ => 0 := funext fun a => by fin_cases a <;> rfl

variable {F : FTy → Type} [FloatOps F]

set_option maxHeartbeats 2000000 in
/-- The pieces a point that carries the accumulator on leaves in it: the two row stores, each the row it found plus the
    tile's column sums. -/
theorem run0_B_pieces (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : ¬cond0_1 i)
    (x0 : Vec F S10000x128 .f32) (x1 : Vec F S10000x128 .bf16) (xs0 : Vec F S2x128 .f32) :
    (kernelRun0_B c i arg2 harg2 arg3 harg3 arg4 harg4 arg5 harg5 hc0 hc1 x0 x1 xs0).1
      = [⟨rr1, k0_pay2 (k0_pay6 x1) (k0_pay9 x0) (View.ld xs0 rr1)⟩, ⟨rr0, k0_pay1 (k0_pay8 x0 x1) (View.ld xs0 rr0)⟩] := by
  unfold kernelRun0_B
  dsimp only
  sl_unfold_run_names
  simp only [View.readAt_eq_ld, harg2.read_unread, harg3.read_unread, harg5.read_unread, View.ld_unit_zero (S := S10000x128) hz2]

set_option maxHeartbeats 2000000 in
/-- The last point of a core's five leaves the same two row stores in the accumulator, -/
theorem run0_C_spieces (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) :
    (kernelRun0_C c i arg2 harg2 arg3 harg3 arg4 harg4 arg5 harg5 hc0 hc1 x0 x1 xs0).2.1
      = [⟨rr1, k0_pay2 (k0_pay6 x1) (k0_pay9 x0) (View.ld xs0 rr1)⟩, ⟨rr0, k0_pay1 (k0_pay8 x0 x1) (View.ld xs0 rr0)⟩] := by
  unfold kernelRun0_C
  dsimp only
  sl_unfold_run_names
  simp only [View.readAt_eq_ld, harg2.read_unread, harg3.read_unread, harg5.read_unread, View.ld_unit_zero (S := S10000x128) hz2]

theorem hz3 : (![0, 0, 0] : Fin 3 → Nat) = fun _ => 0 := funext fun a => by fin_cases a <;> rfl

set_option maxHeartbeats 2000000 in
/-- and then stores the whole accumulator, recast with a leading unit axis, into the output block. -/
theorem run0_C_opieces (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : ¬cond0_0 i) (hc1 : cond0_1 i)
    (x0 : Vec F S10000x128 .f32) (x1 : Vec F S10000x128 .bf16) (xs0 : Vec F S2x128 .f32) :
    (kernelRun0_C c i arg2 harg2 arg3 harg3 arg4 harg4 arg5 harg5 hc0 hc1 x0 x1 xs0).1
      = [⟨(Rect.unit (s := S1x2x128) ![0, 0, 0] ![1, 2, 128] inb_S1x2x128_S1x2x128_0_0_0),
          k0_pay3 (fun j => View.canon [⟨(Rect.unit (s := S2x128) ![1, 0] ![1, 128] inb_S2x128_S1x128_1_0), k0_pay2 (k0_pay6 x1) (k0_pay9 x0) (View.ld xs0 (Rect.unit (s := S2x128) ![1, 0] ![1, 128] inb_S2x128_S1x128_1_0))⟩, ⟨(Rect.unit (s := S2x128) ![0, 0] ![1, 128] inb_S2x128_S1x128_0_0), k0_pay1 (k0_pay8 x0 x1) (View.ld xs0 (Rect.unit (s := S2x128) ![0, 0] ![1, 128] inb_S2x128_S1x128_0_0))⟩] ((Rect.unit (s := S2x128) ![0, 0] ![2, 128] inb_S2x128_S2x128_0_0).idx j))⟩] := by
  unfold kernelRun0_C
  dsimp only
  sl_unfold_run_names
  simp only [View.readAt_eq_ld, harg2.read_unread, harg3.read_unread, harg5.read_unread, View.ld_unit_zero (S := S10000x128) hz2,
    View.readCov_eq_canon']
  rfl

set_option maxHeartbeats 2000000 in
/-- A point that zeroes the accumulator first leaves the zero fill under the two row stores, each row store the zero row
    plus the tile's column sums. -/
theorem run0_A_pieces (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole) (hc0 : cond0_0 i) (hc1 : ¬cond0_1 i)
    (x0 : Vec F S10000x128 .f32) (x1 : Vec F S10000x128 .bf16) :
    (kernelRun0_A c i arg2 harg2 arg3 harg3 arg4 harg4 arg5 harg5 hc0 hc1 x0 x1).1
      = [⟨(Rect.unit (s := S2x128) ![1, 0] ![1, 128] inb_S2x128_S1x128_1_0), k0_pay2 (k0_pay6 x1) (k0_pay9 x0) (fun j => View.canon [⟨(Rect.unit (s := S2x128) ![0, 0] ![1, 128] inb_S2x128_S1x128_0_0), k0_pay1 (k0_pay8 x0 x1) (fun j => View.canon [⟨(Rect.unit (s := S2x128) ![0, 0] ![2, 128] inb_S2x128_S2x128_0_0), k0_pay4⟩] ((Rect.unit (s := S2x128) ![0, 0] ![1, 128] inb_S2x128_S1x128_0_0).idx j))⟩,
            ⟨(Rect.unit (s := S2x128) ![0, 0] ![2, 128] inb_S2x128_S2x128_0_0), k0_pay4⟩] ((Rect.unit (s := S2x128) ![1, 0] ![1, 128] inb_S2x128_S1x128_1_0).idx j))⟩,
         ⟨(Rect.unit (s := S2x128) ![0, 0] ![1, 128] inb_S2x128_S1x128_0_0), k0_pay1 (k0_pay8 x0 x1) (fun j => View.canon [⟨(Rect.unit (s := S2x128) ![0, 0] ![2, 128] inb_S2x128_S2x128_0_0), k0_pay4⟩] ((Rect.unit (s := S2x128) ![0, 0] ![1, 128] inb_S2x128_S1x128_0_0).idx j))⟩,
         ⟨(Rect.unit (s := S2x128) ![0, 0] ![2, 128] inb_S2x128_S2x128_0_0), k0_pay4⟩] := by
  unfold kernelRun0_A
  dsimp only
  sl_unfold_run_names
  simp only [View.readAt_eq_ld, harg2.read_unread, harg3.read_unread, View.ld_unit_zero (S := S10000x128) hz2,
    View.readCov_eq_canon']
  rfl

/-! ## The accumulator and the output block, entry by entry, at the exact values -/

theorem row1_not_mem_rr0 (l : Fin 128) : ix2 (1 : Fin 2) l ∉ rr0.set := by
  rw [Rect.mem_set_unit]
  intro h
  have h0 : (1 : ℕ) < 0 + 1 := (h 0).2
  omega

theorem pay4_apply (j : S2x128.Idx) : k0_pay4 (F := Ideal) j = 0 := by
  unfold k0_pay4
  show shapeCast S2x128 (broadcast S2x128 (Scalar.ofBits (F := Ideal) .f32 0x00000000#32)) shapeCasts_S2x128_S2x128 j = 0
  rw [shapeCast_self]
  exact Ideal.ofBits_zero_f32

end Cert.KernelIdeal.Hand

end
-- ==== Proof.KI.EdgeRows.lean ====
/-
  The edge kernel's accumulator after one grid point, entry by entry, at the exact values.
  Every point stores the accumulator's two rows, each the row it found plus the tile's column sums of the weights
  (row 0) or of the hits (row 1); a point whose second coordinate is 0 first fills the accumulator with zeros, so
  there each row is zero plus the tile's column sums; the last point of a core's five then copies the accumulator,
  recast with a leading unit axis, into the output block. A read of a list of stores takes the last store whose
  rectangle holds the index.
-/
import proofs.«169834_j36790689858125_2_alg».proof.Proof.KI.EdgeValue

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

/-! ## Reading a list of stores, last store first -/

/-- Off the last store's rectangle, a read sees the earlier stores. -/
theorem edgeRead_skip (v : View sig .tc .vmem S2x128 .f32) (f : v.ty.Contents (Elt Ideal)) (q : View.Piece (Elt Ideal) S2x128 .f32)
    (L : List (View.Piece (Elt Ideal) S2x128 .f32)) {y : S2x128.Idx} (h : y ∉ q.1.set) :
    v.read (Elt Ideal) (v.writes (Elt Ideal) f (q :: L)) y = v.read (Elt Ideal) (v.writes (Elt Ideal) f L) y := by
  rw [View.writes_cons, View.read_slice_write_of_not_mem q.1 _ _ _ (by rwa [Rect.map_emb_univ])]

abbrev edgeRW : Rect S2x128 := Rect.unit (s := S2x128) ![0, 0] ![2, 128] inb_S2x128_S2x128_0_0

theorem edgeRW_emb (y : S2x128.Idx) : edgeRW.emb y = y := by
  funext a; apply Fin.ext
  match a with
  | ⟨0, _⟩ => show 0 + 1 * (y 0).val = (y 0).val; omega
  | ⟨1, _⟩ => show 0 + 1 * (y 1).val = (y 1).val; omega

/-- The zero fill alone reads zero everywhere. -/
theorem edgeFill_read (y : S2x128.Idx) :
    VS0.read (Elt Ideal) (VS0.writes (Elt Ideal) VS0.junk [(⟨edgeRW, k0_pay4 (F := Ideal)⟩ : View.Piece (Elt Ideal) S2x128 .f32)]) y = 0 := by
  have h := View.read_writes_cons_emb (Val := Elt Ideal) VS0 VS0.junk edgeRW (k0_pay4 (F := Ideal)) [] y
  rw [edgeRW_emb y] at h
  exact h.trans (pay4_apply y)

section Rows
variable (x0 : Vec Ideal S10000x128 .f32) (x1 : Vec Ideal S10000x128 .bf16) (xs0 : Vec Ideal S2x128 .f32) (l : Fin 128)

/-- The two row stores over contents xs0: row 0 gains the tile's weight column sums, -/
theorem edgeRowsB_row0 :
    VS0.read (Elt Ideal) (VS0.writes (Elt Ideal) VS0.junk
      [(⟨rr1, k0_pay2 (k0_pay6 x1) (k0_pay9 x0) (View.ld xs0 rr1)⟩ : View.Piece (Elt Ideal) S2x128 .f32), ⟨rr0, k0_pay1 (k0_pay8 x0 x1) (View.ld xs0 rr0)⟩]) (ix2 (0 : Fin 2) l)
      = xs0 (ix2 (0 : Fin 2) l) + tileW x0 x1 l := by
  rw [← rr0_emb l]
  refine (View.read_writes_of_unique VS0 _ (⟨rr0, k0_pay1 (k0_pay8 x0 x1) (View.ld xs0 rr0)⟩ : View.Piece (Elt Ideal) S2x128 .f32) (ix2 (0 : Fin 1) l) _
    (List.mem_cons_of_mem _ List.mem_cons_self) fun q hq hm => ?_).trans ?_
  · rcases List.mem_cons.mp hq with rfl | hq
    · exact absurd (by rw [rr0_emb] at hm; exact hm) (row0_not_mem_rr1 l)
    · rcases List.mem_cons.mp hq with rfl | hq
      · rfl
      · exact absurd hq List.not_mem_nil
  · exact (pay1_apply x0 x1 _ l).trans rfl

/-- and row 1 the hit column sums. -/
theorem edgeRowsB_row1 :
    VS0.read (Elt Ideal) (VS0.writes (Elt Ideal) VS0.junk
      [(⟨rr1, k0_pay2 (k0_pay6 x1) (k0_pay9 x0) (View.ld xs0 rr1)⟩ : View.Piece (Elt Ideal) S2x128 .f32), ⟨rr0, k0_pay1 (k0_pay8 x0 x1) (View.ld xs0 rr0)⟩]) (ix2 (1 : Fin 2) l)
      = xs0 (ix2 (1 : Fin 2) l) + tileH x0 x1 l := by
  rw [← rr1_emb l]
  refine (View.read_writes_cons_emb VS0 _ rr1 _ _ (ix2 (0 : Fin 1) l)).trans ?_
  exact (pay2_apply x0 x1 _ l).trans rfl

end Rows

set_option maxHeartbeats 2000000

section Cases
variable (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole)
  (x0 : Vec Ideal S10000x128 .f32) (x1 : Vec Ideal S10000x128 .bf16) (xs0 : Vec Ideal S2x128 .f32) (l : Fin 128)

theorem edgeSoutB_row0 (hc0 : ¬cond0_0 i) (hc1 : ¬cond0_1 i) :
    sout0_B (F := Ideal) c i arg2 harg2 arg3 harg3 arg4 harg4 arg5 harg5 hc0 hc1 x0 x1 xs0 (ix2 (0 : Fin 2) l) = xs0 (ix2 (0 : Fin 2) l) + tileW x0 x1 l := by
  unfold sout0_B; rw [run0_B_pieces]; exact edgeRowsB_row0 x0 x1 xs0 l
theorem edgeSoutB_row1 (hc0 : ¬cond0_0 i) (hc1 : ¬cond0_1 i) :
    sout0_B (F := Ideal) c i arg2 harg2 arg3 harg3 arg4 harg4 arg5 harg5 hc0 hc1 x0 x1 xs0 (ix2 (1 : Fin 2) l) = xs0 (ix2 (1 : Fin 2) l) + tileH x0 x1 l := by
  unfold sout0_B; rw [run0_B_pieces]; exact edgeRowsB_row1 x0 x1 xs0 l
theorem edgeSoutC_row0 (hc0 : ¬cond0_0 i) (hc1 : cond0_1 i) :
    sout0_C (F := Ideal) c i arg2 harg2 arg3 harg3 arg4 harg4 arg5 harg5 hc0 hc1 x0 x1 xs0 (ix2 (0 : Fin 2) l) = xs0 (ix2 (0 : Fin 2) l) + tileW x0 x1 l := by
  unfold sout0_C; rw [run0_C_spieces]; exact edgeRowsB_row0 x0 x1 xs0 l
theorem edgeSoutC_row1 (hc0 : ¬cond0_0 i) (hc1 : cond0_1 i) :
    sout0_C (F := Ideal) c i arg2 harg2 arg3 harg3 arg4 harg4 arg5 harg5 hc0 hc1 x0 x1 xs0 (ix2 (1 : Fin 2) l) = xs0 (ix2 (1 : Fin 2) l) + tileH x0 x1 l := by
  unfold sout0_C; rw [run0_C_spieces]; exact edgeRowsB_row1 x0 x1 xs0 l

/-- At a point that zeroes the accumulator first, row 0 is zero plus the weight column sums, -/
theorem edgeSoutA_row0 (hc0 : cond0_0 i) (hc1 : ¬cond0_1 i) :
    sout0_A (F := Ideal) c i arg2 harg2 arg3 harg3 arg4 harg4 arg5 harg5 hc0 hc1 x0 x1 (ix2 (0 : Fin 2) l) = 0 + tileW x0 x1 l := by
  unfold sout0_A; rw [run0_A_pieces]
  refine (edgeRead_skip VS0 _ _ _ (row0_not_mem_rr1 l)).trans ?_
  rw [← rr0_emb l]
  refine (View.read_writes_cons_emb VS0 _ rr0 _ _ (ix2 (0 : Fin 1) l)).trans ((pay1_apply x0 x1 _ l).trans ?_)
  refine congrArg (fun a : EReal => a + tileW x0 x1 l) ?_
  exact (View.read_writes_junk_apply_eq_canon VS0 _ _).symm.trans (edgeFill_read _)

/-- and row 1 zero plus the hit column sums. -/
theorem edgeSoutA_row1 (hc0 : cond0_0 i) (hc1 : ¬cond0_1 i) :
    sout0_A (F := Ideal) c i arg2 harg2 arg3 harg3 arg4 harg4 arg5 harg5 hc0 hc1 x0 x1 (ix2 (1 : Fin 2) l) = 0 + tileH x0 x1 l := by
  unfold sout0_A; rw [run0_A_pieces, ← rr1_emb l]
  refine (View.read_writes_cons_emb VS0 _ rr1 _ _ (ix2 (0 : Fin 1) l)).trans ((pay2_apply x0 x1 _ l).trans ?_)
  refine congrArg (fun a : EReal => a + tileH x0 x1 l) ?_
  refine (View.read_writes_junk_apply_eq_canon VS0 _ _).symm.trans ?_
  show VS0.read (Elt Ideal) (VS0.writes (Elt Ideal) VS0.junk _) (rr1.emb (ix2 (0 : Fin 1) l)) = 0
  rw [rr1_emb]
  exact (edgeRead_skip VS0 _ _ _ (row1_not_mem_rr0 l)).trans (edgeFill_read _)

/-- The output block at the last point of a core's five is the two row stores over what the point found, read back. -/
theorem edgeOutC_apply (hc0 : ¬cond0_0 i) (hc1 : cond0_1 i) (j : Fin 2) :
    out0_C_2 (F := Ideal) c i arg2 harg2 arg3 harg3 arg4 harg4 arg5 harg5 hc0 hc1 x0 x1 xs0 (ix3 (0 : Fin 1) j l)
      = VS0.read (Elt Ideal) (VS0.writes (Elt Ideal) VS0.junk
          [(⟨rr1, k0_pay2 (k0_pay6 x1) (k0_pay9 x0) (View.ld xs0 rr1)⟩ : View.Piece (Elt Ideal) S2x128 .f32), ⟨rr0, k0_pay1 (k0_pay8 x0 x1) (View.ld xs0 rr0)⟩]) (ix2 j l) := by
  unfold out0_C_2; rw [run0_C_opieces]
  refine (View.read_writes_junk_apply_eq_canon _ _ _).trans ?_
  rw [View.canon_unit_zero hz3]
  unfold k0_pay3
  refine (shapeCast_ab_1ab_apply _ _ (0 : Fin 1) j l).trans ?_
  show View.ld (View.canon (Val := Elt Ideal) [(⟨rr1, k0_pay2 (k0_pay6 x1) (k0_pay9 x0) (View.ld xs0 rr1)⟩ : View.Piece (Elt Ideal) S2x128 .f32), ⟨rr0, k0_pay1 (k0_pay8 x0 x1) (View.ld xs0 rr0)⟩]) (Rect.unit (s := S2x128) ![0, 0] ![2, 128] inb_S2x128_S2x128_0_0) (ix2 j l) = _
  rw [View.ld_unit_zero hz2]
  exact (View.read_writes_junk_apply_eq_canon VS0 _ _).symm

theorem edgeOutC_row0 (hc0 : ¬cond0_0 i) (hc1 : cond0_1 i) :
    out0_C_2 (F := Ideal) c i arg2 harg2 arg3 harg3 arg4 harg4 arg5 harg5 hc0 hc1 x0 x1 xs0 (ix3 (0 : Fin 1) (0 : Fin 2) l)
      = xs0 (ix2 (0 : Fin 2) l) + tileW x0 x1 l :=
  (edgeOutC_apply c i arg2 harg2 arg3 harg3 arg4 harg4 arg5 harg5 x0 x1 xs0 l hc0 hc1 0).trans (edgeRowsB_row0 x0 x1 xs0 l)
theorem edgeOutC_row1 (hc0 : ¬cond0_0 i) (hc1 : cond0_1 i) :
    out0_C_2 (F := Ideal) c i arg2 harg2 arg3 harg3 arg4 harg4 arg5 harg5 hc0 hc1 x0 x1 xs0 (ix3 (0 : Fin 1) (1 : Fin 2) l)
      = xs0 (ix2 (1 : Fin 2) l) + tileH x0 x1 l :=
  (edgeOutC_apply c i arg2 harg2 arg3 harg3 arg4 harg4 arg5 harg5 x0 x1 xs0 l hc0 hc1 1).trans (edgeRowsB_row1 x0 x1 xs0 l)

end Cases

end Cert.KernelIdeal.Hand

end
-- ==== Proof.KI.EdgeArray.lean ====
/-
  The edge kernel's output array after its region, as one function of the two operand arrays.
  Point t of the grid reads tile t of each operand. The accumulator after the i-th point of core k's five holds, in
  row j and lane l, zero plus the column sums in lane l of row j's per-element function over the core's tiles so
  far; the block written back at the core's last point is the accumulator then, and goes to core k of the output.
  So output entry (k, j, l) is zero plus the sum over the tiles 5 k, ..., 5 k + 4 of their column sums in lane l.
-/
import proofs.«169834_j36790689858125_2_alg».proof.Proof.KI.EdgeRows

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

set_option maxHeartbeats 1000000

/-- The per-element function summed into accumulator row j: the weight for row 0, the hit for row 1. -/
def edgeFn : Fin 2 → Ideal .f32 → Ideal .f32 → Ideal .f32
  | ⟨0, _⟩ => Cert.Spec.wt
  | ⟨1, _⟩ => Cert.Spec.hit

/-- A tile's column sum of row j's function in lane l. -/
def edgeTile (j : Fin 2) (x0 : Vec Ideal S10000x128 .f32) (x1 : Vec Ideal S10000x128 .bf16) (l : Fin 128) : EReal :=
  ∑ r : Fin 10000, edgeFn j (x0 (ix2 r l)) (x1 (ix2 r l))

section RowsJ
variable (c : Dev nD) (i : grid0.Coords) (arg2 : Memref sig .tc .vmem S10000x128 .f32) (harg2 : arg2.IsWhole) (arg3 : Memref sig .tc .vmem S10000x128 .bf16) (harg3 : arg3.IsWhole) (arg4 : Memref sig .tc .vmem S1x2x128 .f32) (harg4 : arg4.IsWhole) (arg5 : Memref sig .tc .vmem S2x128 .f32) (harg5 : arg5.IsWhole)
  (x0 : Vec Ideal S10000x128 .f32) (x1 : Vec Ideal S10000x128 .bf16) (xs0 : Vec Ideal S2x128 .f32) (l : Fin 128)

theorem edgeSoutA_row (hc0 : cond0_0 i) (hc1 : ¬cond0_1 i) : ∀ j : Fin 2,
    sout0_A (F := Ideal) c i arg2 harg2 arg3 harg3 arg4 harg4 arg5 harg5 hc0 hc1 x0 x1 (ix2 j l) = 0 + edgeTile j x0 x1 l
  | ⟨0, _⟩ => edgeSoutA_row0 c i arg2 harg2 arg3 harg3 arg4 harg4 arg5 harg5 x0 x1 l hc0 hc1
  | ⟨1, _⟩ => edgeSoutA_row1 c i arg2 harg2 arg3 harg3 arg4 harg4 arg5 harg5 x0 x1 l hc0 hc1
theorem edgeSoutB_row (hc0 : ¬cond0_0 i) (hc1 : ¬cond0_1 i) : ∀ j : Fin 2,
    sout0_B (F := Ideal) c i arg2 harg2 arg3 harg3 arg4 harg4 arg5 harg5 hc0 hc1 x0 x1 xs0 (ix2 j l) = xs0 (ix2 j l) + edgeTile j x0 x1 l
  | ⟨0, _⟩ => edgeSoutB_row0 c i arg2 harg2 arg3 harg3 arg4 harg4 arg5 harg5 x0 x1 xs0 l hc0 hc1
  | ⟨1, _⟩ => edgeSoutB_row1 c i arg2 harg2 arg3 harg3 arg4 harg4 arg5 harg5 x0 x1 xs0 l hc0 hc1
theorem edgeSoutC_row (hc0 : ¬cond0_0 i) (hc1 : cond0_1 i) : ∀ j : Fin 2,
    sout0_C (F := Ideal) c i arg2 harg2 arg3 harg3 arg4 harg4 arg5 harg5 hc0 hc1 x0 x1 xs0 (ix2 j l) = xs0 (ix2 j l) + edgeTile j x0 x1 l
  | ⟨0, _⟩ => edgeSoutC_row0 c i arg2 harg2 arg3 harg3 arg4 harg4 arg5 harg5 x0 x1 xs0 l hc0 hc1
  | ⟨1, _⟩ => edgeSoutC_row1 c i arg2 harg2 arg3 harg3 arg4 harg4 arg5 harg5 x0 x1 xs0 l hc0 hc1
theorem edgeOutC_row (hc0 : ¬cond0_0 i) (hc1 : cond0_1 i) : ∀ j : Fin 2,
    out0_C_2 (F := Ideal) c i arg2 harg2 arg3 harg3 arg4 harg4 arg5 harg5 hc0 hc1 x0 x1 xs0 (ix3 (0 : Fin 1) j l) = xs0 (ix2 j l) + edgeTile j x0 x1 l
  | ⟨0, _⟩ => edgeOutC_row0 c i arg2 harg2 arg3 harg3 arg4 harg4 arg5 harg5 x0 x1 xs0 l hc0 hc1
  | ⟨1, _⟩ => edgeOutC_row1 c i arg2 harg2 arg3 harg3 arg4 harg4 arg5 harg5 x0 x1 xs0 l hc0 hc1
end RowsJ

variable (V : (c : Dev nD) → (b : Ref sig .tc) → Buf (Elt Ideal) ((c : Thread nD τ).loc b)) (c : Dev nD)

/-- Tile t's column sum of row j's function in lane l. -/
def edgeCol (j : Fin 2) (t : Fin cfg0.N) (l : Fin 128) : EReal := edgeTile j (iblk0 V c 0 t) (iblk0 V c 1 t) l

/-- The same at a position that need not be a grid point (zero outside the grid). -/
def edgeColN (j : Fin 2) (n : ℕ) (l : Fin 128) : EReal := if h : n < cfg0.N then edgeCol V c j ⟨n, h⟩ l else 0

theorem edgeOuts_congr {n n' : ℕ} (e : n = n') (hn : n < cfg0.N) (hn' : n' < cfg0.N) : outsAt0 V c n hn = outsAt0 V c n' hn' := by
  subst e; rfl

/-- A point whose second coordinate is 0 leaves zero plus its tile's column sums. -/
theorem edgeStepA (t : Fin cfg0.N) (h0 : t.val % 5 = 0) (j : Fin 2) (l : Fin 128) :
    (outsAt0 V c t.val t.isLt).2 (ix2 j l) = 0 + edgeCol V c j t l := by
  have e2 := congrArg Prod.snd (outsAt0_A V c t h0 (by omega))
  dsimp only at e2
  exact (congrFun e2 (ix2 j l)).trans (edgeSoutA_row c _ _ _ _ _ _ _ _ _ _ _ l _ _ j)

/-- Any other point leaves what the point before left plus its tile's column sums. -/
theorem edgeStepBC (t : Fin cfg0.N) (h0 : ¬t.val % 5 = 0) (j : Fin 2) (l : Fin 128) :
    (outsAt0 V c t.val t.isLt).2 (ix2 j l)
      = (outsAt0 V c (t.val - 1) (Nat.lt_of_le_of_lt (Nat.sub_le _ _) t.isLt)).2 (ix2 j l) + edgeCol V c j t l := by
  by_cases h1 : t.val % 5 = 4
  · have e2 := congrArg Prod.snd (outsAt0_C V c t h0 h1)
    dsimp only at e2
    exact (congrFun e2 (ix2 j l)).trans (edgeSoutC_row c _ _ _ _ _ _ _ _ _ _ _ _ l _ _ j)
  · have e2 := congrArg Prod.snd (outsAt0_B V c t h0 h1)
    dsimp only at e2
    exact (congrFun e2 (ix2 j l)).trans (edgeSoutB_row c _ _ _ _ _ _ _ _ _ _ _ _ l _ _ j)

/-- At the last point of a core's five the block written back is the accumulator. -/
theorem edgeOut_eq_acc (t : Fin cfg0.N) (h1 : t.val % 5 = 4) (j : Fin 2) (l : Fin 128) :
    (outsAt0 V c t.val t.isLt).1 (ix3 (0 : Fin 1) j l) = (outsAt0 V c t.val t.isLt).2 (ix2 j l) := by
  have h0 : ¬t.val % 5 = 0 := by omega
  have e1 := congrArg Prod.fst (outsAt0_C V c t h0 h1)
  have e2 := congrArg Prod.snd (outsAt0_C V c t h0 h1)
  dsimp only at e1 e2
  exact ((congrFun e1 (ix3 (0 : Fin 1) j l)).trans (edgeOutC_row c _ _ _ _ _ _ _ _ _ _ _ _ l _ _ j)).trans
    ((congrFun e2 (ix2 j l)).trans (edgeSoutC_row c _ _ _ _ _ _ _ _ _ _ _ _ l _ _ j)).symm

/-- The accumulator after the i-th point of core k's five: zero plus the column sums of the core's tiles so far. -/
theorem edgeAcc_core (k : ℕ) (j : Fin 2) (l : Fin 128) : ∀ (i : ℕ) (hi : i < 5) (h : 5 * k + i < cfg0.N),
    (outsAt0 V c (5 * k + i) h).2 (ix2 j l) = 0 + ∑ i' ∈ Finset.range (i + 1), edgeColN V c j (5 * k + i') l
  | 0, _, h => by
    refine (edgeStepA V c ⟨5 * k + 0, h⟩ (by show (5 * k + 0) % 5 = 0; omega) j l).trans ?_
    rw [Finset.sum_range_one]
    unfold edgeColN; rw [dif_pos h]
  | i + 1, hi, h => by
    have ih := edgeAcc_core k j l i (by omega) (by omega)
    have hs := edgeStepBC V c ⟨5 * k + (i + 1), h⟩ (by show ¬(5 * k + (i + 1)) % 5 = 0; omega) j l
    have hc := edgeOuts_congr V c (show (5 * k + (i + 1)) - 1 = 5 * k + i by omega)
      (Nat.lt_of_le_of_lt (Nat.sub_le _ _) h) (by omega)
    have hp := congrArg (fun p : Vec Ideal S1x2x128 .f32 × Vec Ideal S2x128 .f32 => p.2 (ix2 j l)) hc
    refine hs.trans ?_
    refine (congrArg (fun a : EReal => a + edgeCol V c j ⟨5 * k + (i + 1), h⟩ l) (hp.trans ih)).trans ?_
    rw [Finset.sum_range_succ (fun i' => edgeColN V c j (5 * k + i') l) (i + 1), add_assoc (0 : EReal)]
    refine congrArg (fun a : EReal => (0 : EReal) + (∑ i' ∈ Finset.range (i + 1), edgeColN V c j (5 * k + i') l + a)) ?_
    unfold edgeColN; rw [dif_pos h]

/-- The block written back at the last point of a core's five, entry (0, j, l): zero plus the core's five tiles' column sums. -/
theorem edgeOut_at (t : Fin cfg0.N) (h1 : t.val % 5 = 4) (j : Fin 2) (l : Fin 128) :
    (outsAt0 V c t.val t.isLt).1 (ix3 (0 : Fin 1) j l) = 0 + ∑ i' ∈ Finset.range 5, edgeColN V c j (5 * (t.val / 5) + i') l := by
  have e : t.val = 5 * (t.val / 5) + 4 := by omega
  have hlt : 5 * (t.val / 5) + 4 < cfg0.N := e ▸ t.isLt
  have hc := edgeOuts_congr V c e t.isLt hlt
  exact (edgeOut_eq_acc V c t h1 j l).trans
    ((congrArg (fun p : Vec Ideal S1x2x128 .f32 × Vec Ideal S2x128 .f32 => p.2 (ix2 j l)) hc).trans
      (edgeAcc_core V c (t.val / 5) j l 4 (by omega) hlt))

/-! ## The output array -/

/-- What the output array holds after the region: entry (k, j, l) is zero plus the column sums, in lane l, of row j's
    function over the five tiles of core k. -/
def edgeG (y : S2x2x128.Idx) : EReal := 0 + ∑ i' ∈ Finset.range 5, edgeColN V c (y 1) (5 * (y 0).val + i') (y 2)

/-- The output window's block index at a point: the point's first coordinate, then zeros. -/
theorem edgeIdx2 : ∀ t : Fin cfg0.N, win0_2.index t (0 : Fin 3) = t.val / 5 ∧ win0_2.index t (1 : Fin 3) = 0 ∧ win0_2.index t (2 : Fin 3) = 0 :=
  (by decide +kernel : ∀ t : Fin grid0.N, win0_2.index t (0 : Fin 3) = t.val / 5 ∧ win0_2.index t (1 : Fin 3) = 0 ∧ win0_2.index t (2 : Fin 3) = 0)

theorem edgeEmb2 (t : Fin cfg0.N) (j : Fin 2) (l : Fin 128) :
    ((cfg0.win 2).blk t).view.emb (ix3 (0 : Fin 1) j l) = (ix3 (⟨t.val / 5, by have := t.isLt; have : cfg0.N = 10 := N_0; omega⟩ : Fin 2) j l : S2x2x128.Idx) := by
  obtain ⟨e0, e1, e2⟩ := edgeIdx2 t
  funext a; apply Fin.ext
  match a with
  | ⟨0, _⟩ => show win0_2.index t (0 : Fin 3) * 1 + 1 * 0 = t.val / 5; rw [e0]; omega
  | ⟨1, _⟩ => show win0_2.index t (1 : Fin 3) * 2 + 1 * j.val = j.val; rw [e1]; omega
  | ⟨2, _⟩ => show win0_2.index t (2 : Fin 3) * 128 + 1 * l.val = l.val; rw [e2]; omega

theorem edgeMem_blk2 (t : Fin cfg0.N) (y : S2x2x128.Idx) (hy : (y 0).val = t.val / 5) : y ∈ ((cfg0.win 2).blk t).view.set := by
  obtain ⟨e0, e1, e2⟩ := edgeIdx2 t
  show y ∈ ((View.whole main_v47).slice (win0_2.rect t)).set
  rw [View.set_slice_whole, Rect.mem_set_unit]
  have h1 : (y 1).val < 2 := (y 1).isLt
  have h2 : (y 2).val < 128 := (y 2).isLt
  intro a
  match a with
  | ⟨0, _⟩ => show win0_2.index t (0 : Fin 3) * 1 ≤ (y 0).val ∧ (y 0).val < win0_2.index t (0 : Fin 3) * 1 + 1; rw [e0]; omega
  | ⟨1, _⟩ => show win0_2.index t (1 : Fin 3) * 2 ≤ (y 1).val ∧ (y 1).val < win0_2.index t (1 : Fin 3) * 2 + 2; rw [e1]; omega
  | ⟨2, _⟩ => show win0_2.index t (2 : Fin 3) * 128 ≤ (y 2).val ∧ (y 2).val < win0_2.index t (2 : Fin 3) * 128 + 128; rw [e2]; omega

/-- What a point that writes back sends to the array is its block of that function. -/
theorem edgeFlushed_eq (t : Fin cfg0.N) (h1 : t.val % 5 = 4) :
    (dat0 V c).flushed 2 t = ((cfg0.win 2).blk t).view.read (Elt Ideal) (edgeG V c) := by
  show (cfg0.win 2).cut (grid0.coords t) ((dat0 V c).after 2 t) = _
  rw [after0_2]
  funext y
  obtain ⟨j, l, rfl⟩ : ∃ (j : Fin 2) (l : Fin 128), y = (ix3 (0 : Fin 1) j l : S1x2x128.Idx) :=
    ⟨y 1, y 2, by
      have hy0 : (y 0).val < 1 := (y 0).isLt
      funext a; apply Fin.ext
      match a with
      | ⟨0, _⟩ => show (y 0).val = 0; omega
      | ⟨1, _⟩ => rfl
      | ⟨2, _⟩ => rfl⟩
  show (outsAt0 V c t.val t.isLt).1 (ix3 (0 : Fin 1) j l) = edgeG V c (((cfg0.win 2).blk t).view.emb (ix3 (0 : Fin 1) j l))
  rw [edgeEmb2 t j l]
  exact edgeOut_at V c t h1 j l

/-- The output array after the region. -/
theorem edgeArr_eq : (dat0 V c).arrAt 2 cfg0.N = edgeG V c := by
  refine (dat0 V c).arrAt_eq_of_cover 2 (edgeG V c) (fun t hf => edgeFlushed_eq V c t ((flush0_2 t).mp hf)) (fun y => ?_)
  have hy0 : (y 0).val < 2 := (y 0).isLt
  have hN : cfg0.N = 10 := N_0
  exact ⟨⟨5 * (y 0).val + 4, by omega⟩, (flush0_2 _).mpr (by show (5 * (y 0).val + 4) % 5 = 4; omega),
    edgeMem_blk2 _ y (by show (y 0).val = (5 * (y 0).val + 4) / 5; omega)⟩

end Cert.KernelIdeal.Hand

end
-- ==== Proof.KI.EdgeTotal.lean ====
/-
  The edge kernel's two results at the exact values.
  Tile t of an operand is rows 10000 t to 10000 t + 9999 of the operand recast to 100000 rows of 128, so its entry
  (r, l) is the flat position (10000 t + r) 128 + l of the argument. The kernel's output entry (k, j, l) is zero
  plus the column sums in lane l over the five tiles of core k; the host sums row j over the two cores and the 128
  lanes from zero and divides by the number of edges. The positions ((5 k + i) 10000 + r) 128 + l run once over
  all 12800000 edges, so the numerator is zero plus the sum of the per-element function over the edges.
-/
import proofs.«169834_j36790689858125_2_alg».proof.Proof.KI.EdgeArray
import proofs.«169834_j36790689858125_2_alg».proof.Proof.KI.HostValue
import proofs.«169834_j36790689858125_2_alg».proof.Proof.LibSumBlocks
import Idealize.ShloMosaic.Lib.IdealHost
import Idealize.ShloMosaic.Lib.ValueLayout

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open scoped BigOperators

open Idealize.ShloMosaic.StableHlo

section Total
variable (m : (ℓ : Loc nD τ sig) → Buf (Elt Ideal) ℓ) (c : Dev nD)

/-- The per-element function of row j at flat edge position e: of the logit and the target there. -/
def edgePhi (j : Fin 2) (e : Fin 12800000) : EReal :=
  edgeFn j ((m ((c : Thread nD τ).loc main_arg0) : S12800000.Idx → EReal) (ix1 e))
    (FloatOps.uitofp (F := Ideal) .f32 (Cert.Spec.sameBits (m ((c : Thread nD τ).loc main_arg2)) (m ((c : Thread nD τ).loc main_arg3)) (m ((c : Thread nD τ).loc main_arg4)) (ix1 e)))

/-! ## The operands' tiles -/

/-- Each input window's block index at a point: the point's number, then zero. -/
theorem edgeIdx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem edgeIdx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem edgeN : cfg0.N = 10 := N_0

theorem edgeEmb0 (t : Fin cfg0.N) (r : Fin 10000) (l : Fin 128) :
    ((cfg0.win 0).blk t).view.emb (ix2 r l) = (ix2 (⟨t.val * 10000 + r.val, by have := t.isLt; have := edgeN; have := r.isLt; omega⟩ : Fin 100000) l : S100000x128.Idx) := by
  obtain ⟨e0, e1⟩ := edgeIdx0 t
  funext a; apply Fin.ext
  match a with
  | ⟨0, _⟩ => show win0_0.index t (0 : Fin 2) * 10000 + 1 * r.val = t.val * 10000 + r.val; rw [e0]; omega
  | ⟨1, _⟩ => show win0_0.index t (1 : Fin 2) * 128 + 1 * l.val = l.val; rw [e1]; omega
theorem edgeEmb1 (t : Fin cfg0.N) (r : Fin 10000) (l : Fin 128) :
    ((cfg0.win 1).blk t).view.emb (ix2 r l) = (ix2 (⟨t.val * 10000 + r.val, by have := t.isLt; have := edgeN; have := r.isLt; omega⟩ : Fin 100000) l : S100000x128.Idx) := by
  obtain ⟨e0, e1⟩ := edgeIdx1 t
  funext a; apply Fin.ext
  match a with
  | ⟨0, _⟩ => show win0_1.index t (0 : Fin 2) * 10000 + 1 * r.val = t.val * 10000 + r.val; rw [e0]; omega
  | ⟨1, _⟩ => show win0_1.index t (1 : Fin 2) * 128 + 1 * l.val = l.val; rw [e1]; omega

/-- A [12800000] array recast to [100000, 128] reads, at (R, l), the array at position R * 128 + l. -/
theorem edgeCast_apply {α : Type} (y : S12800000.Idx → α) (h : S12800000.ShapeCasts S100000x128) (R : Fin 100000) (l : Fin 128)
    (e : Fin 12800000) (he : e.val = R.val * 128 + l.val) : shapeCast S100000x128 y h (ix2 R l) = y (ix1 e) :=
  shapeCast_apply y h _ _ (by
    rw [Shape.rowMajor_val_two, Shape.rowMajor_val_one]
    show e.val = R.val * 128 + l.val
    exact he)

/-- Tile t's column sum in lane l, over the flat positions (t * 10000 + r) * 128 + l. -/
theorem edgeCol_eq (j : Fin 2) (t : Fin cfg0.N) (l : Fin 128) :
    edgeCol (V1 m) c j t l = ∑ r : Fin 10000, edgePhi m c j ⟨(t.val * 10000 + r.val) * 128 + l.val, by have := t.isLt; have := edgeN; have := r.isLt; have := l.isLt; omega⟩ := by
  unfold edgeCol edgeTile
  refine Finset.sum_congr rfl fun r _ => ?_
  unfold edgePhi
  refine congrArg₂ (edgeFn j) ?_ ?_
  · show (W1 m c (Proc.devRef .tc main_v45) : S100000x128.Idx → EReal) (((cfg0.win 0).blk t).view.emb (ix2 r l)) = _
    rw [W1_v45, edgeEmb0]
    exact edgeCast_apply _ _ _ l _ rfl
  · show (W1 m c (Proc.devRef .tc main_v46) : S100000x128.Idx → EReal) (((cfg0.win 1).blk t).view.emb (ix2 r l)) = _
    rw [W1_v46, edgeEmb1]
    exact edgeCast_apply _ _ _ l _ rfl

/-! ## Regrouping -/

/-- Over the two cores and the 128 lanes, the five tiles' column sums add up to the sum over all 12800000 edges. -/
theorem edgeSum_regroup (j : Fin 2) :
    ∑ k : Fin 2, ∑ l : Fin 128, edgeG (V1 m) c (ix3 k j l) = ∑ e : Fin 12800000, edgePhi m c j e := by
  have hN := edgeN
  let gE : Fin 100000 → Fin 128 → Fin 12800000 := fun R l => ⟨R.val * 128 + l.val, by have := R.isLt; have := l.isLt; omega⟩
  let gR : Fin 10 → Fin 10000 → Fin 100000 := fun t r => ⟨t.val * 10000 + r.val, by have := t.isLt; have := r.isLt; omega⟩
  let gT : Fin 2 → Fin 5 → Fin 10 := fun k i => ⟨k.val * 5 + i.val, by have := k.isLt; have := i.isLt; omega⟩
  have hG : ∀ (k : Fin 2) (l : Fin 128), edgeG (V1 m) c (ix3 k j l)
      = ∑ i : Fin 5, ∑ r : Fin 10000, edgePhi m c j (gE (gR (gT k i) r) l) := fun k l => by
    show 0 + ∑ i' ∈ Finset.range 5, edgeColN (V1 m) c j (5 * k.val + i') l = _
    rw [zero_add, Finset.sum_range]
    refine Finset.sum_congr rfl fun i _ => ?_
    have hlt : 5 * k.val + i.val < cfg0.N := by have := k.isLt; have := i.isLt; omega
    unfold edgeColN
    rw [dif_pos hlt, edgeCol_eq]
    refine Finset.sum_congr rfl fun r _ => congrArg (edgePhi m c j) (Fin.ext ?_)
    show ((5 * k.val + i.val) * 10000 + r.val) * 128 + l.val = ((k.val * 5 + i.val) * 10000 + r.val) * 128 + l.val
    omega
  calc ∑ k : Fin 2, ∑ l : Fin 128, edgeG (V1 m) c (ix3 k j l)
      = ∑ k : Fin 2, ∑ l : Fin 128, ∑ i : Fin 5, ∑ r : Fin 10000, edgePhi m c j (gE (gR (gT k i) r) l) :=
        Finset.sum_congr rfl fun k _ => Finset.sum_congr rfl fun l _ => hG k l
    _ = ∑ k : Fin 2, ∑ i : Fin 5, ∑ r : Fin 10000, ∑ l : Fin 128, edgePhi m c j (gE (gR (gT k i) r) l) :=
        Finset.sum_congr rfl fun k _ => by
          rw [Finset.sum_comm]
          exact Finset.sum_congr rfl fun i _ => Finset.sum_comm
    _ = ∑ t : Fin 10, ∑ r : Fin 10000, ∑ l : Fin 128, edgePhi m c j (gE (gR t r) l) :=
        (Cert.Lib.SumBlocks.sum_blocks 2 5 10 (by norm_num) (fun t => ∑ r : Fin 10000, ∑ l : Fin 128, edgePhi m c j (gE (gR t r) l)) gT fun _ _ => rfl).symm
    _ = ∑ R : Fin 100000, ∑ l : Fin 128, edgePhi m c j (gE R l) :=
        (Cert.Lib.SumBlocks.sum_blocks 10 10000 100000 (by norm_num) (fun R => ∑ l : Fin 128, edgePhi m c j (gE R l)) gR fun _ _ => rfl).symm
    _ = ∑ e : Fin 12800000, edgePhi m c j e :=
        (Cert.Lib.SumBlocks.sum_blocks 100000 128 12800000 (by norm_num) (edgePhi m c j) gE fun _ _ => rfl).symm

/-! ## The two results -/

/-- A [2, 1, 128] array recast to [2, 128] reads, at (k, l), the array at (k, 0, l). -/
theorem edgeCast3_apply {α : Type} (y : S2x1x128.Idx → α) (h : S2x1x128.ShapeCasts S2x128) (k : Fin 2) (l : Fin 128) :
    shapeCast S2x128 y h (ix2 k l) = y (ix3 k (0 : Fin 1) l) :=
  shapeCast_apply y h _ _ (by
    rw [Shape.rowMajor_val_three, Shape.rowMajor_val_two]
    show (k.val * 1 + 0) * 128 + l.val = k.val * 128 + l.val
    omega)

/-- The sum the host takes of row j of the kernel's output array, from zero, is zero plus the sum over all edges. -/
theorem edgeRowSum (j : Fin 2) (hs : S2x2x128.Slices ![0, j.val, 0] S2x1x128) (jx : S_.Idx) :
    Host.reduceAdd (F := Ideal) (shapeCast S2x128 (extractStridedSlice S2x1x128 ![0, j.val, 0] (W2 m c (Proc.devRef .tc main_v47) : S2x2x128.Idx → EReal) hs) shapeCasts_S2x1x128_S2x128)
        (constant (F := Ideal) S_ .f32 0x00000000#32) reducesTo_S2x128_S_d0_1 h_S_ jx
      = (Cert.Spec.zero : Ideal .f32) + ∑ e : Fin 12800000, edgePhi m c j e := by
  rw [hostReduceAdd_apply, Ideal.hostReduceAdd_total reducesTo_S2x128_S_d0_1 (fun b => b.elim0)]
  refine congrArg₂ (fun a b : EReal => a + b) rfl ?_
  rw [sum_idx2, ← edgeSum_regroup m c j]
  refine Finset.sum_congr rfl fun k _ => Finset.sum_congr rfl fun l _ => ?_
  refine (edgeCast3_apply _ _ k l).trans ((slice3_axis1_apply j.val _ hs k (0 : Fin 1) l j (Nat.add_zero _).symm).trans ?_)
  rw [W2_v47, edgeArr_eq]

/-- The edge loss the kernel's program leaves is the mean of the per-element weights over the edges. -/
theorem edgeLoss_value : (W9 m c (Proc.devRef .tc main_v65) : S_.Idx → EReal)
    = Cert.Spec.edgeLoss (m ((c : Thread nD τ).loc main_arg0)) (m ((c : Thread nD τ).loc main_arg2)) (m ((c : Thread nD τ).loc main_arg3)) (m ((c : Thread nD τ).loc main_arg4)) := by
  rw [W9_v65, W3_v50]
  funext jx
  rw [hostDivf_apply]
  unfold Cert.Spec.edgeLoss
  refine congrArg₂ Ideal.div ?_ rfl
  refine (edgeRowSum m c (0 : Fin 2) slices_S2x2x128_S2x1x128_0_0_0 jx).trans ?_
  refine congrArg₂ (fun a b : EReal => a + b) rfl ?_
  exact (Cert.Lib.SumBlocks.sum_idx1 (fun i : S12800000.Idx => Cert.Spec.wt ((m ((c : Thread nD τ).loc main_arg0) : S12800000.Idx → EReal) i)
      (FloatOps.uitofp (F := Ideal) .f32 (Cert.Spec.sameBits (m ((c : Thread nD τ).loc main_arg2)) (m ((c : Thread nD τ).loc main_arg3)) (m ((c : Thread nD τ).loc main_arg4)) i)))).symm

/-- The edge accuracy likewise: the mean of the per-element hits. -/
theorem edgeAcc_value : (W9 m c (Proc.devRef .tc main_v66) : S_.Idx → EReal)
    = Cert.Spec.edgeAcc (m ((c : Thread nD τ).loc main_arg0)) (m ((c : Thread nD τ).loc main_arg2)) (m ((c : Thread nD τ).loc main_arg3)) (m ((c : Thread nD τ).loc main_arg4)) := by
  rw [W9_v66, W3_v53]
  funext jx
  rw [hostDivf_apply]
  unfold Cert.Spec.edgeAcc
  refine congrArg₂ Ideal.div ?_ rfl
  refine (edgeRowSum m c (1 : Fin 2) slices_S2x2x128_S2x1x128_0_1_0 jx).trans ?_
  refine congrArg₂ (fun a b : EReal => a + b) rfl ?_
  exact (Cert.Lib.SumBlocks.sum_idx1 (fun i : S12800000.Idx => Cert.Spec.hit ((m ((c : Thread nD τ).loc main_arg0) : S12800000.Idx → EReal) i)
      (FloatOps.uitofp (F := Ideal) .f32 (Cert.Spec.sameBits (m ((c : Thread nD τ).loc main_arg2)) (m ((c : Thread nD τ).loc main_arg3)) (m ((c : Thread nD τ).loc main_arg4)) i)))).symm

end Total

end Cert.KernelIdeal.Hand

end
-- ==== Proof.KernelRun.lean ====
/-
  The idealized kernel program's run with its five results named: the total loss, the edge loss, the node loss, the edge
  accuracy and the node accuracy as the same functions of the argument arrays that the reference computes, and the
  arguments unchanged.
-/
import proofs.«169834_j36790689858125_2_alg».proof.Proof.KI.HostValue
import proofs.«169834_j36790689858125_2_alg».proof.Proof.KI.NodeValue
import proofs.«169834_j36790689858125_2_alg».proof.Proof.KI.EdgeTotal

set_option maxRecDepth 16384

noncomputable section

namespace Cert.KernelIdeal.Hand

open Idealize.ShloMosaic Idealize.ShloMosaic.TcCoe
open Idealize.SL Idealize.SL.Sem
open Cert.KernelIdeal Cert.KernelIdeal.Gen

/-- Every weakly fair execution of the idealized kernel program ends with its results at the specification's values of
    the arguments, and the arguments as launched. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71)
          = Cert.Spec.total (Cert.Spec.edgeLoss (m ((c.tc : Thread nD τ).loc main_arg0)) (m ((c.tc : Thread nD τ).loc main_arg2)) (m ((c.tc : Thread nD τ).loc main_arg3)) (m ((c.tc : Thread nD τ).loc main_arg4))) (Cert.Spec.nodeLoss (m ((c.tc : Thread nD τ).loc main_arg1)) (m ((c.tc : Thread nD τ).loc main_arg3)))
      ∧ r.2.mem ((c.tc : Thread nD τ).loc main_v65) = Cert.Spec.edgeLoss (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v67) = Cert.Spec.nodeLoss (m ((c.tc : Thread nD τ).loc main_arg1)) (m ((c.tc : Thread nD τ).loc main_arg3))
      ∧ r.2.mem ((c.tc : Thread nD τ).loc main_v66) = Cert.Spec.edgeAcc (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v68) = Cert.Spec.nodeAcc (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(h c _ (mem_uc main_v71 (by decide))).trans ((W9_v71 m c).trans (by rw [edgeLoss_value m c, nodeLoss_value m c])),
     (h c _ (mem_uc main_v65 (by decide))).trans (edgeLoss_value m c),
     (h c _ (mem_uc main_v67 (by decide))).trans (nodeLoss_value m c),
     (h c _ (mem_uc main_v66 (by decide))).trans (edgeAcc_value m c),
     (h c _ (mem_uc main_v68 (by decide))).trans (nodeAcc_value m c),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c)⟩) (run_all (F := Ideal) m ρ)

end Cert.KernelIdeal.Hand

end
-- ==== Proof.RefScalar.lean ====
/-
  One element of the reference's spelling equals one element of the kernel's spelling, over the extended reals.

  The reference writes p as the quotient 1 / (1 + e^(-x)), which is the logistic function by definition; it
  negates |x| where the kernel subtracts it from zero; and it raises 1 - p_t to the power 2.0 where the kernel
  multiplies it by itself. The last step needs 1 - p_t to be a real number: p is 0 at the lower infinity, 1 at
  the upper one and a real in between, and the target is 0 or 1.
-/
import proofs.«169834_j36790689858125_2_alg».proof.Proof.Spec
import Idealize.ShloMosaic.PureOps.Ideal
import Idealize.ShloMosaic.PureOps.Ideal.Laws

noncomputable section

namespace Cert.RefValue

open Idealize.ShloMosaic

/-! ## The literals -/

theorem one_eq : (Cert.Spec.one : Ideal .f32) = 1 := by
  show Ideal.ofBits .f32 0x3F800000#32 = 1
  simp [Ideal.ofBits, Ideal.ieee, -EReal.coe_mul]; norm_num

theorem zero_eq : (Cert.Spec.zero : Ideal .f32) = 0 := Ideal.ofBits_zero_f32

theorem two_eq : (Cert.Spec.two : Ideal .f32) = ((2 : ℝ) : EReal) := by
  show Ideal.ofBits .f32 0x40000000#32 = ((2 : ℝ) : EReal)
  simp [Ideal.ofBits, Ideal.ieee, -EReal.coe_mul]; norm_num

/-! ## The quotient is the logistic function -/

theorem sigR_eq (x : Ideal .f32) : Cert.Spec.sigR x = FloatOps.logistic x := by
  unfold Cert.Spec.sigR
  rw [one_eq]
  rfl

/-! ## The cross-entropy term -/

theorem ceR_eq (x t : Ideal .f32) : Cert.Spec.ceR x t = Cert.Spec.ce x t := by
  unfold Cert.Spec.ceR Cert.Spec.ce
  have h : FloatOps.hostNegf (FloatOps.hostAbsf x) = FloatOps.subf Cert.Spec.zero (FloatOps.absf x) := by
    rw [zero_eq]
    show -(FloatOps.absf x) = (0 : EReal) - FloatOps.absf x
    rw [zero_sub]
  rw [h]
  rfl

/-! ## 1 - p_t -/

theorem missR_eq (x t : Ideal .f32) : Cert.Spec.missR x t = Cert.Spec.miss x t := by
  unfold Cert.Spec.missR Cert.Spec.miss
  rw [sigR_eq]

/-- The logistic function takes real values only. -/
theorem logistic_real (x : EReal) : ∃ l : ℝ, Ideal.logistic x = (l : EReal) := by
  induction x using EReal.rec with
  | bot => exact ⟨0, by rw [Ideal.logistic_bot, EReal.coe_zero]⟩
  | top => exact ⟨1, by rw [Ideal.logistic_top, EReal.coe_one]⟩
  | coe r => exact ⟨_, Ideal.logistic_coe r⟩

/-- A bit read as a float is a real number. -/
theorem uitofp_real {w : Nat} (b : BitVec w) : FloatOps.uitofp (F := Ideal) .f32 b = ((b.toNat : ℝ) : EReal) := rfl

/-- 1 - p_t is a real number when the target is. -/
theorem miss_real (x : Ideal .f32) (t : ℝ) : ∃ y : ℝ, Cert.Spec.miss x (t : EReal) = (y : EReal) := by
  obtain ⟨l, hl⟩ := logistic_real x
  refine ⟨1 - (l * t + (1 - l) * (1 - t)), ?_⟩
  unfold Cert.Spec.miss
  rw [one_eq]
  show (1 : EReal) - (Ideal.logistic x * (t : EReal) + ((1 : EReal) - Ideal.logistic x) * ((1 : EReal) - (t : EReal))) = _
  rw [hl]
  push_cast
  rfl

/-- The power 2.0 of a real number is its square. -/
theorem pow_two_real (y : ℝ) : Ideal.pow (y : EReal) ((2 : ℝ) : EReal) = (y : EReal) * (y : EReal) := by
  rw [Ideal.pow_coe_coe, ← EReal.coe_mul]
  congr 1
  show y ^ (2 : ℝ) = y * y
  rw [Real.rpow_two, sq]

/-! ## The two per-element functions -/

theorem wtR_eq (x : Ideal .f32) (b : BitVec 1) :
    Cert.Spec.wtR x (FloatOps.uitofp (F := Ideal) .f32 b) = Cert.Spec.wt x (FloatOps.uitofp (F := Ideal) .f32 b) := by
  unfold Cert.Spec.wtR Cert.Spec.wt
  rw [ceR_eq, missR_eq, uitofp_real]
  obtain ⟨y, hy⟩ := miss_real x (b.toNat : ℝ)
  rw [hy, two_eq, Ideal.hostPowf_def, pow_two_real]
  rfl

/-- A bit widened to 32 bits and read signed is the bit read unsigned. -/
theorem sitofp_setWidth (c : BitVec 1) :
    FloatOps.sitofp (F := Ideal) .f32 (c.setWidth 32) = FloatOps.uitofp (F := Ideal) .f32 c := by
  show (((c.setWidth 32).toInt : ℝ) : EReal) = ((c.toNat : ℝ) : EReal)
  rcases BitVec.eq_zero_or_eq_one c with h | h <;> subst h <;> simp

theorem hitR_eq (x : Ideal .f32) (b : BitVec 1) :
    Cert.Spec.hitR x (FloatOps.uitofp (F := Ideal) .f32 b) = Cert.Spec.hit x (FloatOps.uitofp (F := Ideal) .f32 b) := by
  unfold Cert.Spec.hitR Cert.Spec.hit
  rw [sigR_eq, sitofp_setWidth, sitofp_setWidth]

end Cert.RefValue

end
-- ==== Proof.RefValue.lean ====
/-
  The reference program's five results, read back as sums of the per-element functions.

  Each result is a quotient whose numerator is a host sum over every index of a vector that the program builds
  pointwise. At one index that vector is the reference's per-element weight (or hit) of the logit and the target
  there, which is the kernel's per-element function of the same two numbers; the host sum from zero into the
  rank-0 shape is zero plus the sum over all indices. The edge targets are the shared chain of gathers and
  comparisons, the node targets the comparison of the instance table with zero.
-/
import proofs.«169834_j36790689858125_2_alg».proof.Proof.Spec
import proofs.«169834_j36790689858125_2_alg».proof.Proof.RefScalar
import proofs.«169834_j36790689858125_2_alg».proof.Proof.Gen.ReferenceIdeal.Run
import Idealize.ShloMosaic.Lib.IdealHost
import Idealize.ShloMosaic.PureOps.Ideal.Laws

noncomputable section

namespace Cert.RefValue

open Cert.ReferenceIdeal Cert.ReferenceIdeal.Gen Cert.ReferenceIdeal.Value Idealize.ShloMosaic Idealize.ShloMosaic.TcCoe Idealize.SL.Sem Idealize.ShloMosaic.StableHlo

/-! ## The two kinds of result over any shape

`X` is the vector of logits, `Tg` the targets as floats (a vector of bits `B` converted), `Sg` the quotient
that is the sigmoid, `n` the pattern of the number of elements. -/

set_option maxRecDepth 8192 in
/-- A mean loss: the host sum of the pointwise weights from zero, divided by the count. -/
theorem loss_eq {S : Shape} {axes : List (Fin S.rank)} (hb : S_.BroadcastsInDim S (![] : Fin 0 → Fin S.rank))
    (hr : S.ReducesTo axes S_) (hu : 0 < S_.numel) (X Tg Sg : FVec Ideal S .f32) (B : IVec S 1) (n : BitVec 32)
    (hT : Tg = uitofp .f32 B)
    (hS : Sg = Host.divf (F := Ideal) (broadcastInDim S ![] hb (constant (F := Ideal) S_ .f32 0x3F800000#32)) (addf (broadcastInDim S ![] hb (constant (F := Ideal) S_ .f32 0x3F800000#32)) (Host.exp (Host.negf X)))) :
    Host.divf (F := Ideal) (Host.reduceAdd (F := Ideal) (mulf (addf (mulf (broadcastInDim S ![] hb (constant (F := Ideal) S_ .f32 0x3E800000#32)) Tg) (mulf (broadcastInDim S ![] hb (constant (F := Ideal) S_ .f32 0x3F400000#32)) (subf (broadcastInDim S ![] hb (constant (F := Ideal) S_ .f32 0x3F800000#32)) Tg))) (mulf (addf (subf (maximumf X (broadcastInDim S ![] hb (constant (F := Ideal) S_ .f32 0x00000000#32))) (mulf X Tg)) (Host.log1p (Host.exp (Host.negf (Host.absf X))))) (Host.powf (subf (broadcastInDim S ![] hb (constant (F := Ideal) S_ .f32 0x3F800000#32)) (addf (mulf Sg Tg) (mulf (subf (broadcastInDim S ![] hb (constant (F := Ideal) S_ .f32 0x3F800000#32)) Sg) (subf (broadcastInDim S ![] hb (constant (F := Ideal) S_ .f32 0x3F800000#32)) Tg)))) (broadcastInDim S ![] hb (constant (F := Ideal) S_ .f32 0x40000000#32))))) (constant (F := Ideal) S_ .f32 0x00000000#32) hr hu) (constant (F := Ideal) S_ .f32 n)
      = fun _ => FloatOps.hostDivf (Cert.Spec.zero + ∑ i : S.Idx, Cert.Spec.wt (X i) (FloatOps.uitofp .f32 (B i))) (Scalar.ofBits .f32 n) := by
  subst hT hS
  funext j
  rw [ValueIdx.hostDivf_apply, ValueIdx.hostReduceAdd_apply, Ideal.hostReduceAdd_total hr (fun b => b.elim0), Ideal.hostDivf_def]
  refine congrArg₂ Ideal.div (congrArg₂ (· + ·) rfl (Finset.sum_congr rfl fun i _ => ?_)) rfl
  exact (show _ = Cert.Spec.wtR (X i) (FloatOps.uitofp .f32 (B i)) from rfl).trans (wtR_eq (X i) (B i))

set_option maxRecDepth 8192 in
/-- An accuracy: the host sum of the pointwise hits from zero, divided by the count. -/
theorem acc_eq {S : Shape} {axes : List (Fin S.rank)} (hb : S_.BroadcastsInDim S (![] : Fin 0 → Fin S.rank))
    (hr : S.ReducesTo axes S_) (hu : 0 < S_.numel) (X Tg : FVec Ideal S .f32) (B : IVec S 1) (n : BitVec 32)
    (hT : Tg = uitofp .f32 B) :
    Host.divf (F := Ideal) (Host.reduceAdd (F := Ideal) (uitofp .f32 (cmpf .oeq (uitofp .f32 (cmpf .ogt (Host.divf (F := Ideal) (broadcastInDim S ![] hb (constant (F := Ideal) S_ .f32 0x3F800000#32)) (addf (broadcastInDim S ![] hb (constant (F := Ideal) S_ .f32 0x3F800000#32)) (Host.exp (Host.negf X)))) (broadcastInDim S ![] hb (constant (F := Ideal) S_ .f32 0x3F000000#32)))) Tg)) (constant (F := Ideal) S_ .f32 0x00000000#32) hr hu) (constant (F := Ideal) S_ .f32 n)
      = fun _ => FloatOps.hostDivf (Cert.Spec.zero + ∑ i : S.Idx, Cert.Spec.hit (X i) (FloatOps.uitofp .f32 (B i))) (Scalar.ofBits .f32 n) := by
  subst hT
  funext j
  rw [ValueIdx.hostDivf_apply, ValueIdx.hostReduceAdd_apply, Ideal.hostReduceAdd_total hr (fun b => b.elim0), Ideal.hostDivf_def]
  refine congrArg₂ Ideal.div (congrArg₂ (· + ·) rfl (Finset.sum_congr rfl fun i _ => ?_)) rfl
  exact (show _ = Cert.Spec.hitR (X i) (FloatOps.uitofp .f32 (B i)) from rfl).trans (hitR_eq (X i) (B i))

/-! ## The targets -/

variable (V0 : Valuation τ sig (Elt Ideal))

set_option maxRecDepth 8192 in
/-- The edge targets are the shared chain of gathers and comparisons, as floats. -/
theorem targets_edge : res_main_v41 (F := Ideal) V0
    = uitofp (F := Ideal) .f32 (Cert.Spec.sameBits (V0 (Proc.devRef .tc main_arg2)) (V0 (Proc.devRef .tc main_arg3)) (V0 (Proc.devRef .tc main_arg4))) := by
  unfold res_main_v41 res_main_v10 res_main_v17 res_main_v1 res_main_v3
  unfold Cert.Spec.sameBits Cert.Spec.look Cert.Spec.wrapCol Cert.Spec.srcRow Cert.Spec.dstRow
  rfl

/-- The node targets: the instance is not zero, as floats. -/
theorem targets_node : res_main_v94 (F := Ideal) V0 = uitofp (F := Ideal) .f32 (Cert.Spec.nodeBits (V0 (Proc.devRef .tc main_arg3))) := rfl

/-! ## The five results -/

set_option maxRecDepth 8192 in
theorem edgeLoss_eq : Host.divf (F := Ideal) (Host.reduceAdd (F := Ideal) (mulf (addf (mulf (broadcastInDim S12800000 ![] bcast_S_S12800000 (constant (F := Ideal) S_ .f32 0x3E800000#32)) (res_main_v41 (F := Ideal) V0)) (mulf (broadcastInDim S12800000 ![] bcast_S_S12800000 (constant (F := Ideal) S_ .f32 0x3F400000#32)) (subf (broadcastInDim S12800000 ![] bcast_S_S12800000 (constant (F := Ideal) S_ .f32 0x3F800000#32)) (res_main_v41 (F := Ideal) V0)))) (mulf (addf (subf (maximumf (V0 (Proc.devRef .tc main_arg0)) (broadcastInDim S12800000 ![] bcast_S_S12800000 (constant (F := Ideal) S_ .f32 0x00000000#32))) (mulf (V0 (Proc.devRef .tc main_arg0)) (res_main_v41 (F := Ideal) V0))) (Host.log1p (Host.exp (Host.negf (Host.absf (V0 (Proc.devRef .tc main_arg0))))))) (Host.powf (subf (broadcastInDim S12800000 ![] bcast_S_S12800000 (constant (F := Ideal) S_ .f32 0x3F800000#32)) (addf (mulf (res_main_v47 (F := Ideal) V0) (res_main_v41 (F := Ideal) V0)) (mulf (subf (broadcastInDim S12800000 ![] bcast_S_S12800000 (constant (F := Ideal) S_ .f32 0x3F800000#32)) (res_main_v47 (F := Ideal) V0)) (subf (broadcastInDim S12800000 ![] bcast_S_S12800000 (constant (F := Ideal) S_ .f32 0x3F800000#32)) (res_main_v41 (F := Ideal) V0))))) (broadcastInDim S12800000 ![] bcast_S_S12800000 (constant (F := Ideal) S_ .f32 0x40000000#32))))) (constant (F := Ideal) S_ .f32 0x00000000#32) reducesTo_S12800000_S_d0 h_S_) (constant (F := Ideal) S_ .f32 0x4B435000#32)
    = Cert.Spec.edgeLoss (V0 (Proc.devRef .tc main_arg0)) (V0 (Proc.devRef .tc main_arg2)) (V0 (Proc.devRef .tc main_arg3)) (V0 (Proc.devRef .tc main_arg4)) :=
  loss_eq bcast_S_S12800000 reducesTo_S12800000_S_d0 h_S_ _ _ _ _ _ (targets_edge V0) rfl

set_option maxRecDepth 8192 in
theorem edgeAcc_eq : Host.divf (F := Ideal) (Host.reduceAdd (F := Ideal) (uitofp (F := Ideal) .f32 (cmpf (F := Ideal) .oeq (uitofp (F := Ideal) .f32 (cmpf (F := Ideal) .ogt (Host.divf (F := Ideal) (broadcastInDim S12800000 ![] bcast_S_S12800000 (constant (F := Ideal) S_ .f32 0x3F800000#32)) (addf (broadcastInDim S12800000 ![] bcast_S_S12800000 (constant (F := Ideal) S_ .f32 0x3F800000#32)) (Host.exp (Host.negf (V0 (Proc.devRef .tc main_arg0)))))) (broadcastInDim S12800000 ![] bcast_S_S12800000 (constant (F := Ideal) S_ .f32 0x3F000000#32)))) (res_main_v41 (F := Ideal) V0))) (constant (F := Ideal) S_ .f32 0x00000000#32) reducesTo_S12800000_S_d0 h_S_) (constant (F := Ideal) S_ .f32 0x4B435000#32)
    = Cert.Spec.edgeAcc (V0 (Proc.devRef .tc main_arg0)) (V0 (Proc.devRef .tc main_arg2)) (V0 (Proc.devRef .tc main_arg3)) (V0 (Proc.devRef .tc main_arg4)) :=
  acc_eq bcast_S_S12800000 reducesTo_S12800000_S_d0 h_S_ _ _ _ _ (targets_edge V0)

set_option maxRecDepth 8192 in
theorem nodeLoss_eq : Host.divf (F := Ideal) (Host.reduceAdd (F := Ideal) (mulf (addf (mulf (broadcastInDim S200000 ![] bcast_S_S200000 (constant (F := Ideal) S_ .f32 0x3E800000#32)) (res_main_v94 (F := Ideal) V0)) (mulf (broadcastInDim S200000 ![] bcast_S_S200000 (constant (F := Ideal) S_ .f32 0x3F400000#32)) (subf (broadcastInDim S200000 ![] bcast_S_S200000 (constant (F := Ideal) S_ .f32 0x3F800000#32)) (res_main_v94 (F := Ideal) V0)))) (mulf (addf (subf (maximumf (V0 (Proc.devRef .tc main_arg1)) (broadcastInDim S200000 ![] bcast_S_S200000 (constant (F := Ideal) S_ .f32 0x00000000#32))) (mulf (V0 (Proc.devRef .tc main_arg1)) (res_main_v94 (F := Ideal) V0))) (Host.log1p (Host.exp (Host.negf (Host.absf (V0 (Proc.devRef .tc main_arg1))))))) (Host.powf (subf (broadcastInDim S200000 ![] bcast_S_S200000 (constant (F := Ideal) S_ .f32 0x3F800000#32)) (addf (mulf (res_main_v100 (F := Ideal) V0) (res_main_v94 (F := Ideal) V0)) (mulf (subf (broadcastInDim S200000 ![] bcast_S_S200000 (constant (F := Ideal) S_ .f32 0x3F800000#32)) (res_main_v100 (F := Ideal) V0)) (subf (broadcastInDim S200000 ![] bcast_S_S200000 (constant (F := Ideal) S_ .f32 0x3F800000#32)) (res_main_v94 (F := Ideal) V0))))) (broadcastInDim S200000 ![] bcast_S_S200000 (constant (F := Ideal) S_ .f32 0x40000000#32))))) (constant (F := Ideal) S_ .f32 0x00000000#32) reducesTo_S200000_S_d0 h_S_) (constant (F := Ideal) S_ .f32 0x48435000#32)
    = Cert.Spec.nodeLoss (V0 (Proc.devRef .tc main_arg1)) (V0 (Proc.devRef .tc main_arg3)) :=
  loss_eq bcast_S_S200000 reducesTo_S200000_S_d0 h_S_ _ _ _ _ _ (targets_node V0) rfl

set_option maxRecDepth 8192 in
theorem nodeAcc_eq : Host.divf (F := Ideal) (Host.reduceAdd (F := Ideal) (uitofp (F := Ideal) .f32 (cmpf (F := Ideal) .oeq (uitofp (F := Ideal) .f32 (cmpf (F := Ideal) .ogt (Host.divf (F := Ideal) (broadcastInDim S200000 ![] bcast_S_S200000 (constant (F := Ideal) S_ .f32 0x3F800000#32)) (addf (broadcastInDim S200000 ![] bcast_S_S200000 (constant (F := Ideal) S_ .f32 0x3F800000#32)) (Host.exp (Host.negf (V0 (Proc.devRef .tc main_arg1)))))) (broadcastInDim S200000 ![] bcast_S_S200000 (constant (F := Ideal) S_ .f32 0x3F000000#32)))) (res_main_v94 (F := Ideal) V0))) (constant (F := Ideal) S_ .f32 0x00000000#32) reducesTo_S200000_S_d0 h_S_) (constant (F := Ideal) S_ .f32 0x48435000#32)
    = Cert.Spec.nodeAcc (V0 (Proc.devRef .tc main_arg1)) (V0 (Proc.devRef .tc main_arg3)) :=
  acc_eq bcast_S_S200000 reducesTo_S200000_S_d0 h_S_ _ _ _ _ (targets_node V0)

set_option maxRecDepth 8192 in
theorem total_eq : addf (mulf (constant (F := Ideal) S_ .f32 0x3F800000#32) (Host.divf (F := Ideal) (Host.reduceAdd (F := Ideal) (mulf (addf (mulf (broadcastInDim S12800000 ![] bcast_S_S12800000 (constant (F := Ideal) S_ .f32 0x3E800000#32)) (res_main_v41 (F := Ideal) V0)) (mulf (broadcastInDim S12800000 ![] bcast_S_S12800000 (constant (F := Ideal) S_ .f32 0x3F400000#32)) (subf (broadcastInDim S12800000 ![] bcast_S_S12800000 (constant (F := Ideal) S_ .f32 0x3F800000#32)) (res_main_v41 (F := Ideal) V0)))) (mulf (addf (subf (maximumf (V0 (Proc.devRef .tc main_arg0)) (broadcastInDim S12800000 ![] bcast_S_S12800000 (constant (F := Ideal) S_ .f32 0x00000000#32))) (mulf (V0 (Proc.devRef .tc main_arg0)) (res_main_v41 (F := Ideal) V0))) (Host.log1p (Host.exp (Host.negf (Host.absf (V0 (Proc.devRef .tc main_arg0))))))) (Host.powf (subf (broadcastInDim S12800000 ![] bcast_S_S12800000 (constant (F := Ideal) S_ .f32 0x3F800000#32)) (addf (mulf (res_main_v47 (F := Ideal) V0) (res_main_v41 (F := Ideal) V0)) (mulf (subf (broadcastInDim S12800000 ![] bcast_S_S12800000 (constant (F := Ideal) S_ .f32 0x3F800000#32)) (res_main_v47 (F := Ideal) V0)) (subf (broadcastInDim S12800000 ![] bcast_S_S12800000 (constant (F := Ideal) S_ .f32 0x3F800000#32)) (res_main_v41 (F := Ideal) V0))))) (broadcastInDim S12800000 ![] bcast_S_S12800000 (constant (F := Ideal) S_ .f32 0x40000000#32))))) (constant (F := Ideal) S_ .f32 0x00000000#32) reducesTo_S12800000_S_d0 h_S_) (constant (F := Ideal) S_ .f32 0x4B435000#32))) (mulf (constant (F := Ideal) S_ .f32 0x3F800000#32) (Host.divf (F := Ideal) (Host.reduceAdd (F := Ideal) (mulf (addf (mulf (broadcastInDim S200000 ![] bcast_S_S200000 (constant (F := Ideal) S_ .f32 0x3E800000#32)) (res_main_v94 (F := Ideal) V0)) (mulf (broadcastInDim S200000 ![] bcast_S_S200000 (constant (F := Ideal) S_ .f32 0x3F400000#32)) (subf (broadcastInDim S200000 ![] bcast_S_S200000 (constant (F := Ideal) S_ .f32 0x3F800000#32)) (res_main_v94 (F := Ideal) V0)))) (mulf (addf (subf (maximumf (V0 (Proc.devRef .tc main_arg1)) (broadcastInDim S200000 ![] bcast_S_S200000 (constant (F := Ideal) S_ .f32 0x00000000#32))) (mulf (V0 (Proc.devRef .tc main_arg1)) (res_main_v94 (F := Ideal) V0))) (Host.log1p (Host.exp (Host.negf (Host.absf (V0 (Proc.devRef .tc main_arg1))))))) (Host.powf (subf (broadcastInDim S200000 ![] bcast_S_S200000 (constant (F := Ideal) S_ .f32 0x3F800000#32)) (addf (mulf (res_main_v100 (F := Ideal) V0) (res_main_v94 (F := Ideal) V0)) (mulf (subf (broadcastInDim S200000 ![] bcast_S_S200000 (constant (F := Ideal) S_ .f32 0x3F800000#32)) (res_main_v100 (F := Ideal) V0)) (subf (broadcastInDim S200000 ![] bcast_S_S200000 (constant (F := Ideal) S_ .f32 0x3F800000#32)) (res_main_v94 (F := Ideal) V0))))) (broadcastInDim S200000 ![] bcast_S_S200000 (constant (F := Ideal) S_ .f32 0x40000000#32))))) (constant (F := Ideal) S_ .f32 0x00000000#32) reducesTo_S200000_S_d0 h_S_) (constant (F := Ideal) S_ .f32 0x48435000#32)))
    = Cert.Spec.total (Cert.Spec.edgeLoss (V0 (Proc.devRef .tc main_arg0)) (V0 (Proc.devRef .tc main_arg2)) (V0 (Proc.devRef .tc main_arg3)) (V0 (Proc.devRef .tc main_arg4))) (Cert.Spec.nodeLoss (V0 (Proc.devRef .tc main_arg1)) (V0 (Proc.devRef .tc main_arg3))) := by
  rw [edgeLoss_eq V0, nodeLoss_eq V0]
  rfl

/-! ## The run, with the results as the per-element sums -/

set_option maxRecDepth 8192 in
/-- On every device, from any memory with zero counters: every weakly fair execution of the reference terminates
    with its five results at the means of the per-element functions over the launch contents of the arguments,
    and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147)
          = Cert.Spec.total (Cert.Spec.edgeLoss (m ((c.tc : Thread nD τ).loc main_arg0)) (m ((c.tc : Thread nD τ).loc main_arg2)) (m ((c.tc : Thread nD τ).loc main_arg3)) (m ((c.tc : Thread nD τ).loc main_arg4))) (Cert.Spec.nodeLoss (m ((c.tc : Thread nD τ).loc main_arg1)) (m ((c.tc : Thread nD τ).loc main_arg3)))
      ∧ r.2.mem ((c.tc : Thread nD τ).loc main_v78) = Cert.Spec.edgeLoss (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v131) = Cert.Spec.nodeLoss (m ((c.tc : Thread nD τ).loc main_arg1)) (m ((c.tc : Thread nD τ).loc main_arg3))
      ∧ r.2.mem ((c.tc : Thread nD τ).loc main_v91) = Cert.Spec.edgeAcc (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v144) = Cert.Spec.nodeAcc (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c).1.trans (total_eq (launchContents m c)),
       (h c).2.1.trans (edgeLoss_eq (launchContents m c)),
       (h c).2.2.1.trans (nodeLoss_eq (launchContents m c)),
       (h c).2.2.2.1.trans (edgeAcc_eq (launchContents m c)),
       (h c).2.2.2.2.1.trans (nodeAcc_eq (launchContents m c)),
       (h c).2.2.2.2.2⟩)
    (Cert.ReferenceIdeal.Value.run (F := Ideal) m ρ)

end Cert.RefValue

end
-- ==== Proof.lean ====
/-
  The certificate of the graph-network loss kernel against its reference.

  The kernel program computes, with two pipelined kernels and host operations around them, the mean focal loss and the mean
  accuracy over 12,800,000 edges and over 200,000 nodes, and the sum of the two mean losses; the reference computes the
  same five numbers with host operations only. Over the extended reals they are the same functions of the arguments:
  per element both programs evaluate the same weight (the reference writes the sigmoid as a quotient, the square as a
  power and -|x| as a negation), and a sum does not depend on how it is grouped — the edge kernel sums tile by tile and
  lane by lane over a 2 x 5 grid, the node kernel sums a padded array under a mask that zeroes exactly the padding.
  Frames: each program runs to the end, faults nowhere and leaves its five argument arrays as launched.
-/
import proofs.«169834_j36790689858125_2_alg».proof.Defs
import proofs.«169834_j36790689858125_2_alg».proof.Proof.K.Run
import proofs.«169834_j36790689858125_2_alg».proof.Proof.KernelRun
import proofs.«169834_j36790689858125_2_alg».proof.Proof.RefValue
import proofs.«169834_j36790689858125_2_alg».proof.Proof.Gen.Pre_finite_inputs

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2.2) (Cert.ReferenceIdeal.Value.run (F := Ideal) m ρ)

/-- The ideal pass rewrote nothing: the idealization is the program's own text read over the extended reals. -/
theorem preserves : Cert.preserves_Kernel_KernelIdeal := trivial

/-- Both idealized programs end at the same five numbers: each at the specification's value of its own arguments, and
    the two memories agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, _, Cert.KernelIdeal.Hand.run_spec m ρ, ?_⟩
  refine (θ_run Cert.ReferenceIdeal.defs _ _).mono (fun r h c => ?_) (Cert.RefValue.run_spec m' ρ')
  obtain ⟨h0, h1, h2, h3, h4, hk⟩ := h c
  obtain ⟨e0, e1, e2, e3, e4⟩ := hagree c
  simp only [e0, e1, e2, e3, e4] at h0 h1 h2 h3 h4
  exact ⟨h0, h1, h2, h3, h4, hk⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
